-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2 : Shape := ⟨2, ![8192, 2]⟩
abbrev S8192x8192 : Shape := ⟨2, ![8192, 8192]⟩
abbrev S_ : Shape := ⟨0, ![]⟩

class Facts : Prop where
  bcast_S_S8192x2 : S_.BroadcastsInDim S8192x2 (![] : Fin 0 → Fin S8192x2.rank)
  reducesTo_S8192x2_S_d0_1 : S8192x2.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x2 .f32) (main_arg1 : FVec F S8192x8192 .f32) : IVec S_ 1 :=
  let main_v0 : FVec F S8192x2 .f32 := Host.absf main_arg0
  let main_cst : FVec F S_ .f32 := constant S_ .f32 0x7F800000#32
  let main_v1 : FVec F S8192x2 .f32 := broadcastInDim S8192x2 ![] bcast_S_S8192x2 main_cst
  let main_v2 : IVec S8192x2 1 := cmpf .olt main_v0 main_v1
  let main_c : IVec S_ 1 := constantI S_ 1 1#1
  let main_v3 : IVec S_ 1 := (fun x v => Host.reduce IntOp.andi x v reducesTo_S8192x2_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192x2 : Shape := ⟨2, ![8192, 2]⟩
abbrev S8192x8192 : Shape := ⟨2, ![8192, 8192]⟩
abbrev S1x128 : Shape := ⟨2, ![1, 128]⟩
abbrev S1024x2 : Shape := ⟨2, ![1024, 2]⟩
abbrev S1024x1024 : Shape := ⟨2, ![1024, 1024]⟩
abbrev S1024 : Shape := ⟨1, ![1024]⟩
abbrev S1024x1 : Shape := ⟨2, ![1024, 1]⟩
abbrev S2x1024 : Shape := ⟨2, ![2, 1024]⟩
abbrev S1x1024 : Shape := ⟨2, ![1, 1024]⟩
abbrev S1x1024x1024 : Shape := ⟨3, ![1, 1024, 1024]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 20
  | .vmem => 10
  | .smem => 0
  | _ => 0

abbrev bufTy : (tb : Table) → Fin (tcTables nBuf tb) → BufTy
  | .hbm, ⟨0, _⟩ => ⟨S8192x2, .f32⟩
  | .hbm, ⟨1, _⟩ => ⟨S8192x8192, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x1, .f32⟩
  | .hbm, ⟨7, _⟩ => ⟨S_, .f32⟩
  | .hbm, ⟨8, _⟩ => ⟨S1x1, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1024x2, .f32⟩
  | .local _ .vmem, ⟨1, _⟩ => ⟨S1024x2, .f32⟩
  | .local _ .vmem, ⟨2, _⟩ => ⟨S1024x2, .f32⟩
  | .local _ .vmem, ⟨3, _⟩ => ⟨S1024x2, .f32⟩
  | .local _ .vmem, ⟨4, _⟩ => ⟨S1024x1024, .f32⟩
  | .local _ .vmem, ⟨5, _⟩ => ⟨S1024x1024, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | _, _ => ⟨S8192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

class Facts₀ : Prop where
  inb_S1x128_S1x128_0_0 : ∀ a, (![0, 0] : Fin 2 → Nat) a + S1x128.size a ≤ S1x128.size a
  h_S1x128 : 0 < S1x128.numel
  inb_S1024x2_S1024x2_0_0 : ∀ a, (![0, 0] : Fin 2 → Nat) a + S1024x2.size a ≤ S1024x2.size a
  h_S1024x2 : 0 < S1024x2.numel
  inb_S1024x1024_S1024x1024_0_0 : ∀ a, (![0, 0] : Fin 2 → Nat) a + S1024x1024.size a ≤ S1024x1024.size a
  h_S1024x1024 : 0 < S1024x1024.numel
  reduces_S1024x2_S1024 : S1024x2.Reduces [1] S1024
  shapeCasts_S1024_S1024x1 : S1024.ShapeCasts S1024x1
  transposes_S1024x2_p1_0_S2x1024 : S1024x2.Transposes [1, 0] S2x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  shapeCasts_S1x128_S1x128 : S1x128.ShapeCasts S1x128
  slices_S1x128_S1x1_0_0 : S1x128.Slices ![0, 0] S1x1
  shapeCasts_S1x1_S_ : S1x1.ShapeCasts S_
  dot_S1024x2_S2x1024_S1024x1024_1_0_0_1_n_n_wf : DotDims.WF S1024x2 S2x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2.size a ≤ S8192x2.size a
  hwx0_0 : ∀ i : grid0.Coords, EltTy.bits .f32 = 32 ∨ (Rect.block (s := S8192x2) S1024x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2.size a ≤ S8192x2.size a
  hwx0_1 : ∀ i : grid0.Coords, EltTy.bits .f32 = 32 ∨ (Rect.block (s := S8192x2) S1024x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)

variable [Facts₀]

def dot_S1024x2_S2x1024_S1024x1024_1_0_0_1_n_n : DotDims S1024x2 S2x1024 S1024x1024 where
  lhsContracting := [1]
  rhsContracting := [0]
  lhsNonContracting := [0]
  rhsNonContracting := [1]
  lhsBatch := []
  rhsBatch := []
  wf := dot_S1024x2_S2x1024_S1024x1024_1_0_0_1_n_n_wf

abbrev win0_0 : Pipeline.Window sig grid0 :=
  Pipeline.Window.ofSpec (Memref.whole main_arg0) S1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_3) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x2 : Shape := ⟨2, ![8192, 2]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S2x8192 : Shape := ⟨2, ![2, 8192]⟩

abbrev nBuf : Space → Nat
  | .hbm => 34
  | .vmem => 0
  | .smem => 0
  | _ => 0

abbrev bufTy : (tb : Table) → Fin (tcTables nBuf tb) → BufTy
  | .hbm, ⟨0, _⟩ => ⟨S8192x2, .f32⟩
  | .hbm, ⟨1, _⟩ => ⟨S8192x8192, .f32⟩
  | .hbm, ⟨2, _⟩ => ⟨S8192x2, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S2x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S_, .f32⟩
  | _, _ => ⟨S8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  reducesTo_S8192x2_S8192_d1 : S8192x2.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x2_S2x8192_1_0 : S8192x2.Transposes [1, 0] S2x8192
  bcast_S_S8192x8192 : S_.BroadcastsInDim S8192x8192 (![] : Fin 0 → Fin S8192x8192.rank)
  reducesTo_S8192x8192_S_d0_1 : S8192x8192.ReducesTo [0, 1] S_
  dot_S8192x2_S2x8192_S8192x8192_1_0_0_1_n_n_wf : DotDims.WF S8192x2 S2x8192 S8192x8192 [1] [0] [0] [1] [] []

variable [Facts₀]

def dot_S8192x2_S2x8192_S8192x8192_1_0_0_1_n_n : DotDims S8192x2 S2x8192 S8192x8192 where
  lhsContracting := [1]
  rhsContracting := [0]
  lhsNonContracting := [0]
  rhsNonContracting := [1]
  lhsBatch := []
  rhsBatch := []
  wf := dot_S8192x2_S2x8192_S8192x8192_1_0_0_1_n_n_wf

class Facts : Prop extends Facts₀ where

variable [Facts]
-- ==== Proof.KbRuns.lean ====
/-
  What the two cases of the kernel body share.

  The grid is 8 x 8. At a grid point the body is handed a 1024-row block of the points for the row tile, another for the
  column tile, the 1024 x 1024 block of the weights at (row tile, column tile), and four 1 x 128 accumulators. It
  clears the accumulators at the first point only (both coordinates zero), and at every point adds to each the sum of
  one quantity over the tile. Here: the arrays as the region finds them, each window's block at a point, that an input
  window's buffer holds its block at every point whether or not it was fetched there, and the first-point condition in
  closed form.
-/
import proofs.«103825_j43121471651900_1_alg».proof.Proof.Gen.Kernel.Launch
import proofs.«103825_j43121471651900_1_alg».proof.Proof.Gen.Kernel.Skeleton
import proofs.«103825_j43121471651900_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the region is entered: as launched (the region is the first thing the program does). -/
abbrev V (c : Dev nD) (b : Ref sig .tc) : Buf (Elt F) ((c : Thread nD τ).loc b) := m ((c : Thread nD τ).loc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-tile block of the points is in its buffer at every point: fetched when the row tile changes, and left in
    place by the body in between. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column-tile block of the points is in its buffer at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The block of the weights is in its buffer at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The body's test "both grid coordinates are zero", as the body computes it from the coordinates. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first of the 64 points only. -/
theorem hcond0_0 : ∀ t : Fin cfg0.N, cond0_0 (grid0.coords t) ↔ t.val % 64 = 0 :=
  (by decide +kernel : ∀ t : Fin grid0.N, cond0_0 (grid0.coords t) ↔ t.val % 64 = 0)

/-- One staging buffer of each accumulator, through which its contents are stated. -/
abbrev VO0_3 : View sig .tc .vmem S1x128 .f32 := (Memref.whole cc0_stg3_0 : Memref sig .tc .vmem S1x128 .f32).view
abbrev VO0_4 : View sig .tc .vmem S1x128 .f32 := (Memref.whole cc0_stg4_0 : Memref sig .tc .vmem S1x128 .f32).view
abbrev VO0_5 : View sig .tc .vmem S1x128 .f32 := (Memref.whole cc0_stg5_0 : Memref sig .tc .vmem S1x128 .f32).view
abbrev VO0_6 : View sig .tc .vmem S1x128 .f32 := (Memref.whole cc0_stg6_0 : Memref sig .tc .vmem S1x128 .f32).view

/-- Each window's current staging buffer at point t, as the pipeline passes it, and that it is a whole buffer. -/
abbrev ms0_0 (t : Fin cfg0.N) : Memref sig .tc .vmem S1024x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)

end Cert.Kernel.Fr

end
-- ==== Proof.KbRunA.lean ====
/-
  The kernel body run once, at the first grid point (the accumulators are cleared first).

  On whole staging buffers — the three inputs at their contents, the four accumulators at anything — the body runs
  to the end, leaves the inputs as they were and each accumulator's buffer with the body's stores written into it;
  the stores each accumulator ends with are found when the buffer is handed to the continuation.
-/
import proofs.«103825_j43121471651900_1_alg».proof.Proof.KbRuns

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in each accumulator's buffer (last first) at the first point, with the proof that the body
    runs to them. -/
noncomputable def kernelRun0_A (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i)
    (x0 x1 : Vec F S1024x2 .f32) (x2 : Vec F S1024x1024 .f32) :
    Σ' (L3 : List (View.Piece (Elt F) S1x128 .f32)) (L4 : List (View.Piece (Elt F) S1x128 .f32)) (L5 : List (View.Piece (Elt F) S1x128 .f32)), { L6 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)) -∗ K ⟨⟩))
          ⊢ wp frame (wpE (defs₀ (F := F)) Variants.none c none) E (cc0__tsne_kernel i arg2 harg2 arg3 harg3 arg4 harg4 arg5 harg5 arg6 harg6 arg7 harg7 arg8 harg8) K } := by
  refine ⟨?_, ?_, ?_, ?_, fun E K => ?run⟩
  case run =>
    simp only [cc0__tsne_kernel_eq_skeleton]; unfold cc0__tsne_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    iexists _; iexact H6

end Cert.Kernel.Fr

end
-- ==== Proof.KbRunB.lean ====
/-
  The kernel body run once, at a later grid point (the accumulators hold what the point before left).

  On whole staging buffers — the three inputs at their contents, the four accumulators at their running contents — the body runs
  to the end, leaves the inputs as they were and each accumulator's buffer with the body's stores written into it;
  the stores each accumulator ends with are found when the buffer is handed to the continuation.
-/
import proofs.«103825_j43121471651900_1_alg».proof.Proof.KbRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in each accumulator's buffer (last first) at a later point, with the proof that the body
    runs to them. -/
noncomputable def kernelRun0_B (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i)
    (x0 x1 : Vec F S1024x2 .f32) (x2 : Vec F S1024x1024 .f32) (xo3 xo4 xo5 xo6 : Vec F S1x128 .f32) :
    Σ' (L3 : List (View.Piece (Elt F) S1x128 .f32)) (L4 : List (View.Piece (Elt F) S1x128 .f32)) (L5 : List (View.Piece (Elt F) S1x128 .f32)), { L6 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4 ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)) -∗ K ⟨⟩))
          ⊢ wp frame (wpE (defs₀ (F := F)) Variants.none c none) E (cc0__tsne_kernel i arg2 harg2 arg3 harg3 arg4 harg4 arg5 harg5 arg6 harg6 arg7 harg7 arg8 harg8) K } := by
  refine ⟨?_, ?_, ?_, ?_, fun E K => ?run⟩
  case run =>
    simp only [cc0__tsne_kernel_eq_skeleton]; unfold cc0__tsne_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    iexists _; iexact H6

end Cert.Kernel.Fr

end
-- ==== Proof.KbBody.lean ====
/-
  The kernel region's proof data and the body's obligation at every grid point.

  After the body at a point each input's buffer still holds its block; each accumulator's buffer holds, at the first
  point, what the body's stores leave over a cleared buffer, and at a later point what they leave over what the point
  before left. The accumulators are written back to their arrays at the last point only. The two windows that read
  the array of points hold one half of it each; every other window's array is held whole.
-/
import proofs.«103825_j43121471651900_1_alg».proof.Proof.KbRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the first point the stores into accumulator 0 cover its 1 x 128 block. -/
theorem cover0_A_3 (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i)
    (x0 x1 : Vec F S1024x2 .f32) (x2 : Vec F S1024x1024 .f32) (y : S1x128.Idx) :
    ∃ pc ∈ (kernelRun0_A c i arg2 harg2 arg3 harg3 arg4 harg4 arg5 harg5 arg6 harg6 arg7 harg7 arg8 harg8 hc0 x0 x1 x2).1, y ∈ pc.1.set :=
  View.cover_of_tiledL (kernelRun0_A c i arg2 harg2 arg3 harg3 arg4 harg4 arg5 harg5 arg6 harg6 arg7 harg7 arg8 harg8 hc0 x0 x1 x2).1 S1x128.size (by sl_kernel_rfl) y

/-- What accumulator 0's buffer holds after the body at the first point: its stores read back. -/
def out0_A_3 (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i)
    (x0 x1 : Vec F S1024x2 .f32) (x2 : Vec F S1024x1024 .f32) : Vec F S1x128 .f32 :=
  VO0_3.read (Elt F) (VO0_3.writes (Elt F) VO0_3.junk (kernelRun0_A c i arg2 harg2 arg3 harg3 arg4 harg4 arg5 harg5 arg6 harg6 arg7 harg7 arg8 harg8 hc0 x0 x1 x2).1)

/-- At the first point the stores into accumulator 1 cover its 1 x 128 block. -/
theorem cover0_A_4 (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i)
    (x0 x1 : Vec F S1024x2 .f32) (x2 : Vec F S1024x1024 .f32) (y : S1x128.Idx) :
    ∃ pc ∈ (kernelRun0_A c i arg2 harg2 arg3 harg3 arg4 harg4 arg5 harg5 arg6 harg6 arg7 harg7 arg8 harg8 hc0 x0 x1 x2).2.1, y ∈ pc.1.set :=
  View.cover_of_tiledL (kernelRun0_A c i arg2 harg2 arg3 harg3 arg4 harg4 arg5 harg5 arg6 harg6 arg7 harg7 arg8 harg8 hc0 x0 x1 x2).2.1 S1x128.size (by sl_kernel_rfl) y

/-- What accumulator 1's buffer holds after the body at the first point: its stores read back. -/
def out0_A_4 (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i)
    (x0 x1 : Vec F S1024x2 .f32) (x2 : Vec F S1024x1024 .f32) : Vec F S1x128 .f32 :=
  VO0_4.read (Elt F) (VO0_4.writes (Elt F) VO0_4.junk (kernelRun0_A c i arg2 harg2 arg3 harg3 arg4 harg4 arg5 harg5 arg6 harg6 arg7 harg7 arg8 harg8 hc0 x0 x1 x2).2.1)

/-- At the first point the stores into accumulator 2 cover its 1 x 128 block. -/
theorem cover0_A_5 (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i)
    (x0 x1 : Vec F S1024x2 .f32) (x2 : Vec F S1024x1024 .f32) (y : S1x128.Idx) :
    ∃ pc ∈ (kernelRun0_A c i arg2 harg2 arg3 harg3 arg4 harg4 arg5 harg5 arg6 harg6 arg7 harg7 arg8 harg8 hc0 x0 x1 x2).2.2.1, y ∈ pc.1.set :=
  View.cover_of_tiledL (kernelRun0_A c i arg2 harg2 arg3 harg3 arg4 harg4 arg5 harg5 arg6 harg6 arg7 harg7 arg8 harg8 hc0 x0 x1 x2).2.2.1 S1x128.size (by sl_kernel_rfl) y

/-- What accumulator 2's buffer holds after the body at the first point: its stores read back. -/
def out0_A_5 (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i)
    (x0 x1 : Vec F S1024x2 .f32) (x2 : Vec F S1024x1024 .f32) : Vec F S1x128 .f32 :=
  VO0_5.read (Elt F) (VO0_5.writes (Elt F) VO0_5.junk (kernelRun0_A c i arg2 harg2 arg3 harg3 arg4 harg4 arg5 harg5 arg6 harg6 arg7 harg7 arg8 harg8 hc0 x0 x1 x2).2.2.1)

/-- At the first point the stores into accumulator 3 cover its 1 x 128 block. -/
theorem cover0_A_6 (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i)
    (x0 x1 : Vec F S1024x2 .f32) (x2 : Vec F S1024x1024 .f32) (y : S1x128.Idx) :
    ∃ pc ∈ (kernelRun0_A c i arg2 harg2 arg3 harg3 arg4 harg4 arg5 harg5 arg6 harg6 arg7 harg7 arg8 harg8 hc0 x0 x1 x2).2.2.2.1, y ∈ pc.1.set :=
  View.cover_of_tiledL (kernelRun0_A c i arg2 harg2 arg3 harg3 arg4 harg4 arg5 harg5 arg6 harg6 arg7 harg7 arg8 harg8 hc0 x0 x1 x2).2.2.2.1 S1x128.size (by sl_kernel_rfl) y

/-- What accumulator 3's buffer holds after the body at the first point: its stores read back. -/
def out0_A_6 (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i)
    (x0 x1 : Vec F S1024x2 .f32) (x2 : Vec F S1024x1024 .f32) : Vec F S1x128 .f32 :=
  VO0_6.read (Elt F) (VO0_6.writes (Elt F) VO0_6.junk (kernelRun0_A c i arg2 harg2 arg3 harg3 arg4 harg4 arg5 harg5 arg6 harg6 arg7 harg7 arg8 harg8 hc0 x0 x1 x2).2.2.2.1)

/-- At a later point the stores into accumulator 0 cover its 1 x 128 block. -/
theorem cover0_B_3 (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i)
    (x0 x1 : Vec F S1024x2 .f32) (x2 : Vec F S1024x1024 .f32) (xo3 xo4 xo5 xo6 : Vec F S1x128 .f32) (y : S1x128.Idx) :
    ∃ pc ∈ (kernelRun0_B c i arg2 harg2 arg3 harg3 arg4 harg4 arg5 harg5 arg6 harg6 arg7 harg7 arg8 harg8 hc0 x0 x1 x2 xo3 xo4 xo5 xo6).1, y ∈ pc.1.set :=
  View.cover_of_tiledL (kernelRun0_B c i arg2 harg2 arg3 harg3 arg4 harg4 arg5 harg5 arg6 harg6 arg7 harg7 arg8 harg8 hc0 x0 x1 x2 xo3 xo4 xo5 xo6).1 S1x128.size (by sl_kernel_rfl) y

/-- What accumulator 0's buffer holds after the body at a later point: its stores read back. -/
def out0_B_3 (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i)
    (x0 x1 : Vec F S1024x2 .f32) (x2 : Vec F S1024x1024 .f32) (xo3 xo4 xo5 xo6 : Vec F S1x128 .f32) : Vec F S1x128 .f32 :=
  VO0_3.read (Elt F) (VO0_3.writes (Elt F) VO0_3.junk (kernelRun0_B c i arg2 harg2 arg3 harg3 arg4 harg4 arg5 harg5 arg6 harg6 arg7 harg7 arg8 harg8 hc0 x0 x1 x2 xo3 xo4 xo5 xo6).1)

/-- At a later point the stores into accumulator 1 cover its 1 x 128 block. -/
theorem cover0_B_4 (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i)
    (x0 x1 : Vec F S1024x2 .f32) (x2 : Vec F S1024x1024 .f32) (xo3 xo4 xo5 xo6 : Vec F S1x128 .f32) (y : S1x128.Idx) :
    ∃ pc ∈ (kernelRun0_B c i arg2 harg2 arg3 harg3 arg4 harg4 arg5 harg5 arg6 harg6 arg7 harg7 arg8 harg8 hc0 x0 x1 x2 xo3 xo4 xo5 xo6).2.1, y ∈ pc.1.set :=
  View.cover_of_tiledL (kernelRun0_B c i arg2 harg2 arg3 harg3 arg4 harg4 arg5 harg5 arg6 harg6 arg7 harg7 arg8 harg8 hc0 x0 x1 x2 xo3 xo4 xo5 xo6).2.1 S1x128.size (by sl_kernel_rfl) y

/-- What accumulator 1's buffer holds after the body at a later point: its stores read back. -/
def out0_B_4 (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i)
    (x0 x1 : Vec F S1024x2 .f32) (x2 : Vec F S1024x1024 .f32) (xo3 xo4 xo5 xo6 : Vec F S1x128 .f32) : Vec F S1x128 .f32 :=
  VO0_4.read (Elt F) (VO0_4.writes (Elt F) VO0_4.junk (kernelRun0_B c i arg2 harg2 arg3 harg3 arg4 harg4 arg5 harg5 arg6 harg6 arg7 harg7 arg8 harg8 hc0 x0 x1 x2 xo3 xo4 xo5 xo6).2.1)

/-- At a later point the stores into accumulator 2 cover its 1 x 128 block. -/
theorem cover0_B_5 (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i)
    (x0 x1 : Vec F S1024x2 .f32) (x2 : Vec F S1024x1024 .f32) (xo3 xo4 xo5 xo6 : Vec F S1x128 .f32) (y : S1x128.Idx) :
    ∃ pc ∈ (kernelRun0_B c i arg2 harg2 arg3 harg3 arg4 harg4 arg5 harg5 arg6 harg6 arg7 harg7 arg8 harg8 hc0 x0 x1 x2 xo3 xo4 xo5 xo6).2.2.1, y ∈ pc.1.set :=
  View.cover_of_tiledL (kernelRun0_B c i arg2 harg2 arg3 harg3 arg4 harg4 arg5 harg5 arg6 harg6 arg7 harg7 arg8 harg8 hc0 x0 x1 x2 xo3 xo4 xo5 xo6).2.2.1 S1x128.size (by sl_kernel_rfl) y

/-- What accumulator 2's buffer holds after the body at a later point: its stores read back. -/
def out0_B_5 (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i)
    (x0 x1 : Vec F S1024x2 .f32) (x2 : Vec F S1024x1024 .f32) (xo3 xo4 xo5 xo6 : Vec F S1x128 .f32) : Vec F S1x128 .f32 :=
  VO0_5.read (Elt F) (VO0_5.writes (Elt F) VO0_5.junk (kernelRun0_B c i arg2 harg2 arg3 harg3 arg4 harg4 arg5 harg5 arg6 harg6 arg7 harg7 arg8 harg8 hc0 x0 x1 x2 xo3 xo4 xo5 xo6).2.2.1)

/-- At a later point the stores into accumulator 3 cover its 1 x 128 block. -/
theorem cover0_B_6 (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i)
    (x0 x1 : Vec F S1024x2 .f32) (x2 : Vec F S1024x1024 .f32) (xo3 xo4 xo5 xo6 : Vec F S1x128 .f32) (y : S1x128.Idx) :
    ∃ pc ∈ (kernelRun0_B c i arg2 harg2 arg3 harg3 arg4 harg4 arg5 harg5 arg6 harg6 arg7 harg7 arg8 harg8 hc0 x0 x1 x2 xo3 xo4 xo5 xo6).2.2.2.1, y ∈ pc.1.set :=
  View.cover_of_tiledL (kernelRun0_B c i arg2 harg2 arg3 harg3 arg4 harg4 arg5 harg5 arg6 harg6 arg7 harg7 arg8 harg8 hc0 x0 x1 x2 xo3 xo4 xo5 xo6).2.2.2.1 S1x128.size (by sl_kernel_rfl) y

/-- What accumulator 3's buffer holds after the body at a later point: its stores read back. -/
def out0_B_6 (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i)
    (x0 x1 : Vec F S1024x2 .f32) (x2 : Vec F S1024x1024 .f32) (xo3 xo4 xo5 xo6 : Vec F S1x128 .f32) : Vec F S1x128 .f32 :=
  VO0_6.read (Elt F) (VO0_6.writes (Elt F) VO0_6.junk (kernelRun0_B c i arg2 harg2 arg3 harg3 arg4 harg4 arg5 harg5 arg6 harg6 arg7 harg7 arg8 harg8 hc0 x0 x1 x2 xo3 xo4 xo5 xo6).2.2.2.1)

/-! ## What the accumulators hold after each point -/

/-- The four accumulators' buffers after the body at position n: the first point's stores at n = 0, else the later
    point's stores over what position n - 1 left. -/
def outsAt0 (c : Dev nD) : (n : ℕ) → n < cfg0.N → Vec F S1x128 .f32 × Vec F S1x128 .f32 × Vec F S1x128 .f32 × Vec F S1x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 64 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2)

/-- At the first point. -/
theorem outsAt0_A (c : Dev nD) (t : Fin cfg0.N) (h0 : t.val % 64 = 0) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t)) := by
  obtain ⟨n, hn⟩ := t
  cases n with
  | zero => exact rfl
  | succ n => exact (dif_pos h0).trans rfl

/-- At a later point. -/
theorem outsAt0_B (c : Dev nD) (t : Fin cfg0.N) (h0 : ¬t.val % 64 = 0) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The proof data -/

/-- The region's proof data on a core: the arrays as the region finds them; after the body each input's buffer at its
    block and the accumulators' at the recursion above; between points only the scoped buffers no window stages (none); nothing owed; of the array of points each of its two windows holds a half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
    | ⟨6, _⟩ => (outsAt0 m c t.val t.isLt).2.2.2
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]
theorem after0_6 (c : Dev nD) (t : Fin cfg0.N) : (dats m 0 c).after 6 t = (outsAt0 m c t.val t.isLt).2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At a later point accumulator 0's buffer holds what the body left at the point before: it is written back at the last
    point only, so nothing touched it in between. -/
theorem before0_3_B (c : Dev nD) (t : Fin cfg0.N) (h0 : ¬t.val % 64 = 0) (d) :
    (dats m 0 c).before 3 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]

/-- At a later point accumulator 1's buffer holds what the body left at the point before: it is written back at the last
    point only, so nothing touched it in between. -/
theorem before0_4_B (c : Dev nD) (t : Fin cfg0.N) (h0 : ¬t.val % 64 = 0) (d) :
    (dats m 0 c).before 4 t d = (outsAt0 m c (t.val - 1) (Nat.lt_of_le_of_lt (Nat.sub_le _ _) t.isLt)).2.1 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-- At a later point accumulator 2's buffer holds what the body left at the point before: it is written back at the last
    point only, so nothing touched it in between. -/
theorem before0_5_B (c : Dev nD) (t : Fin cfg0.N) (h0 : ¬t.val % 64 = 0) (d) :
    (dats m 0 c).before 5 t d = (outsAt0 m c (t.val - 1) (Nat.lt_of_le_of_lt (Nat.sub_le _ _) t.isLt)).2.2.1 := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dats]

/-- At a later point accumulator 3's buffer holds what the body left at the point before: it is written back at the last
    point only, so nothing touched it in between. -/
theorem before0_6_B (c : Dev nD) (t : Fin cfg0.N) (h0 : ¬t.val % 64 = 0) (d) :
    (dats m 0 c).before 6 t d = (outsAt0 m c (t.val - 1) (Nat.lt_of_le_of_lt (Nat.sub_le _ _) t.isLt)).2.2.2 := by
  have hN : t.val < 64 := lt_of_lt_of_eq t.isLt (show cfg0.N = 64 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 1600000 in
/-- The body at any point: the inputs' buffers hold their blocks; the closed form says whether the point is the
    first; at a later point each accumulator's buffer holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  have hN : t.val < 64 := lt_of_lt_of_eq t.isLt (show cfg0.N = 64 from N_0)
  by_cases h0 : t.val % 64 = 0
  · rw [outsAt0_A m c t h0]
    try dsimp only
    unfold out0_A_3 out0_A_4 out0_A_5 out0_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk m c 0 t) (iblk m c 1 t) (iblk m c 2 t)).2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    iintro ⟨H0, H1, H2, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _ _)
  · rw [outsAt0_B m c t h0]
    simp only [before0_3_B m c t h0, before0_4_B m c t h0, before0_5_B m c t h0, before0_6_B m c t h0]
    try dsimp only
    unfold out0_B_3 out0_B_4 out0_B_5 out0_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk m c 0 t) (iblk m c 1 t) (iblk m c 2 t) _ _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _)
    unfold owns; iexists _; isplitr
    swap; · iexact H6
    ipureintro; exact View.read_writes_of_cover _ _ _ _ _ (cover0_B_6 c _ _ _ _ _ _ _ _ _ _ _ _ _ _ _ _ _ _ _ _ _ _ _)

/-- The body obligation at every point. -/
theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.LibSharedArrays.lean ====
/-
  Arrays that several input windows of one kernel region read.

  A kernel may be handed one array through several input windows (a matrix read as a left half and a right half, each
  by its own window). The pipeline then holds that array once per window, each window at its own share of it, and the
  shares of the windows on one buffer add up to the whole. This file regroups a core's unscoped buffers that way: a
  separating conjunction over an index set is the conjunction, over the values a function takes on it, of the
  conjunctions over the fibres; the buffers behind a region's arrays, each whole at the full share, are the pipeline's
  arrays with the windows of one fibre holding their shares; so a core's unscoped buffers at contents V are the
  region's arrays at V and the rest (the form a region is entered and left in), whether or not the arrays are distinct.
  A fibre of one window holds the full share; a fibre of two windows holds the two halves of it.
  For any signature, any type of values and any pipeline configuration.
-/
import Idealize.ShloMosaic.Lib.Pipeline.Launch

noncomputable section

namespace Idealize.ShloMosaic.Pipeline

open Idealize.SL
open Idealize.SL.BI (sProp bigSep bigSep_insert bigSep_congr bigSep_sdiff_split bigSep_filter_split bigSep_singleton)
open scoped Idealize.SL.BI
open Idealize.SL.BI.BIBase Idealize.SL.BI.Laws Idealize.SL.Sem Idealize.SL.ProofMode
open Idealize.SL.RA
open Idealize.ShloMosaic.TcCoe

set_option Elab.async false

/-- A separating conjunction over s, regrouped by the value of f: over each value b that f takes on s, the
    conjunction over the members of s that f sends to b. -/
theorem bigSep_fiberwise {M : Type _} [URA M] {I J : Type _} [DecidableEq I] [DecidableEq J] (s : Finset I) (f : I → J)
    (Φ : I → sProp M) :
    bigSep s Φ = bigSep (s.image f) fun b => bigSep (s.filter fun i => f i = b) Φ := by
  classical
  generalize hT : s.image f = T
  induction T using Finset.induction_on generalizing s with
  | empty =>
    have hs : s = ∅ := Finset.image_eq_empty.mp hT
    subst hs; rfl
  | insert b T hb ih =>
    have himg : (s.filter fun i => ¬ f i = b).image f = T := by
      ext x
      constructor
      · intro hx
        obtain ⟨i, hi, rfl⟩ := Finset.mem_image.mp hx
        have hi' := Finset.mem_filter.mp hi
        have : f i ∈ insert b T := hT ▸ Finset.mem_image_of_mem f hi'.1
        exact (Finset.mem_insert.mp this).resolve_left hi'.2
      · intro hx
        have : x ∈ s.image f := hT ▸ Finset.mem_insert_of_mem hx
        obtain ⟨i, hi, rfl⟩ := Finset.mem_image.mp this
        exact Finset.mem_image.mpr ⟨i, Finset.mem_filter.mpr ⟨hi, fun e => hb (e ▸ hx)⟩, rfl⟩
    rw [bigSep_insert hb, bigSep_filter_split s (fun i => f i = b), ih _ himg]
    refine congrArg _ (bigSep_congr fun b' hb' => ?_)
    refine congrArg (fun t => bigSep t Φ) ?_
    ext i
    simp only [Finset.mem_filter]
    constructor
    · rintro ⟨⟨hi, -⟩, e⟩; exact ⟨hi, e⟩
    · rintro ⟨hi, e⟩; exact ⟨⟨hi, fun e' => hb (e' ▸ e ▸ hb')⟩, e⟩

variable {nD : Nat} {τ : Topo} {sig : RefSig} {Val : EltTy → Type}
variable {Ix : Type} [DecidableEq Ix] {Name : Type} [DecidableEq Name] {U : Type} [URA U] {Lvl : Type}
variable {Λ₀ : SL.Sem.Labels}

local notation "𝕄" => MT nD τ sig Ix Val Name U Lvl

/-- What the windows on buffer b hold of it together is the whole of it: the condition under which a region's arrays
    are exactly the buffers behind them. -/
def FibreShares (cfg : Cfg sig Λ₀) (c : Dev nD) (dat : Dat τ Val Ix Name U Lvl cfg c) : Prop :=
  ∀ b ∈ Finset.univ.image (arrRef cfg.spec), ∀ g : Buf Val ((c.tc : Thread nD τ).loc b),
    ((((c.tc : Thread nD τ).loc b) ↦{fullShare} g) : sProp 𝕄)
      = bigSep (Finset.univ.filter fun w : Fin cfg.W => arrRef cfg.spec w = b) fun w => (((c.tc : Thread nD τ).loc b) ↦{dat.share w} g)

/-- The buffers behind a region's arrays, each whole at the full share at contents V, are the pipeline's arrays at V:
    every window holds its share of its array, the windows on one buffer the whole of it between them. -/
theorem arrBufs_eq_arrays (cfg : Cfg sig Λ₀) (c : Dev nD) (dat : Dat τ Val Ix Name U Lvl cfg c)
    (harr : ∀ w, (cfg.spec w).arr.IsWhole) (hfib : FibreShares cfg c dat)
    (V : (b : Ref sig .tc) → Buf Val ((c.tc : Thread nD τ).loc b))
    (F : (w : Fin cfg.W) → Buf Val ((cfg.win w).arr.view.loc (c.tc : Thread nD τ))) (hF : ∀ w, F w = V (arrRef cfg.spec w)) :
    (arrBufs cfg.spec c V : sProp 𝕄) = dat.arrays F := by
  classical
  unfold arrBufs Dat.arrays
  rw [bigSep_fiberwise Finset.univ (arrRef cfg.spec)]
  refine bigSep_congr fun b hb => ?_
  rw [hfib b hb (V b)]
  refine bigSep_congr fun w hw => ?_
  have e : arrRef cfg.spec w = b := (Finset.mem_filter.mp hw).2
  subst e
  rw [(harr w).set_eq_univ, hF]

/-- A core's unscoped buffers at contents V are a region's arrays at V and the unscoped rest, the arrays distinct or
    not: the form in which a region's arrays are taken out of the thread's buffers at its entry and put back at its
    exit. -/
theorem unscopedBufs_eq_arrays_rest (cfg : Cfg sig Λ₀) (c : Dev nD) (dat : Dat τ Val Ix Name U Lvl cfg c)
    (hun : ∀ w, (arrRef cfg.spec w).isScoped = false)
    (harr : ∀ w, (cfg.spec w).arr.IsWhole) (hfib : FibreShares cfg c dat)
    (V : (b : Ref sig .tc) → Buf Val ((c.tc : Thread nD τ).loc b))
    (F : (w : Fin cfg.W) → Buf Val ((cfg.win w).arr.view.loc (c.tc : Thread nD τ))) (hF : ∀ w, F w = V (arrRef cfg.spec w)) :
    (unscopedBufs c V : sProp 𝕄) = iprop(dat.arrays F ∗ unscopedRest cfg.spec c V) := by
  classical
  have hA : Finset.univ.image (arrRef cfg.spec) ⊆ Finset.univ.filter fun b : Ref sig .tc => ¬ b.isScoped := fun b hb => by
    obtain ⟨w, -, rfl⟩ := Finset.mem_image.mp hb
    exact Finset.mem_filter.mpr ⟨Finset.mem_univ _, by simp [hun w]⟩
  rw [← arrBufs_eq_arrays cfg c dat harr hfib V F hF]
  unfold unscopedBufs unscopedRest arrBufs
  rw [bigSep_sdiff_split hA]
  rfl

/-- EXIT with the arrays at new contents: the region's arrays at F and the unscoped rest at V are the core's unscoped
    buffers at any V' that has the arrays at F and agrees with V off them. -/
theorem unscopedBufs_of_arrays_rest (cfg : Cfg sig Λ₀) (c : Dev nD) (dat : Dat τ Val Ix Name U Lvl cfg c)
    (hun : ∀ w, (arrRef cfg.spec w).isScoped = false)
    (harr : ∀ w, (cfg.spec w).arr.IsWhole) (hfib : FibreShares cfg c dat)
    (V V' : (b : Ref sig .tc) → Buf Val ((c.tc : Thread nD τ).loc b))
    (F : (w : Fin cfg.W) → Buf Val ((cfg.win w).arr.view.loc (c.tc : Thread nD τ))) (hF : ∀ w, F w = V' (arrRef cfg.spec w))
    (hrest : ∀ b, b ∉ Finset.univ.image (arrRef cfg.spec) → V' b = V b) :
    iprop(dat.arrays F ∗ unscopedRest cfg.spec c V) ⊢ (unscopedBufs c V' : sProp 𝕄) := by
  rw [unscopedBufs_eq_arrays_rest cfg c dat hun harr hfib V' F hF]
  refine sep_mono .rfl (Entails.of_eq ?_)
  unfold unscopedRest
  exact bigSep_congr fun b hb => by rw [hrest b (Finset.mem_sdiff.mp hb).2]

/-- A buffer one window reads, held at the full share. -/
theorem fibre_one {ℓ : Loc nD τ sig} (g : Buf Val ℓ) {W : Nat} (S : Finset (Fin W)) (w : Fin W) (hS : S = {w})
    (q : Fin W → PosShare TreeShare) (hq : q w = fullShare) :
    ((ℓ ↦{fullShare} g) : sProp 𝕄) = bigSep S fun w' => (ℓ ↦{q w'} g) := by
  subst hS; rw [bigSep_singleton, hq]

/-- A buffer two windows read, one at each half of the full share. -/
theorem fibre_two {ℓ : Loc nD τ sig} (g : Buf Val ℓ) {W : Nat} (S : Finset (Fin W)) (w₁ w₂ : Fin W) (hne : w₁ ≠ w₂) (hS : S = {w₁, w₂})
    (q : Fin W → PosShare TreeShare) (hq₁ : q w₁ = fullShare.left) (hq₂ : q w₂ = fullShare.right) :
    ((ℓ ↦{fullShare} g) : sProp 𝕄) = bigSep S fun w' => (ℓ ↦{q w'} g) := by
  subst hS
  rw [bigSep_insert (by simpa using hne), bigSep_singleton, hq₁, hq₂]
  have h : ((ℓ ↦{fullShare} g) : sProp 𝕄) ⊣⊢ iprop((ℓ ↦{fullShare.left} g) ∗ (ℓ ↦{fullShare.right} g)) :=
    pointsTo_share (PosShare.mem_left_op_right fullShare)
  exact Idealize.SL.BI.equiv_iff.mp ⟨h.1, h.2⟩

end Idealize.ShloMosaic.Pipeline
-- ==== Proof.KbMain.lean ====
/-
  The whole program run: the kernel region, then the fourteen host operations that turn the four accumulated sums into
  the result.

  The program is entered with every buffer as launched. The region takes its seven windows' arrays out of the core's
  buffers — the array of points once for each of its two windows, a half each — runs the 64 grid points, and puts the
  arrays back with the four accumulator arrays at what the last point wrote back and everything else as it was. The
  host operations then run on those buffers. Read at the end: the result buffer holds the host operations' value of
  the four accumulator arrays, and the two argument arrays are as launched.
-/
import proofs.«103825_j43121471651900_1_alg».proof.Proof.KbBody
import proofs.«103825_j43121471651900_1_alg».proof.Proof.LibSharedArrays
import Idealize.ShloMosaic.Lib.Pipeline.Regions
import Idealize.ShloMosaic.Lib.Pipeline.Frame

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (ucRefs)

/-- The pipeline library's algebra is the certificate's. -/
abbrev EP : Emb (UR sig nD τ) (MT nD τ sig Unit (Elt F) ℕ (UR sig nD τ) ℕ) := emb₁
instance EP_landsIn : (EP (F := F) : Emb (UR sig nD τ) (MT nD τ sig Unit (Elt F) ℕ (UR sig nD τ) ℕ)).LandsIn (upEmb : UEmb _ (MT nD τ sig Unit (Elt F) ℕ (UR sig nD τ) ℕ)) := by
  unfold EP; infer_instance

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- A core's buffers at launch, as the host operations' valuation. -/
abbrev V₀ (c : Dev nD) : Valuation τ sig (Elt F) := fun b => (s₀ m ρ).mem ((c : Dev nD), b)

/-- The accumulator arrays after the region: what the last point wrote back. -/
abbrev fin (c : Dev nD) (w : Fin cfg0.W) : Buf (Elt F) ((cfg0.win w).arr.view.loc (c : Thread nD τ)) := (dats m 0 c).arrAt w cfg0.N

/-- A core's buffers after the region: the four accumulator arrays at what the region left, every other buffer as
    launched. -/
def V₁ (c : Dev nD) : Valuation τ sig (Elt F) :=
  Function.update (Function.update (Function.update (Function.update (V₀ m ρ c)
    (Proc.devRef .tc main_v0_0) (fin m c 3)) (Proc.devRef .tc main_v0_1) (fin m c 4)) (Proc.devRef .tc main_v0_2) (fin m c 5)) (Proc.devRef .tc main_v0_3) (fin m c 6)

theorem V₁_v0_3 (c : Dev nD) : V₁ m ρ c (Proc.devRef .tc main_v0_3) = fin m c 6 := by
  unfold V₁; rw [Function.update_self]
theorem V₁_v0_2 (c : Dev nD) : V₁ m ρ c (Proc.devRef .tc main_v0_2) = fin m c 5 := by
  unfold V₁; rw [Function.update_of_ne (by decide), Function.update_self]
theorem V₁_v0_1 (c : Dev nD) : V₁ m ρ c (Proc.devRef .tc main_v0_1) = fin m c 4 := by
  unfold V₁; rw [Function.update_of_ne (by decide), Function.update_of_ne (by decide), Function.update_self]
theorem V₁_v0_0 (c : Dev nD) : V₁ m ρ c (Proc.devRef .tc main_v0_0) = fin m c 3 := by
  unfold V₁; rw [Function.update_of_ne (by decide), Function.update_of_ne (by decide), Function.update_of_ne (by decide), Function.update_self]
/-- Off the four accumulator arrays nothing changed. -/
theorem V₁_other (c : Dev nD) (b : Ref sig .tc) (h0 : b ≠ main_v0_0) (h1 : b ≠ main_v0_1) (h2 : b ≠ main_v0_2) (h3 : b ≠ main_v0_3) :
    V₁ m ρ c (Proc.devRef .tc b) = V₀ m ρ c (Proc.devRef .tc b) := by
  unfold V₁
  rw [Function.update_of_ne (StableHlo.devRef_ne_of_ne h3), Function.update_of_ne (StableHlo.devRef_ne_of_ne h2),
    Function.update_of_ne (StableHlo.devRef_ne_of_ne h1), Function.update_of_ne (StableHlo.devRef_ne_of_ne h0)]

/-- What rides beside the buffers: the core owes nothing. -/
abbrev R (c : Dev nD) : sProp 𝕄 := iprop(∃ W, owes (c : Thread nD τ) (0 : CellTallies nD τ sig Unit) W)

/-! ## The arrays taken out of the buffers and put back -/

/-- The input windows never write their arrays. -/
theorem fin_in (c : Dev nD) (w : Fin cfg0.W) (hw : (cfg0.win w).isOut = false) : fin m c w = (dats m 0 c).A w :=
  (dats (F := F) m 0 c).arrAt_in w hw _

/-- The two windows on the array of points hold it between them; every other array has one window, which holds it
    whole. -/
theorem fibres (c : Dev nD) : Pipeline.FibreShares cfg0 c (dats (F := F) m 0 c) := by
  intro b hb g
  obtain ⟨w, -, rfl⟩ := Finset.mem_image.mp hb
  fin_cases w
  · exact Pipeline.fibre_two g _ 0 1 (by decide) (by decide) _ rfl rfl
  · exact Pipeline.fibre_two g _ 0 1 (by decide) (by decide) _ rfl rfl
  · exact Pipeline.fibre_one g _ 2 (by decide) _ rfl
  · exact Pipeline.fibre_one g _ 3 (by decide) _ rfl
  · exact Pipeline.fibre_one g _ 4 (by decide) _ rfl
  · exact Pipeline.fibre_one g _ 5 (by decide) _ rfl
  · exact Pipeline.fibre_one g _ 6 (by decide) _ rfl

theorem arr_unscoped : ∀ w : Fin cfg0.W, (Pipeline.arrRef cfg0.spec w).isScoped = false := by decide

/-- Each array after the region is what the buffers after the region hold at it. -/
theorem fin_eq_V₁ (c : Dev nD) (w : Fin cfg0.W) : fin m c w = V₁ m ρ c (Proc.devRef .tc (Pipeline.arrRef cfg0.spec w)) := by
  fin_cases w
  · exact (fin_in m c 0 rfl).trans ((A_eq m c 0).trans (V₁_other m ρ c main_arg0 (by decide) (by decide) (by decide) (by decide)).symm)
  · exact (fin_in m c 1 rfl).trans ((A_eq m c 1).trans (V₁_other m ρ c main_arg0 (by decide) (by decide) (by decide) (by decide)).symm)
  · exact (fin_in m c 2 rfl).trans ((A_eq m c 2).trans (V₁_other m ρ c main_arg1 (by decide) (by decide) (by decide) (by decide)).symm)
  · exact (V₁_v0_0 m ρ c).symm
  · exact (V₁_v0_1 m ρ c).symm
  · exact (V₁_v0_2 m ρ c).symm
  · exact (V₁_v0_3 m ρ c).symm

/-- Off the region's arrays the buffers after the region are the buffers as launched. -/
theorem V₁_rest (c : Dev nD) (b : Ref sig .tc) (hb : b ∉ Finset.univ.image (Pipeline.arrRef cfg0.spec)) :
    V₁ m ρ c (Proc.devRef .tc b) = V₀ m ρ c (Proc.devRef .tc b) :=
  V₁_other m ρ c b (fun h => hb (h ▸ Finset.mem_image.mpr ⟨3, Finset.mem_univ _, rfl⟩)) (fun h => hb (h ▸ Finset.mem_image.mpr ⟨4, Finset.mem_univ _, rfl⟩))
    (fun h => hb (h ▸ Finset.mem_image.mpr ⟨5, Finset.mem_univ _, rfl⟩)) (fun h => hb (h ▸ Finset.mem_image.mpr ⟨6, Finset.mem_univ _, rfl⟩))

/-! ## The host operations write neither argument -/

theorem not_written (b : Ref sig .tc) (hb : b ≠ main_v1 ∧ b ≠ main_v2 ∧ b ≠ main_v3 ∧ b ≠ main_v4 ∧ b ≠ main_v5 ∧ b ≠ main_v6 ∧ b ≠ main_v7 ∧ b ≠ main_v8 ∧ b ≠ main_cst ∧ b ≠ main_v9 ∧ b ≠ main_v10 ∧ b ≠ main_v11 ∧ b ≠ main_v12 ∧ b ≠ main_v13) :
    ∀ op ∈ (hostOps1 (F := F)), Proc.devRef .tc b ∉ op.writes := by
  obtain ⟨h1, h2, h3, h4, h5, h6, h7, h8, h9, h10, h11, h12, h13, h14⟩ := hb
  intro op hop
  simp only [List.mem_cons, List.mem_nil_iff, or_false] at hop
  rcases hop with rfl | rfl | rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-! ## The two segments -/

set_option backward.isDefEq.respectTransparency.types false in
/-- THE REGION. -/
def reg0 : Pipeline.RegionSeg (pcfgs (F := F)) adm (dats m) () defs₀ 𝒱₀ L lv 0 where
  win := winFacts₀0
  block_pos := block_pos0
  stage_whole := stage_whole0
  K := PEmpty
  osem := fun k : PEmpty => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (ucRefs τ sig) (V₀ m ρ c) ∗ R c)
  post c := iprop(StableHlo.held (c : Thread nD τ) (ucRefs τ sig) (V₁ m ρ c) ∗ R c)
  X c := iprop(emp)
  Y c := iprop(emp)
  Z c := Pipeline.unscopedRest (Ix := Unit) (Name := ℕ) (U := UR sig nD τ) (Lvl := ℕ) spec0 c (V m c)
  hentry c := by
    rw [show StableHlo.held (c : Thread nD τ) (ucRefs τ sig) (V₀ m ρ c) = unscopedBufs c (V m c) from (Pipeline.unscopedBufs_held c (V₀ m ρ c)).symm,
      Pipeline.unscopedBufs_eq_arrays_rest cfg0 c (dats m 0 c) arr_unscoped arr_whole0 (fibres m c) (V m c) (fun w => (dats m 0 c).arrAt w 0) (fun w => A_eq m c w)]
    iintro ⟨⟨⟨Ha, Hr⟩, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    have hput := Pipeline.unscopedBufs_of_arrays_rest cfg0 c (dats m 0 c) arr_unscoped arr_whole0 (fibres m c) (V m c) (fun b => V₁ m ρ c b)
      (fun w => (dats m 0 c).arrAt w cfg0.N) (fun w => fin_eq_V₁ m ρ c w) (fun b hb => V₁_rest m ρ c b hb)
    rw [show StableHlo.held (c : Thread nD τ) (ucRefs τ sig) (V₁ m ρ c) = unscopedBufs c (fun b => V₁ m ρ c b) from (Pipeline.unscopedBufs_held c (V₁ m ρ c)).symm]
    iintro ⟨Ha, HO, -, HZ⟩
    imodintro
    isplitr [HO]
    · iapply hput
      isplitl [Ha] <;> iassumption
    · unfold Pipeline.Dat.owesAt Pipeline.owesWithin
      icases HO with ⟨%W, -, HO⟩; iexists W; iexact HO

/-- THE HOST OPERATIONS after the region, over the unscoped buffers. -/
def seg1 : Pipeline.HostSeg (Name := ℕ) (U := UR sig nD τ) (pcfgs (F := F)) defs₀ 𝒱₀ L lv :=
  Pipeline.HostSeg.ofOps _ _ _ _ _ (ucRefs τ sig) hostOps1 (fun op h => Pipeline.sub_ucRefs op ((List.forall_iff_forall_mem.mp hostOps1_sub) op h))
    (by intro _ h; (repeat (cases h with | head => rfl | tail _ h => ?_)); exact nomatch h) (V₁ m ρ) R

/-- @main as the list of the two. -/
abbrev segs : List (Pipeline.Seg (pcfgs (F := F)) adm (dats m) () defs₀ 𝒱₀ L lv) := [.region (reg0 m ρ), .host (seg1 m ρ)]

/-- A core's buffers at the end. -/
abbrev V₂ (c : Dev nD) : Valuation τ sig (Elt F) := StableHlo.after hostOps1 (V₁ m ρ c)

/-- The end state: the result buffer at the host operations' value, both arguments as launched. -/
def QC : PUnit × MemSt nD τ sig (Elt F) → Prop := fun r =>
  ∀ c : Dev nD, r.2.mem ((c : Thread nD τ).loc main_v13) = V₂ m ρ c (Proc.devRef .tc main_v13)
    ∧ r.2.mem ((c : Thread nD τ).loc main_arg0) = m ((c : Thread nD τ).loc main_arg0)
    ∧ r.2.mem ((c : Thread nD τ).loc main_arg1) = m ((c : Thread nD τ).loc main_arg1)

theorem V₂_arg0 (c : Dev nD) : V₂ m ρ c (Proc.devRef .tc main_arg0) = m ((c : Thread nD τ).loc main_arg0) :=
  (StableHlo.after_of_forall_not_mem (b := Proc.devRef .tc main_arg0) hostOps1 (V₁ m ρ c) (not_written main_arg0 (by decide))).trans
    (V₁_other m ρ c main_arg0 (by decide) (by decide) (by decide) (by decide))
theorem V₂_arg1 (c : Dev nD) : V₂ m ρ c (Proc.devRef .tc main_arg1) = m ((c : Thread nD τ).loc main_arg1) :=
  (StableHlo.after_of_forall_not_mem (b := Proc.devRef .tc main_arg1) hostOps1 (V₁ m ρ c) (not_written main_arg1 (by decide))).trans
    (V₁_other m ρ c main_arg1 (by decide) (by decide) (by decide) (by decide))

set_option backward.isDefEq.respectTransparency.types false in
/-- From any memory with zero counters, every weakly fair execution of the program on the TensorCores terminates, and
    every final state has the result at the host operations' value of what the region left and both arguments
    unchanged. -/
theorem run_main : θ_run defs (onTc (τ := τ) (main (F := F))) (s₀ m ρ) (QC m ρ) :=
  Pipeline.θ_run_regions_kit (pcfgs (F := F)) adm (dats m) () cellOf_inj EP defs₀ 𝒱₀ L lv m ρ main (segs m ρ)
    (fun c Q => by rw [main_segs adm (dats m) () 𝒱₀ L lv (seg1 m ρ) (reg0 m ρ) rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V₀ m ρ c) ∗ R c))
    (Tₙ := fun c => StableHlo.held (c : Thread nD τ) (ucRefs τ sig) (V₂ m ρ c))
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => s.mem ((c : Thread nD τ).loc main_v13) = V₂ m ρ c (Proc.devRef .tc main_v13)
      ∧ s.mem ((c : Thread nD τ).loc main_arg0) = m ((c : Thread nD τ).loc main_arg0)
      ∧ s.mem ((c : Thread nD τ).loc main_arg1) = m ((c : Thread nD τ).loc main_arg1))
    (hfin := fun c s' => by
      rw [show StableHlo.held (c : Thread nD τ) (ucRefs τ sig) (V₂ m ρ c) = unscopedBufs c (fun b => V₂ m ρ c b) from (Pipeline.unscopedBufs_held c (V₂ m ρ c)).symm]
      unfold unscopedBufs
      iintro ⟨Hh, HSI⟩
      ihave Hr := (pointsTo_read_all (Finset.univ.filter fun b : Ref sig .tc => ¬ b.isScoped) (fun b => (c : Thread nD τ).loc b) (fun b => V₂ m ρ c b) s') $$ [Hh HSI]
      · isplitl [Hh] <;> iassumption
      icases Hr with ⟨%ha, HSI⟩
      imodintro
      isplitr
      · ipureintro
        exact ⟨ha main_v13 (by decide), (ha main_arg0 (by decide)).trans (V₂_arg0 m ρ c), (ha main_arg1 (by decide)).trans (V₂_arg1 m ρ c)⟩
      iexact HSI)
    (hQ := fun _ h => h)

/-- THE FRAME: the program runs to the end, faults nowhere, and leaves both argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Fr

end
-- ==== Proof.KiRuns.lean ====
/-
  What the two cases of the kernel body share.

  The grid is 8 x 8. At a grid point the body is handed a 1024-row block of the points for the row tile, another for the
  column tile, the 1024 x 1024 block of the weights at (row tile, column tile), and four 1 x 128 accumulators. It
  clears the accumulators at the first point only (both coordinates zero), and at every point adds to each the sum of
  one quantity over the tile. Here: the arrays as the region finds them, each window's block at a point, that an input
  window's buffer holds its block at every point whether or not it was fetched there, and the first-point condition in
  closed form.
-/
import proofs.«103825_j43121471651900_1_alg».proof.Proof.Gen.KernelIdeal.Launch
import proofs.«103825_j43121471651900_1_alg».proof.Proof.Gen.KernelIdeal.Skeleton
import proofs.«103825_j43121471651900_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the region is entered: as launched (the region is the first thing the program does). -/
abbrev V (c : Dev nD) (b : Ref sig .tc) : Buf (Elt F) ((c : Thread nD τ).loc b) := m ((c : Thread nD τ).loc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-tile block of the points is in its buffer at every point: fetched when the row tile changes, and left in
    place by the body in between. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column-tile block of the points is in its buffer at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The block of the weights is in its buffer at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The body's test "both grid coordinates are zero", as the body computes it from the coordinates. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first of the 64 points only. -/
theorem hcond0_0 : ∀ t : Fin cfg0.N, cond0_0 (grid0.coords t) ↔ t.val % 64 = 0 :=
  (by decide +kernel : ∀ t : Fin grid0.N, cond0_0 (grid0.coords t) ↔ t.val % 64 = 0)

/-- One staging buffer of each accumulator, through which its contents are stated. -/
abbrev VO0_3 : View sig .tc .vmem S1x128 .f32 := (Memref.whole cc0_stg3_0 : Memref sig .tc .vmem S1x128 .f32).view
abbrev VO0_4 : View sig .tc .vmem S1x128 .f32 := (Memref.whole cc0_stg4_0 : Memref sig .tc .vmem S1x128 .f32).view
abbrev VO0_5 : View sig .tc .vmem S1x128 .f32 := (Memref.whole cc0_stg5_0 : Memref sig .tc .vmem S1x128 .f32).view
abbrev VO0_6 : View sig .tc .vmem S1x128 .f32 := (Memref.whole cc0_stg6_0 : Memref sig .tc .vmem S1x128 .f32).view

/-- Each window's current staging buffer at point t, as the pipeline passes it, and that it is a whole buffer. -/
abbrev ms0_0 (t : Fin cfg0.N) : Memref sig .tc .vmem S1024x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)

end Cert.KernelIdeal.Fr

end
-- ==== Proof.KiRunA.lean ====
/-
  The kernel body run once, at the first grid point (the accumulators are cleared first).

  On whole staging buffers — the three inputs at their contents, the four accumulators at anything — the body runs
  to the end, leaves the inputs as they were and each accumulator's buffer with the body's stores written into it;
  the stores each accumulator ends with are found when the buffer is handed to the continuation.
-/
import proofs.«103825_j43121471651900_1_alg».proof.Proof.KiRuns

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in each accumulator's buffer (last first) at the first point, with the proof that the body
    runs to them. -/
noncomputable def kernelRun0_A (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i)
    (x0 x1 : Vec F S1024x2 .f32) (x2 : Vec F S1024x1024 .f32) :
    Σ' (L3 : List (View.Piece (Elt F) S1x128 .f32)) (L4 : List (View.Piece (Elt F) S1x128 .f32)) (L5 : List (View.Piece (Elt F) S1x128 .f32)), { L6 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)) -∗ K ⟨⟩))
          ⊢ wp frame (wpE (defs₀ (F := F)) Variants.none c none) E (cc0__tsne_kernel i arg2 harg2 arg3 harg3 arg4 harg4 arg5 harg5 arg6 harg6 arg7 harg7 arg8 harg8) K } := by
  refine ⟨?_, ?_, ?_, ?_, fun E K => ?run⟩
  case run =>
    simp only [cc0__tsne_kernel_eq_skeleton]; unfold cc0__tsne_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    iexists _; iexact H6

end Cert.KernelIdeal.Fr

end
-- ==== Proof.KiRunB.lean ====
/-
  The kernel body run once, at a later grid point (the accumulators hold what the point before left).

  On whole staging buffers — the three inputs at their contents, the four accumulators at their running contents — the body runs
  to the end, leaves the inputs as they were and each accumulator's buffer with the body's stores written into it;
  the stores each accumulator ends with are found when the buffer is handed to the continuation.
-/
import proofs.«103825_j43121471651900_1_alg».proof.Proof.KiRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in each accumulator's buffer (last first) at a later point, with the proof that the body
    runs to them. -/
noncomputable def kernelRun0_B (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i)
    (x0 x1 : Vec F S1024x2 .f32) (x2 : Vec F S1024x1024 .f32) (xo3 xo4 xo5 xo6 : Vec F S1x128 .f32) :
    Σ' (L3 : List (View.Piece (Elt F) S1x128 .f32)) (L4 : List (View.Piece (Elt F) S1x128 .f32)) (L5 : List (View.Piece (Elt F) S1x128 .f32)), { L6 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4 ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)) -∗ K ⟨⟩))
          ⊢ wp frame (wpE (defs₀ (F := F)) Variants.none c none) E (cc0__tsne_kernel i arg2 harg2 arg3 harg3 arg4 harg4 arg5 harg5 arg6 harg6 arg7 harg7 arg8 harg8) K } := by
  refine ⟨?_, ?_, ?_, ?_, fun E K => ?run⟩
  case run =>
    simp only [cc0__tsne_kernel_eq_skeleton]; unfold cc0__tsne_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    iexists _; iexact H6

end Cert.KernelIdeal.Fr

end
-- ==== Proof.KiBody.lean ====
/-
  The kernel region's proof data and the body's obligation at every grid point.

  After the body at a point each input's buffer still holds its block; each accumulator's buffer holds, at the first
  point, what the body's stores leave over a cleared buffer, and at a later point what they leave over what the point
  before left. The accumulators are written back to their arrays at the last point only. The two windows that read
  the array of points hold one half of it each; every other window's array is held whole.
-/
import proofs.«103825_j43121471651900_1_alg».proof.Proof.KiRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the first point the stores into accumulator 0 cover its 1 x 128 block. -/
theorem cover0_A_3 (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i)
    (x0 x1 : Vec F S1024x2 .f32) (x2 : Vec F S1024x1024 .f32) (y : S1x128.Idx) :
    ∃ pc ∈ (kernelRun0_A c i arg2 harg2 arg3 harg3 arg4 harg4 arg5 harg5 arg6 harg6 arg7 harg7 arg8 harg8 hc0 x0 x1 x2).1, y ∈ pc.1.set :=
  View.cover_of_tiledL (kernelRun0_A c i arg2 harg2 arg3 harg3 arg4 harg4 arg5 harg5 arg6 harg6 arg7 harg7 arg8 harg8 hc0 x0 x1 x2).1 S1x128.size (by sl_kernel_rfl) y

/-- What accumulator 0's buffer holds after the body at the first point: its stores read back. -/
def out0_A_3 (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i)
    (x0 x1 : Vec F S1024x2 .f32) (x2 : Vec F S1024x1024 .f32) : Vec F S1x128 .f32 :=
  VO0_3.read (Elt F) (VO0_3.writes (Elt F) VO0_3.junk (kernelRun0_A c i arg2 harg2 arg3 harg3 arg4 harg4 arg5 harg5 arg6 harg6 arg7 harg7 arg8 harg8 hc0 x0 x1 x2).1)

/-- At the first point the stores into accumulator 1 cover its 1 x 128 block. -/
theorem cover0_A_4 (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i)
    (x0 x1 : Vec F S1024x2 .f32) (x2 : Vec F S1024x1024 .f32) (y : S1x128.Idx) :
    ∃ pc ∈ (kernelRun0_A c i arg2 harg2 arg3 harg3 arg4 harg4 arg5 harg5 arg6 harg6 arg7 harg7 arg8 harg8 hc0 x0 x1 x2).2.1, y ∈ pc.1.set :=
  View.cover_of_tiledL (kernelRun0_A c i arg2 harg2 arg3 harg3 arg4 harg4 arg5 harg5 arg6 harg6 arg7 harg7 arg8 harg8 hc0 x0 x1 x2).2.1 S1x128.size (by sl_kernel_rfl) y

/-- What accumulator 1's buffer holds after the body at the first point: its stores read back. -/
def out0_A_4 (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i)
    (x0 x1 : Vec F S1024x2 .f32) (x2 : Vec F S1024x1024 .f32) : Vec F S1x128 .f32 :=
  VO0_4.read (Elt F) (VO0_4.writes (Elt F) VO0_4.junk (kernelRun0_A c i arg2 harg2 arg3 harg3 arg4 harg4 arg5 harg5 arg6 harg6 arg7 harg7 arg8 harg8 hc0 x0 x1 x2).2.1)

/-- At the first point the stores into accumulator 2 cover its 1 x 128 block. -/
theorem cover0_A_5 (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i)
    (x0 x1 : Vec F S1024x2 .f32) (x2 : Vec F S1024x1024 .f32) (y : S1x128.Idx) :
    ∃ pc ∈ (kernelRun0_A c i arg2 harg2 arg3 harg3 arg4 harg4 arg5 harg5 arg6 harg6 arg7 harg7 arg8 harg8 hc0 x0 x1 x2).2.2.1, y ∈ pc.1.set :=
  View.cover_of_tiledL (kernelRun0_A c i arg2 harg2 arg3 harg3 arg4 harg4 arg5 harg5 arg6 harg6 arg7 harg7 arg8 harg8 hc0 x0 x1 x2).2.2.1 S1x128.size (by sl_kernel_rfl) y

/-- What accumulator 2's buffer holds after the body at the first point: its stores read back. -/
def out0_A_5 (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i)
    (x0 x1 : Vec F S1024x2 .f32) (x2 : Vec F S1024x1024 .f32) : Vec F S1x128 .f32 :=
  VO0_5.read (Elt F) (VO0_5.writes (Elt F) VO0_5.junk (kernelRun0_A c i arg2 harg2 arg3 harg3 arg4 harg4 arg5 harg5 arg6 harg6 arg7 harg7 arg8 harg8 hc0 x0 x1 x2).2.2.1)

/-- At the first point the stores into accumulator 3 cover its 1 x 128 block. -/
theorem cover0_A_6 (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i)
    (x0 x1 : Vec F S1024x2 .f32) (x2 : Vec F S1024x1024 .f32) (y : S1x128.Idx) :
    ∃ pc ∈ (kernelRun0_A c i arg2 harg2 arg3 harg3 arg4 harg4 arg5 harg5 arg6 harg6 arg7 harg7 arg8 harg8 hc0 x0 x1 x2).2.2.2.1, y ∈ pc.1.set :=
  View.cover_of_tiledL (kernelRun0_A c i arg2 harg2 arg3 harg3 arg4 harg4 arg5 harg5 arg6 harg6 arg7 harg7 arg8 harg8 hc0 x0 x1 x2).2.2.2.1 S1x128.size (by sl_kernel_rfl) y

/-- What accumulator 3's buffer holds after the body at the first point: its stores read back. -/
def out0_A_6 (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i)
    (x0 x1 : Vec F S1024x2 .f32) (x2 : Vec F S1024x1024 .f32) : Vec F S1x128 .f32 :=
  VO0_6.read (Elt F) (VO0_6.writes (Elt F) VO0_6.junk (kernelRun0_A c i arg2 harg2 arg3 harg3 arg4 harg4 arg5 harg5 arg6 harg6 arg7 harg7 arg8 harg8 hc0 x0 x1 x2).2.2.2.1)

/-- At a later point the stores into accumulator 0 cover its 1 x 128 block. -/
theorem cover0_B_3 (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i)
    (x0 x1 : Vec F S1024x2 .f32) (x2 : Vec F S1024x1024 .f32) (xo3 xo4 xo5 xo6 : Vec F S1x128 .f32) (y : S1x128.Idx) :
    ∃ pc ∈ (kernelRun0_B c i arg2 harg2 arg3 harg3 arg4 harg4 arg5 harg5 arg6 harg6 arg7 harg7 arg8 harg8 hc0 x0 x1 x2 xo3 xo4 xo5 xo6).1, y ∈ pc.1.set :=
  View.cover_of_tiledL (kernelRun0_B c i arg2 harg2 arg3 harg3 arg4 harg4 arg5 harg5 arg6 harg6 arg7 harg7 arg8 harg8 hc0 x0 x1 x2 xo3 xo4 xo5 xo6).1 S1x128.size (by sl_kernel_rfl) y

/-- What accumulator 0's buffer holds after the body at a later point: its stores read back. -/
def out0_B_3 (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i)
    (x0 x1 : Vec F S1024x2 .f32) (x2 : Vec F S1024x1024 .f32) (xo3 xo4 xo5 xo6 : Vec F S1x128 .f32) : Vec F S1x128 .f32 :=
  VO0_3.read (Elt F) (VO0_3.writes (Elt F) VO0_3.junk (kernelRun0_B c i arg2 harg2 arg3 harg3 arg4 harg4 arg5 harg5 arg6 harg6 arg7 harg7 arg8 harg8 hc0 x0 x1 x2 xo3 xo4 xo5 xo6).1)

/-- At a later point the stores into accumulator 1 cover its 1 x 128 block. -/
theorem cover0_B_4 (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i)
    (x0 x1 : Vec F S1024x2 .f32) (x2 : Vec F S1024x1024 .f32) (xo3 xo4 xo5 xo6 : Vec F S1x128 .f32) (y : S1x128.Idx) :
    ∃ pc ∈ (kernelRun0_B c i arg2 harg2 arg3 harg3 arg4 harg4 arg5 harg5 arg6 harg6 arg7 harg7 arg8 harg8 hc0 x0 x1 x2 xo3 xo4 xo5 xo6).2.1, y ∈ pc.1.set :=
  View.cover_of_tiledL (kernelRun0_B c i arg2 harg2 arg3 harg3 arg4 harg4 arg5 harg5 arg6 harg6 arg7 harg7 arg8 harg8 hc0 x0 x1 x2 xo3 xo4 xo5 xo6).2.1 S1x128.size (by sl_kernel_rfl) y

/-- What accumulator 1's buffer holds after the body at a later point: its stores read back. -/
def out0_B_4 (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i)
    (x0 x1 : Vec F S1024x2 .f32) (x2 : Vec F S1024x1024 .f32) (xo3 xo4 xo5 xo6 : Vec F S1x128 .f32) : Vec F S1x128 .f32 :=
  VO0_4.read (Elt F) (VO0_4.writes (Elt F) VO0_4.junk (kernelRun0_B c i arg2 harg2 arg3 harg3 arg4 harg4 arg5 harg5 arg6 harg6 arg7 harg7 arg8 harg8 hc0 x0 x1 x2 xo3 xo4 xo5 xo6).2.1)

/-- At a later point the stores into accumulator 2 cover its 1 x 128 block. -/
theorem cover0_B_5 (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i)
    (x0 x1 : Vec F S1024x2 .f32) (x2 : Vec F S1024x1024 .f32) (xo3 xo4 xo5 xo6 : Vec F S1x128 .f32) (y : S1x128.Idx) :
    ∃ pc ∈ (kernelRun0_B c i arg2 harg2 arg3 harg3 arg4 harg4 arg5 harg5 arg6 harg6 arg7 harg7 arg8 harg8 hc0 x0 x1 x2 xo3 xo4 xo5 xo6).2.2.1, y ∈ pc.1.set :=
  View.cover_of_tiledL (kernelRun0_B c i arg2 harg2 arg3 harg3 arg4 harg4 arg5 harg5 arg6 harg6 arg7 harg7 arg8 harg8 hc0 x0 x1 x2 xo3 xo4 xo5 xo6).2.2.1 S1x128.size (by sl_kernel_rfl) y

/-- What accumulator 2's buffer holds after the body at a later point: its stores read back. -/
def out0_B_5 (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i)
    (x0 x1 : Vec F S1024x2 .f32) (x2 : Vec F S1024x1024 .f32) (xo3 xo4 xo5 xo6 : Vec F S1x128 .f32) : Vec F S1x128 .f32 :=
  VO0_5.read (Elt F) (VO0_5.writes (Elt F) VO0_5.junk (kernelRun0_B c i arg2 harg2 arg3 harg3 arg4 harg4 arg5 harg5 arg6 harg6 arg7 harg7 arg8 harg8 hc0 x0 x1 x2 xo3 xo4 xo5 xo6).2.2.1)

/-- At a later point the stores into accumulator 3 cover its 1 x 128 block. -/
theorem cover0_B_6 (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i)
    (x0 x1 : Vec F S1024x2 .f32) (x2 : Vec F S1024x1024 .f32) (xo3 xo4 xo5 xo6 : Vec F S1x128 .f32) (y : S1x128.Idx) :
    ∃ pc ∈ (kernelRun0_B c i arg2 harg2 arg3 harg3 arg4 harg4 arg5 harg5 arg6 harg6 arg7 harg7 arg8 harg8 hc0 x0 x1 x2 xo3 xo4 xo5 xo6).2.2.2.1, y ∈ pc.1.set :=
  View.cover_of_tiledL (kernelRun0_B c i arg2 harg2 arg3 harg3 arg4 harg4 arg5 harg5 arg6 harg6 arg7 harg7 arg8 harg8 hc0 x0 x1 x2 xo3 xo4 xo5 xo6).2.2.2.1 S1x128.size (by sl_kernel_rfl) y

/-- What accumulator 3's buffer holds after the body at a later point: its stores read back. -/
def out0_B_6 (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i)
    (x0 x1 : Vec F S1024x2 .f32) (x2 : Vec F S1024x1024 .f32) (xo3 xo4 xo5 xo6 : Vec F S1x128 .f32) : Vec F S1x128 .f32 :=
  VO0_6.read (Elt F) (VO0_6.writes (Elt F) VO0_6.junk (kernelRun0_B c i arg2 harg2 arg3 harg3 arg4 harg4 arg5 harg5 arg6 harg6 arg7 harg7 arg8 harg8 hc0 x0 x1 x2 xo3 xo4 xo5 xo6).2.2.2.1)

/-! ## What the accumulators hold after each point -/

/-- The four accumulators' buffers after the body at position n: the first point's stores at n = 0, else the later
    point's stores over what position n - 1 left. -/
def outsAt0 (c : Dev nD) : (n : ℕ) → n < cfg0.N → Vec F S1x128 .f32 × Vec F S1x128 .f32 × Vec F S1x128 .f32 × Vec F S1x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 64 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2)

/-- At the first point. -/
theorem outsAt0_A (c : Dev nD) (t : Fin cfg0.N) (h0 : t.val % 64 = 0) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t)) := by
  obtain ⟨n, hn⟩ := t
  cases n with
  | zero => exact rfl
  | succ n => exact (dif_pos h0).trans rfl

/-- At a later point. -/
theorem outsAt0_B (c : Dev nD) (t : Fin cfg0.N) (h0 : ¬t.val % 64 = 0) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The proof data -/

/-- The region's proof data on a core: the arrays as the region finds them; after the body each input's buffer at its
    block and the accumulators' at the recursion above; between points only the scoped buffers no window stages (none); nothing owed; of the array of points each of its two windows holds a half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
    | ⟨6, _⟩ => (outsAt0 m c t.val t.isLt).2.2.2
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]
theorem after0_6 (c : Dev nD) (t : Fin cfg0.N) : (dats m 0 c).after 6 t = (outsAt0 m c t.val t.isLt).2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At a later point accumulator 0's buffer holds what the body left at the point before: it is written back at the last
    point only, so nothing touched it in between. -/
theorem before0_3_B (c : Dev nD) (t : Fin cfg0.N) (h0 : ¬t.val % 64 = 0) (d) :
    (dats m 0 c).before 3 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]

/-- At a later point accumulator 1's buffer holds what the body left at the point before: it is written back at the last
    point only, so nothing touched it in between. -/
theorem before0_4_B (c : Dev nD) (t : Fin cfg0.N) (h0 : ¬t.val % 64 = 0) (d) :
    (dats m 0 c).before 4 t d = (outsAt0 m c (t.val - 1) (Nat.lt_of_le_of_lt (Nat.sub_le _ _) t.isLt)).2.1 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-- At a later point accumulator 2's buffer holds what the body left at the point before: it is written back at the last
    point only, so nothing touched it in between. -/
theorem before0_5_B (c : Dev nD) (t : Fin cfg0.N) (h0 : ¬t.val % 64 = 0) (d) :
    (dats m 0 c).before 5 t d = (outsAt0 m c (t.val - 1) (Nat.lt_of_le_of_lt (Nat.sub_le _ _) t.isLt)).2.2.1 := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dats]

/-- At a later point accumulator 3's buffer holds what the body left at the point before: it is written back at the last
    point only, so nothing touched it in between. -/
theorem before0_6_B (c : Dev nD) (t : Fin cfg0.N) (h0 : ¬t.val % 64 = 0) (d) :
    (dats m 0 c).before 6 t d = (outsAt0 m c (t.val - 1) (Nat.lt_of_le_of_lt (Nat.sub_le _ _) t.isLt)).2.2.2 := by
  have hN : t.val < 64 := lt_of_lt_of_eq t.isLt (show cfg0.N = 64 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 1600000 in
/-- The body at any point: the inputs' buffers hold their blocks; the closed form says whether the point is the
    first; at a later point each accumulator's buffer holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  have hN : t.val < 64 := lt_of_lt_of_eq t.isLt (show cfg0.N = 64 from N_0)
  by_cases h0 : t.val % 64 = 0
  · rw [outsAt0_A m c t h0]
    try dsimp only
    unfold out0_A_3 out0_A_4 out0_A_5 out0_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk m c 0 t) (iblk m c 1 t) (iblk m c 2 t)).2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    iintro ⟨H0, H1, H2, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _ _)
  · rw [outsAt0_B m c t h0]
    simp only [before0_3_B m c t h0, before0_4_B m c t h0, before0_5_B m c t h0, before0_6_B m c t h0]
    try dsimp only
    unfold out0_B_3 out0_B_4 out0_B_5 out0_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk m c 0 t) (iblk m c 1 t) (iblk m c 2 t) _ _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _)
    unfold owns; iexists _; isplitr
    swap; · iexact H6
    ipureintro; exact View.read_writes_of_cover _ _ _ _ _ (cover0_B_6 c _ _ _ _ _ _ _ _ _ _ _ _ _ _ _ _ _ _ _ _ _ _ _)

/-- The body obligation at every point. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.KiMain.lean ====
/-
  The whole program run: the kernel region, then the fourteen host operations that turn the four accumulated sums into
  the result.

  The program is entered with every buffer as launched. The region takes its seven windows' arrays out of the core's
  buffers — the array of points once for each of its two windows, a half each — runs the 64 grid points, and puts the
  arrays back with the four accumulator arrays at what the last point wrote back and everything else as it was. The
  host operations then run on those buffers. Read at the end: the result buffer holds the host operations' value of
  the four accumulator arrays, and the two argument arrays are as launched.
-/
import proofs.«103825_j43121471651900_1_alg».proof.Proof.KiBody
import proofs.«103825_j43121471651900_1_alg».proof.Proof.LibSharedArrays
import Idealize.ShloMosaic.Lib.Pipeline.Regions
import Idealize.ShloMosaic.Lib.Pipeline.Frame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (ucRefs)

/-- The pipeline library's algebra is the certificate's. -/
abbrev EP : Emb (UR sig nD τ) (MT nD τ sig Unit (Elt F) ℕ (UR sig nD τ) ℕ) := emb₁
instance EP_landsIn : (EP (F := F) : Emb (UR sig nD τ) (MT nD τ sig Unit (Elt F) ℕ (UR sig nD τ) ℕ)).LandsIn (upEmb : UEmb _ (MT nD τ sig Unit (Elt F) ℕ (UR sig nD τ) ℕ)) := by
  unfold EP; infer_instance

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- A core's buffers at launch, as the host operations' valuation. -/
abbrev V₀ (c : Dev nD) : Valuation τ sig (Elt F) := fun b => (s₀ m ρ).mem ((c : Dev nD), b)

/-- The accumulator arrays after the region: what the last point wrote back. -/
abbrev fin (c : Dev nD) (w : Fin cfg0.W) : Buf (Elt F) ((cfg0.win w).arr.view.loc (c : Thread nD τ)) := (dats m 0 c).arrAt w cfg0.N

/-- A core's buffers after the region: the four accumulator arrays at what the region left, every other buffer as
    launched. -/
def V₁ (c : Dev nD) : Valuation τ sig (Elt F) :=
  Function.update (Function.update (Function.update (Function.update (V₀ m ρ c)
    (Proc.devRef .tc main_v0_0) (fin m c 3)) (Proc.devRef .tc main_v0_1) (fin m c 4)) (Proc.devRef .tc main_v0_2) (fin m c 5)) (Proc.devRef .tc main_v0_3) (fin m c 6)

theorem V₁_v0_3 (c : Dev nD) : V₁ m ρ c (Proc.devRef .tc main_v0_3) = fin m c 6 := by
  unfold V₁; rw [Function.update_self]
theorem V₁_v0_2 (c : Dev nD) : V₁ m ρ c (Proc.devRef .tc main_v0_2) = fin m c 5 := by
  unfold V₁; rw [Function.update_of_ne (by decide), Function.update_self]
theorem V₁_v0_1 (c : Dev nD) : V₁ m ρ c (Proc.devRef .tc main_v0_1) = fin m c 4 := by
  unfold V₁; rw [Function.update_of_ne (by decide), Function.update_of_ne (by decide), Function.update_self]
theorem V₁_v0_0 (c : Dev nD) : V₁ m ρ c (Proc.devRef .tc main_v0_0) = fin m c 3 := by
  unfold V₁; rw [Function.update_of_ne (by decide), Function.update_of_ne (by decide), Function.update_of_ne (by decide), Function.update_self]
/-- Off the four accumulator arrays nothing changed. -/
theorem V₁_other (c : Dev nD) (b : Ref sig .tc) (h0 : b ≠ main_v0_0) (h1 : b ≠ main_v0_1) (h2 : b ≠ main_v0_2) (h3 : b ≠ main_v0_3) :
    V₁ m ρ c (Proc.devRef .tc b) = V₀ m ρ c (Proc.devRef .tc b) := by
  unfold V₁
  rw [Function.update_of_ne (StableHlo.devRef_ne_of_ne h3), Function.update_of_ne (StableHlo.devRef_ne_of_ne h2),
    Function.update_of_ne (StableHlo.devRef_ne_of_ne h1), Function.update_of_ne (StableHlo.devRef_ne_of_ne h0)]

/-- What rides beside the buffers: the core owes nothing. -/
abbrev R (c : Dev nD) : sProp 𝕄 := iprop(∃ W, owes (c : Thread nD τ) (0 : CellTallies nD τ sig Unit) W)

/-! ## The arrays taken out of the buffers and put back -/

/-- The input windows never write their arrays. -/
theorem fin_in (c : Dev nD) (w : Fin cfg0.W) (hw : (cfg0.win w).isOut = false) : fin m c w = (dats m 0 c).A w :=
  (dats (F := F) m 0 c).arrAt_in w hw _

/-- The two windows on the array of points hold it between them; every other array has one window, which holds it
    whole. -/
theorem fibres (c : Dev nD) : Pipeline.FibreShares cfg0 c (dats (F := F) m 0 c) := by
  intro b hb g
  obtain ⟨w, -, rfl⟩ := Finset.mem_image.mp hb
  fin_cases w
  · exact Pipeline.fibre_two g _ 0 1 (by decide) (by decide) _ rfl rfl
  · exact Pipeline.fibre_two g _ 0 1 (by decide) (by decide) _ rfl rfl
  · exact Pipeline.fibre_one g _ 2 (by decide) _ rfl
  · exact Pipeline.fibre_one g _ 3 (by decide) _ rfl
  · exact Pipeline.fibre_one g _ 4 (by decide) _ rfl
  · exact Pipeline.fibre_one g _ 5 (by decide) _ rfl
  · exact Pipeline.fibre_one g _ 6 (by decide) _ rfl

theorem arr_unscoped : ∀ w : Fin cfg0.W, (Pipeline.arrRef cfg0.spec w).isScoped = false := by decide

/-- Each array after the region is what the buffers after the region hold at it. -/
theorem fin_eq_V₁ (c : Dev nD) (w : Fin cfg0.W) : fin m c w = V₁ m ρ c (Proc.devRef .tc (Pipeline.arrRef cfg0.spec w)) := by
  fin_cases w
  · exact (fin_in m c 0 rfl).trans ((A_eq m c 0).trans (V₁_other m ρ c main_arg0 (by decide) (by decide) (by decide) (by decide)).symm)
  · exact (fin_in m c 1 rfl).trans ((A_eq m c 1).trans (V₁_other m ρ c main_arg0 (by decide) (by decide) (by decide) (by decide)).symm)
  · exact (fin_in m c 2 rfl).trans ((A_eq m c 2).trans (V₁_other m ρ c main_arg1 (by decide) (by decide) (by decide) (by decide)).symm)
  · exact (V₁_v0_0 m ρ c).symm
  · exact (V₁_v0_1 m ρ c).symm
  · exact (V₁_v0_2 m ρ c).symm
  · exact (V₁_v0_3 m ρ c).symm

/-- Off the region's arrays the buffers after the region are the buffers as launched. -/
theorem V₁_rest (c : Dev nD) (b : Ref sig .tc) (hb : b ∉ Finset.univ.image (Pipeline.arrRef cfg0.spec)) :
    V₁ m ρ c (Proc.devRef .tc b) = V₀ m ρ c (Proc.devRef .tc b) :=
  V₁_other m ρ c b (fun h => hb (h ▸ Finset.mem_image.mpr ⟨3, Finset.mem_univ _, rfl⟩)) (fun h => hb (h ▸ Finset.mem_image.mpr ⟨4, Finset.mem_univ _, rfl⟩))
    (fun h => hb (h ▸ Finset.mem_image.mpr ⟨5, Finset.mem_univ _, rfl⟩)) (fun h => hb (h ▸ Finset.mem_image.mpr ⟨6, Finset.mem_univ _, rfl⟩))

/-! ## The host operations write neither argument -/

theorem not_written (b : Ref sig .tc) (hb : b ≠ main_v1 ∧ b ≠ main_v2 ∧ b ≠ main_v3 ∧ b ≠ main_v4 ∧ b ≠ main_v5 ∧ b ≠ main_v6 ∧ b ≠ main_v7 ∧ b ≠ main_v8 ∧ b ≠ main_cst ∧ b ≠ main_v9 ∧ b ≠ main_v10 ∧ b ≠ main_v11 ∧ b ≠ main_v12 ∧ b ≠ main_v13) :
    ∀ op ∈ (hostOps1 (F := F)), Proc.devRef .tc b ∉ op.writes := by
  obtain ⟨h1, h2, h3, h4, h5, h6, h7, h8, h9, h10, h11, h12, h13, h14⟩ := hb
  intro op hop
  simp only [List.mem_cons, List.mem_nil_iff, or_false] at hop
  rcases hop with rfl | rfl | rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-! ## The two segments -/

set_option backward.isDefEq.respectTransparency.types false in
/-- THE REGION. -/
def reg0 : Pipeline.RegionSeg (pcfgs (F := F)) adm (dats m) () defs₀ 𝒱₀ L lv 0 where
  win := winFacts₀0
  block_pos := block_pos0
  stage_whole := stage_whole0
  K := PEmpty
  osem := fun k : PEmpty => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (ucRefs τ sig) (V₀ m ρ c) ∗ R c)
  post c := iprop(StableHlo.held (c : Thread nD τ) (ucRefs τ sig) (V₁ m ρ c) ∗ R c)
  X c := iprop(emp)
  Y c := iprop(emp)
  Z c := Pipeline.unscopedRest (Ix := Unit) (Name := ℕ) (U := UR sig nD τ) (Lvl := ℕ) spec0 c (V m c)
  hentry c := by
    rw [show StableHlo.held (c : Thread nD τ) (ucRefs τ sig) (V₀ m ρ c) = unscopedBufs c (V m c) from (Pipeline.unscopedBufs_held c (V₀ m ρ c)).symm,
      Pipeline.unscopedBufs_eq_arrays_rest cfg0 c (dats m 0 c) arr_unscoped arr_whole0 (fibres m c) (V m c) (fun w => (dats m 0 c).arrAt w 0) (fun w => A_eq m c w)]
    iintro ⟨⟨⟨Ha, Hr⟩, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    have hput := Pipeline.unscopedBufs_of_arrays_rest cfg0 c (dats m 0 c) arr_unscoped arr_whole0 (fibres m c) (V m c) (fun b => V₁ m ρ c b)
      (fun w => (dats m 0 c).arrAt w cfg0.N) (fun w => fin_eq_V₁ m ρ c w) (fun b hb => V₁_rest m ρ c b hb)
    rw [show StableHlo.held (c : Thread nD τ) (ucRefs τ sig) (V₁ m ρ c) = unscopedBufs c (fun b => V₁ m ρ c b) from (Pipeline.unscopedBufs_held c (V₁ m ρ c)).symm]
    iintro ⟨Ha, HO, -, HZ⟩
    imodintro
    isplitr [HO]
    · iapply hput
      isplitl [Ha] <;> iassumption
    · unfold Pipeline.Dat.owesAt Pipeline.owesWithin
      icases HO with ⟨%W, -, HO⟩; iexists W; iexact HO

/-- THE HOST OPERATIONS after the region, over the unscoped buffers. -/
def seg1 : Pipeline.HostSeg (Name := ℕ) (U := UR sig nD τ) (pcfgs (F := F)) defs₀ 𝒱₀ L lv :=
  Pipeline.HostSeg.ofOps _ _ _ _ _ (ucRefs τ sig) hostOps1 (fun op h => Pipeline.sub_ucRefs op ((List.forall_iff_forall_mem.mp hostOps1_sub) op h))
    (by intro _ h; (repeat (cases h with | head => rfl | tail _ h => ?_)); exact nomatch h) (V₁ m ρ) R

/-- @main as the list of the two. -/
abbrev segs : List (Pipeline.Seg (pcfgs (F := F)) adm (dats m) () defs₀ 𝒱₀ L lv) := [.region (reg0 m ρ), .host (seg1 m ρ)]

/-- A core's buffers at the end. -/
abbrev V₂ (c : Dev nD) : Valuation τ sig (Elt F) := StableHlo.after hostOps1 (V₁ m ρ c)

/-- The end state: the result buffer at the host operations' value, both arguments as launched. -/
def QC : PUnit × MemSt nD τ sig (Elt F) → Prop := fun r =>
  ∀ c : Dev nD, r.2.mem ((c : Thread nD τ).loc main_v13) = V₂ m ρ c (Proc.devRef .tc main_v13)
    ∧ r.2.mem ((c : Thread nD τ).loc main_arg0) = m ((c : Thread nD τ).loc main_arg0)
    ∧ r.2.mem ((c : Thread nD τ).loc main_arg1) = m ((c : Thread nD τ).loc main_arg1)

theorem V₂_arg0 (c : Dev nD) : V₂ m ρ c (Proc.devRef .tc main_arg0) = m ((c : Thread nD τ).loc main_arg0) :=
  (StableHlo.after_of_forall_not_mem (b := Proc.devRef .tc main_arg0) hostOps1 (V₁ m ρ c) (not_written main_arg0 (by decide))).trans
    (V₁_other m ρ c main_arg0 (by decide) (by decide) (by decide) (by decide))
theorem V₂_arg1 (c : Dev nD) : V₂ m ρ c (Proc.devRef .tc main_arg1) = m ((c : Thread nD τ).loc main_arg1) :=
  (StableHlo.after_of_forall_not_mem (b := Proc.devRef .tc main_arg1) hostOps1 (V₁ m ρ c) (not_written main_arg1 (by decide))).trans
    (V₁_other m ρ c main_arg1 (by decide) (by decide) (by decide) (by decide))

set_option backward.isDefEq.respectTransparency.types false in
/-- From any memory with zero counters, every weakly fair execution of the program on the TensorCores terminates, and
    every final state has the result at the host operations' value of what the region left and both arguments
    unchanged. -/
theorem run_main : θ_run defs (onTc (τ := τ) (main (F := F))) (s₀ m ρ) (QC m ρ) :=
  Pipeline.θ_run_regions_kit (pcfgs (F := F)) adm (dats m) () cellOf_inj EP defs₀ 𝒱₀ L lv m ρ main (segs m ρ)
    (fun c Q => by rw [main_segs adm (dats m) () 𝒱₀ L lv (seg1 m ρ) (reg0 m ρ) rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V₀ m ρ c) ∗ R c))
    (Tₙ := fun c => StableHlo.held (c : Thread nD τ) (ucRefs τ sig) (V₂ m ρ c))
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => s.mem ((c : Thread nD τ).loc main_v13) = V₂ m ρ c (Proc.devRef .tc main_v13)
      ∧ s.mem ((c : Thread nD τ).loc main_arg0) = m ((c : Thread nD τ).loc main_arg0)
      ∧ s.mem ((c : Thread nD τ).loc main_arg1) = m ((c : Thread nD τ).loc main_arg1))
    (hfin := fun c s' => by
      rw [show StableHlo.held (c : Thread nD τ) (ucRefs τ sig) (V₂ m ρ c) = unscopedBufs c (fun b => V₂ m ρ c b) from (Pipeline.unscopedBufs_held c (V₂ m ρ c)).symm]
      unfold unscopedBufs
      iintro ⟨Hh, HSI⟩
      ihave Hr := (pointsTo_read_all (Finset.univ.filter fun b : Ref sig .tc => ¬ b.isScoped) (fun b => (c : Thread nD τ).loc b) (fun b => V₂ m ρ c b) s') $$ [Hh HSI]
      · isplitl [Hh] <;> iassumption
      icases Hr with ⟨%ha, HSI⟩
      imodintro
      isplitr
      · ipureintro
        exact ⟨ha main_v13 (by decide), (ha main_arg0 (by decide)).trans (V₂_arg0 m ρ c), (ha main_arg1 (by decide)).trans (V₂_arg1 m ρ c)⟩
      iexact HSI)
    (hQ := fun _ h => h)

/-- THE FRAME: the program runs to the end, faults nowhere, and leaves both argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Fr

end
-- ==== Proof.KiPieces.lean ====
/-
  What the body's stores leave in each accumulator, as the body's arithmetic.

  The body's last store into an accumulator covers its whole 1 x 128 block, so the block ends at that store's value:
  the tile's contribution (one scalar, broadcast) added to what the body read from the accumulator just before —
  the zeros it had just stored at the first point, the running contents at a later point. A whole-block read of a
  buffer returns its contents.
-/
import proofs.«103825_j43121471651900_1_alg».proof.Proof.KiBody
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → ℕ) = fun _ => 0 := by funext a; fin_cases a <;> rfl

/-- A whole-block read of a block of points returns it. -/
theorem rd_pts (mr : Memref sig .tc .vmem S1024x2 .f32) (h : mr.IsWhole) (x : Vec F S1024x2 .f32) :
    View.readAt (Elt F) mr.view (Rect.unit ![0, 0] ![1024, 2] inb_S1024x2_S1024x2_0_0).toLoadRect (h.unread x) = x := by
  rw [View.readAt_eq_ld, h.read_unread]; exact View.ld_unit_zero (S := _) hz2 _ _

/-- A whole-block read of a block of weights returns it. -/
theorem rd_wts (mr : Memref sig .tc .vmem S1024x1024 .f32) (h : mr.IsWhole) (x : Vec F S1024x1024 .f32) :
    View.readAt (Elt F) mr.view (Rect.unit ![0, 0] ![1024, 1024] inb_S1024x1024_S1024x1024_0_0).toLoadRect (h.unread x) = x := by
  rw [View.readAt_eq_ld, h.read_unread]; exact View.ld_unit_zero (S := _) hz2 _ _

/-- A whole-block read of an accumulator returns it. -/
theorem rd_acc (mr : Memref sig .tc .vmem S1x128 .f32) (h : mr.IsWhole) (x : Vec F S1x128 .f32) :
    View.readAt (Elt F) mr.view (Rect.unit ![0, 0] ![1, 128] inb_S1x128_S1x128_0_0).toLoadRect (h.unread x) = x := by
  rw [View.readAt_eq_ld, h.read_unread]; exact View.ld_unit_zero (S := _) hz2 _ _

/-- A whole-block read of an accumulator after one whole-block store returns what was stored. -/
theorem cov_acc (v : View sig .tc .vmem S1x128 .f32) (w : Vec F S1x128 .f32) :
    v.readCov [(⟨Rect.unit ![0, 0] ![1, 128] inb_S1x128_S1x128_0_0, w⟩ : View.Piece (Elt F) S1x128 .f32)]
      (Rect.unit ![0, 0] ![1, 128] inb_S1x128_S1x128_0_0).toLoadRect = w :=
  View.readCov_unit_zero v hz2 inb_S1x128_S1x128_0_0 w

/-- At the first point accumulator 0 ends at the tile's contribution added to a cleared accumulator. -/
theorem out0_A_3_eq (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i)
    (x0 x1 : Vec F S1024x2 .f32) (x2 : Vec F S1024x1024 .f32) :
    out0_A_3 c i arg2 harg2 arg3 harg3 arg4 harg4 arg5 harg5 arg6 harg6 arg7 harg7 arg8 harg8 hc0 x0 x1 x2 = k0_pay1 (k0_pay11 x0 x1) (k0_pay5 (F := F)) := by
  unfold out0_A_3
  rw [View.read_writes_eq_canon _ _ _ (cover0_A_3 c i arg2 harg2 arg3 harg3 arg4 harg4 arg5 harg5 arg6 harg6 arg7 harg7 arg8 harg8 hc0 x0 x1 x2)]
  unfold kernelRun0_A
  dsimp only
  sl_unfold_run_names
  rw [View.canon_cons_unit_zero hz2]
  simp only [rd_pts, rd_wts, cov_acc]

/-- At a later point accumulator 0 ends at the tile's contribution added to what it held. -/
theorem out0_B_3_eq (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i)
    (x0 x1 : Vec F S1024x2 .f32) (x2 : Vec F S1024x1024 .f32) (xo3 xo4 xo5 xo6 : Vec F S1x128 .f32) :
    out0_B_3 c i arg2 harg2 arg3 harg3 arg4 harg4 arg5 harg5 arg6 harg6 arg7 harg7 arg8 harg8 hc0 x0 x1 x2 xo3 xo4 xo5 xo6 = k0_pay1 (k0_pay11 x0 x1) xo3 := by
  unfold out0_B_3
  rw [View.read_writes_eq_canon _ _ _ (cover0_B_3 c i arg2 harg2 arg3 harg3 arg4 harg4 arg5 harg5 arg6 harg6 arg7 harg7 arg8 harg8 hc0 x0 x1 x2 xo3 xo4 xo5 xo6)]
  unfold kernelRun0_B
  dsimp only
  sl_unfold_run_names
  rw [View.canon_unit_zero hz2]
  simp only [rd_pts, rd_wts, rd_acc]

/-- At the first point accumulator 1 ends at the tile's contribution added to a cleared accumulator. -/
theorem out0_A_4_eq (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i)
    (x0 x1 : Vec F S1024x2 .f32) (x2 : Vec F S1024x1024 .f32) :
    out0_A_4 c i arg2 harg2 arg3 harg3 arg4 harg4 arg5 harg5 arg6 harg6 arg7 harg7 arg8 harg8 hc0 x0 x1 x2 = k0_pay2 (k0_pay12 x2) (k0_pay6 (F := F)) := by
  unfold out0_A_4
  rw [View.read_writes_eq_canon _ _ _ (cover0_A_4 c i arg2 harg2 arg3 harg3 arg4 harg4 arg5 harg5 arg6 harg6 arg7 harg7 arg8 harg8 hc0 x0 x1 x2)]
  unfold kernelRun0_A
  dsimp only
  sl_unfold_run_names
  rw [View.canon_cons_unit_zero hz2]
  simp only [rd_pts, rd_wts, cov_acc]

/-- At a later point accumulator 1 ends at the tile's contribution added to what it held. -/
theorem out0_B_4_eq (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i)
    (x0 x1 : Vec F S1024x2 .f32) (x2 : Vec F S1024x1024 .f32) (xo3 xo4 xo5 xo6 : Vec F S1x128 .f32) :
    out0_B_4 c i arg2 harg2 arg3 harg3 arg4 harg4 arg5 harg5 arg6 harg6 arg7 harg7 arg8 harg8 hc0 x0 x1 x2 xo3 xo4 xo5 xo6 = k0_pay2 (k0_pay12 x2) xo4 := by
  unfold out0_B_4
  rw [View.read_writes_eq_canon _ _ _ (cover0_B_4 c i arg2 harg2 arg3 harg3 arg4 harg4 arg5 harg5 arg6 harg6 arg7 harg7 arg8 harg8 hc0 x0 x1 x2 xo3 xo4 xo5 xo6)]
  unfold kernelRun0_B
  dsimp only
  sl_unfold_run_names
  rw [View.canon_unit_zero hz2]
  simp only [rd_pts, rd_wts, rd_acc]

/-- At the first point accumulator 2 ends at the tile's contribution added to a cleared accumulator. -/
theorem out0_A_5_eq (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i)
    (x0 x1 : Vec F S1024x2 .f32) (x2 : Vec F S1024x1024 .f32) :
    out0_A_5 c i arg2 harg2 arg3 harg3 arg4 harg4 arg5 harg5 arg6 harg6 arg7 harg7 arg8 harg8 hc0 x0 x1 x2 = k0_pay3 x2 (k0_pay10 x0 x1) (k0_pay7 (F := F)) := by
  unfold out0_A_5
  rw [View.read_writes_eq_canon _ _ _ (cover0_A_5 c i arg2 harg2 arg3 harg3 arg4 harg4 arg5 harg5 arg6 harg6 arg7 harg7 arg8 harg8 hc0 x0 x1 x2)]
  unfold kernelRun0_A
  dsimp only
  sl_unfold_run_names
  rw [View.canon_cons_unit_zero hz2]
  simp only [rd_pts, rd_wts, cov_acc]

/-- At a later point accumulator 2 ends at the tile's contribution added to what it held. -/
theorem out0_B_5_eq (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i)
    (x0 x1 : Vec F S1024x2 .f32) (x2 : Vec F S1024x1024 .f32) (xo3 xo4 xo5 xo6 : Vec F S1x128 .f32) :
    out0_B_5 c i arg2 harg2 arg3 harg3 arg4 harg4 arg5 harg5 arg6 harg6 arg7 harg7 arg8 harg8 hc0 x0 x1 x2 xo3 xo4 xo5 xo6 = k0_pay3 x2 (k0_pay10 x0 x1) xo5 := by
  unfold out0_B_5
  rw [View.read_writes_eq_canon _ _ _ (cover0_B_5 c i arg2 harg2 arg3 harg3 arg4 harg4 arg5 harg5 arg6 harg6 arg7 harg7 arg8 harg8 hc0 x0 x1 x2 xo3 xo4 xo5 xo6)]
  unfold kernelRun0_B
  dsimp only
  sl_unfold_run_names
  rw [View.canon_unit_zero hz2]
  simp only [rd_pts, rd_wts, rd_acc]

/-- At the first point accumulator 3 ends at the tile's contribution added to a cleared accumulator. -/
theorem out0_A_6_eq (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i)
    (x0 x1 : Vec F S1024x2 .f32) (x2 : Vec F S1024x1024 .f32) :
    out0_A_6 c i arg2 harg2 arg3 harg3 arg4 harg4 arg5 harg5 arg6 harg6 arg7 harg7 arg8 harg8 hc0 x0 x1 x2 = k0_pay4 x2 (k0_pay8 (F := F)) := by
  unfold out0_A_6
  rw [View.read_writes_eq_canon _ _ _ (cover0_A_6 c i arg2 harg2 arg3 harg3 arg4 harg4 arg5 harg5 arg6 harg6 arg7 harg7 arg8 harg8 hc0 x0 x1 x2)]
  unfold kernelRun0_A
  dsimp only
  sl_unfold_run_names
  rw [View.canon_cons_unit_zero hz2]
  simp only [rd_pts, rd_wts, cov_acc]

/-- At a later point accumulator 3 ends at the tile's contribution added to what it held. -/
theorem out0_B_6_eq (c : Dev nD) (i : grid0.Coords) (arg2 : Memref sig .tc .vmem S1024x2 .f32) (harg2 : arg2.IsWhole) (arg3 : Memref sig .tc .vmem S1024x2 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i)
    (x0 x1 : Vec F S1024x2 .f32) (x2 : Vec F S1024x1024 .f32) (xo3 xo4 xo5 xo6 : Vec F S1x128 .f32) :
    out0_B_6 c i arg2 harg2 arg3 harg3 arg4 harg4 arg5 harg5 arg6 harg6 arg7 harg7 arg8 harg8 hc0 x0 x1 x2 xo3 xo4 xo5 xo6 = k0_pay4 x2 xo6 := by
  unfold out0_B_6
  rw [View.read_writes_eq_canon _ _ _ (cover0_B_6 c i arg2 harg2 arg3 harg3 arg4 harg4 arg5 harg5 arg6 harg6 arg7 harg7 arg8 harg8 hc0 x0 x1 x2 xo3 xo4 xo5 xo6)]
  unfold kernelRun0_B
  dsimp only
  sl_unfold_run_names
  rw [View.canon_unit_zero hz2]
  simp only [rd_pts, rd_wts, rd_acc]

end Cert.KernelIdeal.Fr

end
-- ==== Proof.Consts.lean ====
/-
  The float constants the two programs spell, as the extended reals their patterns denote: 0, 1, 2 and 8192.
-/
import Idealize.ShloMosaic.PureOps.Ideal

noncomputable section

namespace Cert.Consts

open Idealize.ShloMosaic

/-- The zero pattern denotes 0. -/
theorem ofBits_zero : Ideal.ofBits .f32 0x00000000#32 = 0 := by
  simp [Ideal.ofBits, Ideal.ieee]

/-- The pattern of 1.0 denotes 1. -/
theorem ofBits_one : Ideal.ofBits .f32 0x3F800000#32 = 1 := by
  simp [Ideal.ofBits, Ideal.ieee, -EReal.coe_mul]; norm_num

/-- The pattern of 2.0 denotes 2. -/
theorem ofBits_two : Ideal.ofBits .f32 0x40000000#32 = 2 := by
  simp [Ideal.ofBits, Ideal.ieee, -EReal.coe_mul]; norm_num; rfl

/-- The pattern of 8192.0 denotes 8192. -/
theorem ofBits_8192 : Ideal.ofBits .f32 0x46000000#32 = 8192 := by
  simp [Ideal.ofBits, Ideal.ieee, -EReal.coe_mul]; norm_num; rfl

end Cert.Consts

end
-- ==== Proof.TileValue.lean ====
/-
  What one grid point of the kernel adds to its four accumulators, index by index, on the extended reals.

  At a grid point the body reads two 1024 x 2 blocks u, v of the points and one 1024 x 1024 block p of the weights.
  From u and v it forms the tile of clamped squared distances in expanded form,
      dist(r, c) = max (|u_r|^2 + |v_c|^2 - 2 u_r.v_c, 0),
  where |u_r|^2 is a sum along a row of the squares (kept as a column, and for v turned into a row, then spread over
  the tile) and u_r.v_c is the entry of the product of u with the transpose of v. Each accumulator then receives, at
  every one of its 128 positions, its old value plus ONE scalar: the sum over the whole tile of, respectively,
      1 / (1 + dist),   p log p,   p log (1 + dist),   p.
  A whole-tile sum is taken by viewing the tile as 1 x 1024 x 1024, summing over the last two axes into a one-element
  array and extracting that element; since the kept axis has one coordinate, every entry contributes, and the sum over
  the rank-3 index set is the double sum over rows and columns.

  The file first supplies the index-set and layout facts needed (a sum over indices with a leading unit coordinate; a
  vector viewed as a column; a column spread along the rows), then reads each non-pointwise operation of the distance
  tile at an index, then the distance tile itself, then the whole-tile sum, and last the four accumulator updates and
  the zero the accumulators start from. The float patterns of 0, 1 and 2 are read as those numbers.
-/
import proofs.«103825_j43121471651900_1_alg».proof.Proof.Gen.KernelIdeal.Skeleton
import proofs.«103825_j43121471651900_1_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileValue

open Cert.KernelIdeal Cert.KernelIdeal.Gen Idealize.ShloMosaic Idealize.ShloMosaic.ValueIdx

/-! ## Index sets and layout operations the library does not spell -/

/-- A rank-3 index set whose leading axis has one element is the product of the other two coordinate ranges … -/
def idxEquiv3Unit {n1 n2 : Nat} : (⟨3, ![1, n1, n2]⟩ : Shape).Idx ≃ Fin n1 × Fin n2 where
  toFun i := (i 1, i 2)
  invFun p := ix3 (0 : Fin 1) p.1 p.2
  left_inv i := by
    funext a
    match a with
    | ⟨0, _⟩ => exact (Subsingleton.elim (α := Fin 1) _ _)
    | ⟨1, _⟩ => rfl
    | ⟨2, _⟩ => rfl
  right_inv _ := rfl

/-- … so a sum over it is the double sum over those two coordinates, the unit coordinate being 0. -/
theorem sum_idx3_unit {M : Type*} [AddCommMonoid M] {n1 n2 : Nat} (f : (⟨3, ![1, n1, n2]⟩ : Shape).Idx → M) :
    ∑ i, f i = ∑ r : Fin n1, ∑ c : Fin n2, f (ix3 (0 : Fin 1) r c) := by
  rw [← Equiv.sum_comp (idxEquiv3Unit (n1 := n1) (n2 := n2)).symm f, Fintype.sum_prod_type]
  rfl

variable {α : Type}

/-- A vector [a] cast to the column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The tile's quantities -/

/-- |u_r|^2: the sum of the squares of row r's two coordinates. -/
def sq1 (u : S1024x2.Idx → EReal) (r : Fin 1024) : EReal := ∑ k : Fin 2, u (ix2 r k) * u (ix2 r k)

/-- u_r . v_c: the sum over the two coordinates of the products. -/
def dot1 (u v : S1024x2.Idx → EReal) (r c : Fin 1024) : EReal := ∑ k : Fin 2, u (ix2 r k) * v (ix2 c k)

/-- The squared distance between u_r and v_c in expanded form, clamped at zero from below. -/
def dist1 (u v : S1024x2.Idx → EReal) (r c : Fin 1024) : EReal := max (sq1 u r + sq1 v c - 2 * dot1 u v r c) 0

/-- The tile's sum of 1 / (1 + distance). -/
def tileQ (u v : S1024x2.Idx → EReal) : EReal := ∑ r : Fin 1024, ∑ c : Fin 1024, Ideal.div 1 (1 + dist1 u v r c)

/-- The tile's sum of p log p. -/
def tilePlogP (p : S1024x1024.Idx → EReal) : EReal := ∑ r : Fin 1024, ∑ c : Fin 1024, p (ix2 r c) * Ideal.log (p (ix2 r c))

/-- The tile's sum of p log (1 + distance). -/
def tilePlog1p (u v : S1024x2.Idx → EReal) (p : S1024x1024.Idx → EReal) : EReal :=
  ∑ r : Fin 1024, ∑ c : Fin 1024, p (ix2 r c) * Ideal.log (1 + dist1 u v r c)

/-- The tile's sum of p. -/
def tileP (p : S1024x1024.Idx → EReal) : EReal := ∑ r : Fin 1024, ∑ c : Fin 1024, p (ix2 r c)

/-! ## Each non-pointwise operation of the distance tile, read at an index -/

/-- The sum along a row of the squares of a 1024 x 2 block is |u_r|^2. -/
theorem rowSq_apply (u : FVec Ideal S1024x2 .f32) (r : Fin 1024) :
    multiReduction (F := Ideal) .add [1] S1024 (mulf u u) 0x00000000#32 reduces_S1024x2_S1024 (.inl rfl) rfl (ix1 r) = sq1 u r := by
  refine (Ideal.multiReduction_add_single (mulf u u) 0x00000000#32 reduces_S1024x2_S1024 (.inl rfl) rfl (ix1 r)).trans ?_
  unfold sq1
  refine Finset.sum_congr rfl fun k _ => ?_
  have e : reduces_S1024x2_S1024.lift (ix1 r) k = ix2 r k := funext fun a => Fin.ext (by
    match a with
    | ⟨0, _⟩ => rfl
    | ⟨1, _⟩ => rfl)
  rw [e]
  rfl

/-- The row sums kept as a column and broadcast along the rows: at (r, c), |u_r|^2. -/
theorem rowSqCol_apply (u : FVec Ideal S1024x2 .f32) (r c : Fin 1024) :
    broadcastTo S1024x1024
      (shapeCast S1024x1 (multiReduction (F := Ideal) .add [1] S1024 (mulf u u) 0x00000000#32 reduces_S1024x2_S1024 (.inl rfl) rfl)
        shapeCasts_S1024_S1024x1)
      broadcasts_S1024x1_S1024x1024 (ix2 r c) = sq1 u r :=
  (broadcastTo_a1_ab_apply _ broadcasts_S1024x1_S1024x1024 r c).trans
    ((shapeCast_a_a1_apply _ shapeCasts_S1024_S1024x1 r (0 : Fin 1)).trans (rowSq_apply u r))

/-- The row sums kept as a column, transposed to a row and broadcast along the columns: at (r, c), |u_c|^2. -/
theorem rowSqRow_apply (u : FVec Ideal S1024x2 .f32) (r c : Fin 1024) :
    broadcastTo S1024x1024
      (transpose S1x1024 [1, 0]
        (shapeCast S1024x1 (multiReduction (F := Ideal) .add [1] S1024 (mulf u u) 0x00000000#32 reduces_S1024x2_S1024 (.inl rfl) rfl)
          shapeCasts_S1024_S1024x1)
        transposes_S1024x1_p1_0_S1x1024)
      broadcasts_S1x1024_S1024x1024 (ix2 r c) = sq1 u c :=
  (broadcastTo_1b_ab_apply _ broadcasts_S1x1024_S1024x1024 r c).trans
    ((transpose_ix2_apply _ transposes_S1024x1_p1_0_S1x1024 (0 : Fin 1) c).trans
      ((shapeCast_a_a1_apply _ shapeCasts_S1024_S1024x1 c (0 : Fin 1)).trans (rowSq_apply u c)))

/-- The operand indices of the 1024 x 2 by 2 x 1024 product, coordinate by coordinate: at output (i0, i1) and
    contraction coordinate q the left operand is read at (i0, q) and the right one at (q, i1). -/
theorem gram_lhs_0 (i : S1024x1024.Idx) (q : dot_S1024x2_S2x1024_S1024x1024_1_0_0_1_n_n.contr.Idx) :
    (dot_S1024x2_S2x1024_S1024x1024_1_0_0_1_n_n.lhsIdx i q 0).val = (i 0).val := by
  unfold DotDims.lhsIdx
  rw [dif_neg (show ¬(0 : Fin S1024x2.rank) ∈ dot_S1024x2_S2x1024_S1024x1024_1_0_0_1_n_n.lhsBatch by decide),
    dif_pos (show (0 : Fin S1024x2.rank) ∈ dot_S1024x2_S2x1024_S1024x1024_1_0_0_1_n_n.lhsNonContracting by decide)]
  rfl
theorem gram_lhs_1 (i : S1024x1024.Idx) (q : dot_S1024x2_S2x1024_S1024x1024_1_0_0_1_n_n.contr.Idx) :
    (dot_S1024x2_S2x1024_S1024x1024_1_0_0_1_n_n.lhsIdx i q 1).val = (q ⟨0, by decide⟩).val :=
  dot_S1024x2_S2x1024_S1024x1024_1_0_0_1_n_n.lhsIdx_val_of_single rfl i q
theorem gram_rhs_0 (i : S1024x1024.Idx) (q : dot_S1024x2_S2x1024_S1024x1024_1_0_0_1_n_n.contr.Idx) :
    (dot_S1024x2_S2x1024_S1024x1024_1_0_0_1_n_n.rhsIdx i q 0).val = (q ⟨0, by decide⟩).val :=
  dot_S1024x2_S2x1024_S1024x1024_1_0_0_1_n_n.rhsIdx_val_of_single rfl i q
theorem gram_rhs_1 (i : S1024x1024.Idx) (q : dot_S1024x2_S2x1024_S1024x1024_1_0_0_1_n_n.contr.Idx) :
    (dot_S1024x2_S2x1024_S1024x1024_1_0_0_1_n_n.rhsIdx i q 1).val = (i 1).val := by
  unfold DotDims.rhsIdx
  rw [dif_neg (show ¬(1 : Fin S2x1024.rank) ∈ dot_S1024x2_S2x1024_S1024x1024_1_0_0_1_n_n.rhsBatch by decide),
    dif_pos (show (1 : Fin S2x1024.rank) ∈ dot_S1024x2_S2x1024_S1024x1024_1_0_0_1_n_n.rhsNonContracting by decide)]
  rfl

/-- The product of a 1024 x 2 block with the transpose of another, into the zero tile: at (r, c), u_r . v_c. -/
theorem gram_apply (u v : FVec Ideal S1024x2 .f32) (r c : Fin 1024) :
    matmul dot_S1024x2_S2x1024_S1024x1024_1_0_0_1_n_n none u
      (transpose S2x1024 [1, 0] v transposes_S1024x2_p1_0_S2x1024)
      (constant (F := Ideal) S1024x1024 .f32 0x00000000#32) (ix2 r c) = dot1 u v r c := by
  generalize hw : transpose S2x1024 [1, 0] v transposes_S1024x2_p1_0_S2x1024 = w
  simp only [matmul]
  rw [Ideal.matmul_constant_zero_apply,
    ← Equiv.sum_comp (contrEquiv1 dot_S1024x2_S2x1024_S1024x1024_1_0_0_1_n_n 2 rfl rfl).symm]
  unfold dot1
  refine Finset.sum_congr rfl fun k _ => ?_
  have hk := contrEquiv1_symm_val dot_S1024x2_S2x1024_S1024x1024_1_0_0_1_n_n 2 rfl rfl k
  have el : dot_S1024x2_S2x1024_S1024x1024_1_0_0_1_n_n.lhsIdx (ix2 r c)
      ((contrEquiv1 dot_S1024x2_S2x1024_S1024x1024_1_0_0_1_n_n 2 rfl rfl).symm k) = ix2 r k :=
    funext fun a => Fin.ext (by
      match a with
      | ⟨0, _⟩ => exact gram_lhs_0 _ _
      | ⟨1, _⟩ => exact (gram_lhs_1 _ _).trans hk)
  have er : dot_S1024x2_S2x1024_S1024x1024_1_0_0_1_n_n.rhsIdx (ix2 r c)
      ((contrEquiv1 dot_S1024x2_S2x1024_S1024x1024_1_0_0_1_n_n 2 rfl rfl).symm k) = ix2 k c :=
    funext fun a => Fin.ext (by
      match a with
      | ⟨0, _⟩ => exact (gram_rhs_0 _ _).trans hk
      | ⟨1, _⟩ => exact gram_rhs_1 _ _)
  rw [el, er, ← hw]
  exact congrArg (u (ix2 r k) * ·) (transpose_ix2_apply v transposes_S1024x2_p1_0_S2x1024 k c)

/-! ## The distance tile at an index -/

/-- Entry (r, c) of the distance tile is the clamped expanded squared distance between u_r and v_c. -/
theorem pay9_apply (xi xj : Vec Ideal S1024x2 .f32) (r c : Fin 1024) :
    k0_pay9 (F := Ideal) xi xj (ix2 r c) = dist1 xi xj r c := by
  unfold k0_pay9 dist1
  show max (_ + _ - Ideal.ofBits .f32 0x40000000#32 * _) (Ideal.ofBits .f32 0x00000000#32) = _
  rw [Cert.Consts.ofBits_two, Cert.Consts.ofBits_zero]
  exact congrArg (max · 0) (congrArg₂ (· - ·)
    (congrArg₂ (· + ·) (rowSqCol_apply xi r c) (rowSqRow_apply xj r c))
    (congrArg (2 * ·) (gram_apply xi xj r c)))

/-! ## A whole-tile sum -/

/-- The sum of a 1 x 1024 x 1024 array over its last two axes, kept as one scalar: the double sum of its entries. -/
theorem total3_apply (w : FVec Ideal S1x1024x1024 .f32) :
    extractAt ![0, 0, 0]
      (shapeCast S1x1x1 (multiReduction (F := Ideal) .add [1, 2] S1 w 0x00000000#32 reduces_S1x1024x1024_S1 (.inl rfl) rfl)
        shapeCasts_S1_S1x1x1) inpos_S1x1x1_p0_0_0
      = ∑ r : Fin 1024, ∑ c : Fin 1024, w (ix3 (0 : Fin 1) r c) := by
  unfold extractAt shapeCast
  refine (Ideal.multiReduction_add_total w 0x00000000#32 reduces_S1x1024x1024_S1
    (fun b => by match b with | ⟨0, _⟩ => rfl) (.inl rfl) rfl _).trans ?_
  exact sum_idx3_unit w

/-- The same of a 1024 x 1024 tile viewed as 1 x 1024 x 1024. -/
theorem total2_apply (v : FVec Ideal S1024x1024 .f32) :
    extractAt ![0, 0, 0]
      (shapeCast S1x1x1 (multiReduction (F := Ideal) .add [1, 2] S1
        (shapeCast S1x1024x1024 v shapeCasts_S1024x1024_S1x1024x1024) 0x00000000#32 reduces_S1x1024x1024_S1 (.inl rfl) rfl)
        shapeCasts_S1_S1x1x1) inpos_S1x1x1_p0_0_0
      = ∑ r : Fin 1024, ∑ c : Fin 1024, v (ix2 r c) :=
  (total3_apply _).trans (Finset.sum_congr rfl fun r _ => Finset.sum_congr rfl fun c _ =>
    shapeCast_ab_1ab_apply v shapeCasts_S1024x1024_S1x1024x1024 (0 : Fin 1) r c)

/-- An accumulator plus a broadcast scalar, at an index. -/
theorem acc_add_apply (s : Ideal .f32) (acc : Vec Ideal S1x128 .f32) (j : S1x128.Idx) :
    addf (shapeCast S1x128 acc shapeCasts_S1x128_S1x128) (broadcast S1x128 s) j = acc j + s :=
  congrArg (· + s) (congrFun (shapeCast_self acc shapeCasts_S1x128_S1x128) j)

/-! ## What one grid point adds to each accumulator -/

/-- The scalar the first accumulator receives: the tile's sum of 1 / (1 + distance). -/
theorem pay11_eq (xi xj : Vec Ideal S1024x2 .f32) : k0_pay11 (F := Ideal) xi xj = tileQ xi xj := by
  unfold k0_pay11 tileQ
  refine (total2_apply _).trans (Finset.sum_congr rfl fun r _ => Finset.sum_congr rfl fun c _ => ?_)
  show Ideal.div (Ideal.ofBits .f32 0x3F800000#32) (Ideal.ofBits .f32 0x3F800000#32 + k0_pay9 (F := Ideal) xi xj (ix2 r c)) = _
  rw [Cert.Consts.ofBits_one, pay9_apply]

/-- The logarithm of one plus the distance tile, at an index. -/
theorem pay10_apply (xi xj : Vec Ideal S1024x2 .f32) (r c : Fin 1024) :
    k0_pay10 (F := Ideal) xi xj (ix2 r c) = Ideal.log (1 + dist1 xi xj r c) := by
  unfold k0_pay10
  show Ideal.log (Ideal.ofBits .f32 0x3F800000#32 + k0_pay9 (F := Ideal) xi xj (ix2 r c)) = _
  rw [Cert.Consts.ofBits_one, pay9_apply]

/-- The first accumulator gains the tile's sum of 1 / (1 + distance). -/
theorem pay1_apply (xi xj : Vec Ideal S1024x2 .f32) (acc : Vec Ideal S1x128 .f32) (j : S1x128.Idx) :
    k0_pay1 (F := Ideal) (k0_pay11 (F := Ideal) xi xj) acc j = acc j + tileQ xi xj := by
  unfold k0_pay1
  exact (acc_add_apply _ acc j).trans (congrArg (acc j + ·) (pay11_eq xi xj))

/-- The second accumulator gains the tile's sum of p log p. -/
theorem pay2_apply (p : Vec Ideal S1024x1024 .f32) (acc : Vec Ideal S1x128 .f32) (j : S1x128.Idx) :
    k0_pay2 (F := Ideal) (k0_pay12 (F := Ideal) p) acc j = acc j + tilePlogP p := by
  unfold k0_pay2 k0_pay12
  exact (acc_add_apply _ acc j).trans (congrArg (acc j + ·) (total2_apply (mulf p (log p))))

/-- The third accumulator gains the tile's sum of p log (1 + distance). -/
theorem pay3_apply (xi xj : Vec Ideal S1024x2 .f32) (p : Vec Ideal S1024x1024 .f32) (acc : Vec Ideal S1x128 .f32)
    (j : S1x128.Idx) :
    k0_pay3 (F := Ideal) p (k0_pay10 (F := Ideal) xi xj) acc j = acc j + tilePlog1p xi xj p := by
  unfold k0_pay3 tilePlog1p
  refine (acc_add_apply _ acc j).trans (congrArg (acc j + ·) ?_)
  refine (total2_apply _).trans (Finset.sum_congr rfl fun r _ => Finset.sum_congr rfl fun c _ => ?_)
  exact congrArg (p (ix2 r c) * ·) (pay10_apply xi xj r c)

/-- The fourth accumulator gains the tile's sum of p. -/
theorem pay4_apply (p : Vec Ideal S1024x1024 .f32) (acc : Vec Ideal S1x128 .f32) (j : S1x128.Idx) :
    k0_pay4 (F := Ideal) p acc j = acc j + tileP p := by
  unfold k0_pay4
  exact (acc_add_apply _ acc j).trans (congrArg (acc j + ·) (total2_apply p))

/-! ## The accumulators' initial contents -/

/-- Each accumulator starts from zero at every index. -/
theorem zero_apply (j : S1x128.Idx) : k0_pay5 (F := Ideal) j = 0 := Cert.Consts.ofBits_zero
theorem zero_apply6 (j : S1x128.Idx) : k0_pay6 (F := Ideal) j = 0 := Cert.Consts.ofBits_zero
theorem zero_apply7 (j : S1x128.Idx) : k0_pay7 (F := Ideal) j = 0 := Cert.Consts.ofBits_zero
theorem zero_apply8 (j : S1x128.Idx) : k0_pay8 (F := Ideal) j = 0 := Cert.Consts.ofBits_zero

/-- Every position of each of the four accumulators starts at zero, accumulator by accumulator. -/
theorem pay5_apply (j : S1x128.Idx) : k0_pay5 (F := Ideal) j = 0 := Cert.Consts.ofBits_zero
theorem pay6_apply (j : S1x128.Idx) : k0_pay6 (F := Ideal) j = 0 := Cert.Consts.ofBits_zero
theorem pay7_apply (j : S1x128.Idx) : k0_pay7 (F := Ideal) j = 0 := Cert.Consts.ofBits_zero
theorem pay8_apply (j : S1x128.Idx) : k0_pay8 (F := Ideal) j = 0 := Cert.Consts.ofBits_zero

end Cert.KernelIdeal.TileValue

end
-- ==== Proof.GridSum.lean ====
/-
  Sums over a grid of tiles.

  The 8192 row (or column) indices split into 8 blocks of 1024: index a = i * 1024 + r with block i and offset r. So a
  sum over all 8192 indices is the sum over the blocks of the sums over the offsets, and a sum over all ordered pairs
  is the sum over the 8 x 8 block pairs of the sums over the 1024 x 1024 offset pairs. The 64 block pairs are numbered
  row-major, t = i * 8 + j, so a sum over the 64 numbers is the double sum over (i, j). A running sum that starts at
  0 + g 0 and adds g (n + 1) at each step is the sum of g over the steps so far.

  All of it holds in any additive commutative monoid (no subtraction is used), so it applies to the extended reals.
-/
import Mathlib.Algebra.BigOperators.Fin
import Mathlib.Algebra.BigOperators.Group.Finset.Basic
import Mathlib.Data.Fintype.BigOperators

namespace Cert.GridSum

open Finset

variable {M : Type*} [AddCommMonoid M]

/-- Index r of block i among the 8192 indices. -/
def row (i : Fin 8) (r : Fin 1024) : Fin 8192 := ⟨i.val * 1024 + r.val, by omega⟩

/-- The number of the block pair (i, j) in row-major order. -/
def pt (i j : Fin 8) : Fin 64 := ⟨i.val * 8 + j.val, by omega⟩

/-- Block and offset determine the index and conversely (quotient and remainder by 1024). -/
def rowEquiv : Fin 8 × Fin 1024 ≃ Fin 8192 where
  toFun p := row p.1 p.2
  invFun a := (⟨a.val / 1024, by omega⟩, ⟨a.val % 1024, by omega⟩)
  left_inv := by
    rintro ⟨i, r⟩
    apply Prod.ext
    · apply Fin.ext; show (i.val * 1024 + r.val) / 1024 = i.val; omega
    · apply Fin.ext; show (i.val * 1024 + r.val) % 1024 = r.val; omega
  right_inv := by
    intro a
    apply Fin.ext
    show a.val / 1024 * 1024 + a.val % 1024 = a.val
    omega

/-- The pair (i, j) and its row-major number determine each other (quotient and remainder by 8). -/
def ptEquiv : Fin 8 × Fin 8 ≃ Fin 64 where
  toFun p := pt p.1 p.2
  invFun t := (⟨t.val / 8, by omega⟩, ⟨t.val % 8, by omega⟩)
  left_inv := by
    rintro ⟨i, j⟩
    apply Prod.ext
    · apply Fin.ext; show (i.val * 8 + j.val) / 8 = i.val; omega
    · apply Fin.ext; show (i.val * 8 + j.val) % 8 = j.val; omega
  right_inv := by
    intro t
    apply Fin.ext
    show t.val / 8 * 8 + t.val % 8 = t.val
    omega

/-- A sum over the 8192 indices, block by block. -/
theorem sum_rows (f : Fin 8192 → M) : ∑ a : Fin 8192, f a = ∑ i : Fin 8, ∑ r : Fin 1024, f (row i r) := by
  rw [← Equiv.sum_comp rowEquiv f, Fintype.sum_prod_type]
  rfl

/-- A sum over all ordered pairs of indices, tile by tile. -/
theorem sum_tiles (f : Fin 8192 → Fin 8192 → M) :
    ∑ a : Fin 8192, ∑ b : Fin 8192, f a b
      = ∑ i : Fin 8, ∑ j : Fin 8, ∑ r : Fin 1024, ∑ c : Fin 1024, f (row i r) (row j c) := by
  rw [sum_rows (fun a => ∑ b : Fin 8192, f a b)]
  refine Finset.sum_congr rfl (fun i _ => ?_)
  refine Eq.trans (Finset.sum_congr rfl (fun r _ => sum_rows (f (row i r)))) ?_
  exact Finset.sum_comm

/-- A sum over the 64 tile numbers, as the double sum over block pairs. -/
theorem sum_points (g : Fin 64 → M) : ∑ t : Fin 64, g t = ∑ i : Fin 8, ∑ j : Fin 8, g (pt i j) := by
  rw [← Equiv.sum_comp ptEquiv g, Fintype.sum_prod_type]
  rfl

theorem pt_val_div (i j : Fin 8) : (pt i j).val / 8 = i.val := by
  show (i.val * 8 + j.val) / 8 = i.val; omega

theorem pt_val_mod (i j : Fin 8) : (pt i j).val % 8 = j.val := by
  show (i.val * 8 + j.val) % 8 = j.val; omega

/-- Every tile number is the number of its quotient and remainder by 8. -/
theorem pt_div (t : Fin 64) : t = pt ⟨t.val / 8, by omega⟩ ⟨t.val % 8, by omega⟩ := by
  apply Fin.ext
  show t.val = t.val / 8 * 8 + t.val % 8
  omega

/-- A running sum that starts at 0 + g 0 and adds g (n + 1) at step n + 1 is the sum of g up to the current step. -/
theorem running_sum (S g : ℕ → M) (h0 : S 0 = 0 + g 0) (hs : ∀ n, S (n + 1) = S n + g (n + 1)) (n : ℕ) :
    S n = ∑ k ∈ Finset.range (n + 1), g k := by
  induction n with
  | zero => rw [h0, zero_add, Finset.sum_range_one]
  | succ n ih => rw [hs n, ih, ← Finset.sum_range_succ]

/-- The same with the step rule known only below a bound. -/
theorem running_sum_below (N : ℕ) (S g : ℕ → M) (h0 : S 0 = 0 + g 0)
    (hs : ∀ n, n + 1 < N → S (n + 1) = S n + g (n + 1)) (n : ℕ) (hn : n < N) :
    S n = ∑ k ∈ Finset.range (n + 1), g k := by
  induction n with
  | zero => rw [h0, zero_add, Finset.sum_range_one]
  | succ n ih => rw [hs n hn, ih (Nat.lt_of_succ_lt hn), ← Finset.sum_range_succ]

/-- After the 64 steps 0, ..., 63 the running sum is the sum of g over the 64 tile numbers. -/
theorem running_sum_64 (S g : ℕ → M) (h0 : S 0 = 0 + g 0) (hs : ∀ n, n + 1 < 64 → S (n + 1) = S n + g (n + 1)) :
    S 63 = ∑ t : Fin 64, g t.val := by
  rw [running_sum_below 64 S g h0 hs 63 (by omega)]
  exact (Fin.sum_univ_eq_sum_range g 64).symm

end Cert.GridSum
-- ==== Proof.KiAccum.lean ====
/-
  The four accumulators after the last grid point, at the ideal instance: each entry of each is the sum over the 64
  grid points of the tile's contribution.

  At the first point an accumulator is cleared and the tile's contribution added; at every later point the tile's
  contribution is added to what the point before left. Entry by entry that is a running sum from zero.
-/
import proofs.«103825_j43121471651900_1_alg».proof.Proof.KiPieces
import proofs.«103825_j43121471651900_1_alg».proof.Proof.TileValue
import proofs.«103825_j43121471651900_1_alg».proof.Proof.GridSum

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.TileValue

variable (m : (ℓ : Loc nD τ sig) → Buf (Elt Ideal) ℓ) (ρ : Dev nD → PrngReg)

/-- The accumulators after the first point, as the body's arithmetic on the first point's blocks. -/
theorem outsAt0_zero (c : Dev nD) (h : 0 < cfg0.N) :
    outsAt0 m c 0 h = (k0_pay1 (k0_pay11 (iblk m c 0 ⟨0, h⟩) (iblk m c 1 ⟨0, h⟩)) (k0_pay5 (F := Ideal)),
      k0_pay2 (k0_pay12 (iblk m c 2 ⟨0, h⟩)) (k0_pay6 (F := Ideal)),
      k0_pay3 (iblk m c 2 ⟨0, h⟩) (k0_pay10 (iblk m c 0 ⟨0, h⟩) (iblk m c 1 ⟨0, h⟩)) (k0_pay7 (F := Ideal)),
      k0_pay4 (iblk m c 2 ⟨0, h⟩) (k0_pay8 (F := Ideal))) := by
  rw [show outsAt0 m c 0 h = outsAt0 m c (⟨0, h⟩ : Fin cfg0.N).val (⟨0, h⟩ : Fin cfg0.N).isLt from rfl, outsAt0_A m c ⟨0, h⟩ (Nat.zero_mod _)]
  simp only [out0_A_3_eq, out0_A_4_eq, out0_A_5_eq, out0_A_6_eq]

/-- The accumulators after a later point, as the body's arithmetic on that point's blocks and what the point before
    left. -/
theorem outsAt0_succ (c : Dev nD) (n : ℕ) (h : n + 1 < cfg0.N) :
    outsAt0 m c (n + 1) h = (k0_pay1 (k0_pay11 (iblk m c 0 ⟨n + 1, h⟩) (iblk m c 1 ⟨n + 1, h⟩)) (outsAt0 m c n (Nat.lt_of_succ_lt h)).1,
      k0_pay2 (k0_pay12 (iblk m c 2 ⟨n + 1, h⟩)) (outsAt0 m c n (Nat.lt_of_succ_lt h)).2.1,
      k0_pay3 (iblk m c 2 ⟨n + 1, h⟩) (k0_pay10 (iblk m c 0 ⟨n + 1, h⟩) (iblk m c 1 ⟨n + 1, h⟩)) (outsAt0 m c n (Nat.lt_of_succ_lt h)).2.2.1,
      k0_pay4 (iblk m c 2 ⟨n + 1, h⟩) (outsAt0 m c n (Nat.lt_of_succ_lt h)).2.2.2) := by
  have hN : n + 1 < 64 := lt_of_lt_of_eq h (show cfg0.N = 64 from N_0)
  rw [show outsAt0 m c (n + 1) h = outsAt0 m c (⟨n + 1, h⟩ : Fin cfg0.N).val (⟨n + 1, h⟩ : Fin cfg0.N).isLt from rfl,
    outsAt0_B m c ⟨n + 1, h⟩ (by show ¬(n + 1) % 64 = 0; omega)]
  simp only [out0_B_3_eq, out0_B_4_eq, out0_B_5_eq, out0_B_6_eq]
  rfl

/-- The tile quantities at position n of the grid (zero past the grid's end, where nothing is asked). -/
def gQ (c : Dev nD) (n : ℕ) : EReal := if h : n < cfg0.N then tileQ (iblk m c 0 ⟨n, h⟩) (iblk m c 1 ⟨n, h⟩) else 0
def gPlogP (c : Dev nD) (n : ℕ) : EReal := if h : n < cfg0.N then tilePlogP (iblk m c 2 ⟨n, h⟩) else 0
def gPlog1p (c : Dev nD) (n : ℕ) : EReal := if h : n < cfg0.N then tilePlog1p (iblk m c 0 ⟨n, h⟩) (iblk m c 1 ⟨n, h⟩) (iblk m c 2 ⟨n, h⟩) else 0
def gP (c : Dev nD) (n : ℕ) : EReal := if h : n < cfg0.N then tileP (iblk m c 2 ⟨n, h⟩) else 0

/-- Entry j of the four accumulators after position n (zero past the end). -/
def S3 (c : Dev nD) (j : S1x128.Idx) (n : ℕ) : EReal := if h : n < cfg0.N then (outsAt0 m c n h).1 j else 0
def S4 (c : Dev nD) (j : S1x128.Idx) (n : ℕ) : EReal := if h : n < cfg0.N then (outsAt0 m c n h).2.1 j else 0
def S5 (c : Dev nD) (j : S1x128.Idx) (n : ℕ) : EReal := if h : n < cfg0.N then (outsAt0 m c n h).2.2.1 j else 0
def S6 (c : Dev nD) (j : S1x128.Idx) (n : ℕ) : EReal := if h : n < cfg0.N then (outsAt0 m c n h).2.2.2 j else 0

theorem h0N : 0 < cfg0.N := by rw [show cfg0.N = 64 from N_0]; omega
theorem h63N : 63 < cfg0.N := by rw [show cfg0.N = 64 from N_0]; omega

/-- After the last point, entry j of the first accumulator is the sum over the grid of the tiles' sums of
    1 / (1 + distance); likewise the other three of their quantities. -/
theorem acc3 (c : Dev nD) (j : S1x128.Idx) : (outsAt0 m c 63 h63N).1 j = ∑ t : Fin 64, gQ m c t.val := by
  have := Cert.GridSum.running_sum_64 (S3 m c j) (gQ m c)
    (by unfold S3 gQ; rw [dif_pos h0N, dif_pos h0N, outsAt0_zero m c h0N]; dsimp only; rw [pay1_apply, pay5_apply])
    (fun n hn => by
      have h1 : n + 1 < cfg0.N := by rw [show cfg0.N = 64 from N_0]; exact hn
      unfold S3 gQ; rw [dif_pos h1, dif_pos (Nat.lt_of_succ_lt h1), dif_pos h1, outsAt0_succ m c n h1]; dsimp only; rw [pay1_apply])
  unfold S3 at this; rw [dif_pos h63N] at this; exact this

theorem acc4 (c : Dev nD) (j : S1x128.Idx) : (outsAt0 m c 63 h63N).2.1 j = ∑ t : Fin 64, gPlogP m c t.val := by
  have := Cert.GridSum.running_sum_64 (S4 m c j) (gPlogP m c)
    (by unfold S4 gPlogP; rw [dif_pos h0N, dif_pos h0N, outsAt0_zero m c h0N]; dsimp only; rw [pay2_apply, pay6_apply])
    (fun n hn => by
      have h1 : n + 1 < cfg0.N := by rw [show cfg0.N = 64 from N_0]; exact hn
      unfold S4 gPlogP; rw [dif_pos h1, dif_pos (Nat.lt_of_succ_lt h1), dif_pos h1, outsAt0_succ m c n h1]; dsimp only; rw [pay2_apply])
  unfold S4 at this; rw [dif_pos h63N] at this; exact this

theorem acc5 (c : Dev nD) (j : S1x128.Idx) : (outsAt0 m c 63 h63N).2.2.1 j = ∑ t : Fin 64, gPlog1p m c t.val := by
  have := Cert.GridSum.running_sum_64 (S5 m c j) (gPlog1p m c)
    (by unfold S5 gPlog1p; rw [dif_pos h0N, dif_pos h0N, outsAt0_zero m c h0N]; dsimp only; rw [pay3_apply, pay7_apply])
    (fun n hn => by
      have h1 : n + 1 < cfg0.N := by rw [show cfg0.N = 64 from N_0]; exact hn
      unfold S5 gPlog1p; rw [dif_pos h1, dif_pos (Nat.lt_of_succ_lt h1), dif_pos h1, outsAt0_succ m c n h1]; dsimp only; rw [pay3_apply])
  unfold S5 at this; rw [dif_pos h63N] at this; exact this

theorem acc6 (c : Dev nD) (j : S1x128.Idx) : (outsAt0 m c 63 h63N).2.2.2 j = ∑ t : Fin 64, gP m c t.val := by
  have := Cert.GridSum.running_sum_64 (S6 m c j) (gP m c)
    (by unfold S6 gP; rw [dif_pos h0N, dif_pos h0N, outsAt0_zero m c h0N]; dsimp only; rw [pay4_apply, pay8_apply])
    (fun n hn => by
      have h1 : n + 1 < cfg0.N := by rw [show cfg0.N = 64 from N_0]; exact hn
      unfold S6 gP; rw [dif_pos h1, dif_pos (Nat.lt_of_succ_lt h1), dif_pos h1, outsAt0_succ m c n h1]; dsimp only; rw [pay4_apply])
  unfold S6 at this; rw [dif_pos h63N] at this; exact this

end Cert.KernelIdeal.Fr

end
-- ==== Proof.KiBlocks.lean ====
/-
  The kernel region's blocks and final arrays, as layout.

  The grid is 8 x 8, row-major: point t has row tile t / 8 and column tile t % 8. The array of points is read through
  two windows of 1024-row blocks, one at the row tile and one at the column tile; the array of weights through one
  window of 1024 x 1024 blocks at (row tile, column tile). So an entry of an input block is the entry of its array at
  (tile index) * 1024 + (the row or column inside the block). Each of the four 1 x 128 accumulator arrays is one block,
  the whole array, written back at the last point only; after the run it therefore holds what the body left in the
  accumulator's buffer at the last point. Nothing here depends on the arithmetic of the floats.
-/
import proofs.«103825_j43121471651900_1_alg».proof.Proof.KiBody
import Idealize.ShloMosaic.Lib.ValueIdx
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input blocks, read at an index -/

/-- The printed index maps of the three input windows, decided over the 64 grid points: the points' row-tile window is
    at block (row tile, 0), their column-tile window at block (column tile, 0), the weights' window at block
    (row tile, column tile), where point t has row tile t / 8 and column tile t % 8. -/
theorem idx_facts_in : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = t.val % 8 :=
  (by decide +kernel : ∀ t : Fin grid0.N, _)

/-- Row r of the row tile's block is a row of the array. -/
theorem row_lt (t : Fin cfg0.N) (r : Fin 1024) : t.val / 8 * 1024 + r.val < 8192 := by
  have hN : t.val < 64 := lt_of_lt_of_eq t.isLt (show cfg0.N = 64 from N_0)
  have := r.isLt; omega

/-- Row q of the column tile's block is a row of the array. -/
theorem col_lt (t : Fin cfg0.N) (q : Fin 1024) : t.val % 8 * 1024 + q.val < 8192 := by
  have := q.isLt; omega

/-- The row-tile block of the points at (r, k) is the array at row (row tile) * 1024 + r. -/
theorem iblk0_apply (c : Dev nD) (t : Fin cfg0.N) (r : Fin 1024) (k : Fin 2) :
    iblk m c 0 t (ValueIdx.ix2 r k) = V m c main_arg0 (ValueIdx.ix2 (⟨t.val / 8 * 1024 + r.val, row_lt t r⟩ : Fin 8192) k) := by
  obtain ⟨e0, e1, -⟩ := idx_facts_in t
  unfold iblk
  rw [View.read_apply]
  show V m c main_arg0 (((cfg0.win 0).blk t).view.emb (ValueIdx.ix2 r k)) = _
  refine congrArg (V m c main_arg0) ?_
  funext a; apply Fin.ext
  match a with
  | ⟨0, _⟩ => show win0_0.index t (0 : Fin 2) * 1024 + 1 * r.val = t.val / 8 * 1024 + r.val; omega
  | ⟨1, _⟩ => show win0_0.index t (1 : Fin 2) * 2 + 1 * k.val = k.val; omega

/-- The column-tile block of the points at (r, k) is the array at row (column tile) * 1024 + r. -/
theorem iblk1_apply (c : Dev nD) (t : Fin cfg0.N) (r : Fin 1024) (k : Fin 2) :
    iblk m c 1 t (ValueIdx.ix2 r k) = V m c main_arg0 (ValueIdx.ix2 (⟨t.val % 8 * 1024 + r.val, col_lt t r⟩ : Fin 8192) k) := by
  obtain ⟨-, -, e0, e1, -⟩ := idx_facts_in t
  unfold iblk
  rw [View.read_apply]
  show V m c main_arg0 (((cfg0.win 1).blk t).view.emb (ValueIdx.ix2 r k)) = _
  refine congrArg (V m c main_arg0) ?_
  funext a; apply Fin.ext
  match a with
  | ⟨0, _⟩ => show win0_1.index t (0 : Fin 2) * 1024 + 1 * r.val = t.val % 8 * 1024 + r.val; omega
  | ⟨1, _⟩ => show win0_1.index t (1 : Fin 2) * 2 + 1 * k.val = k.val; omega

/-- The block of the weights at (r, q) is the array at row (row tile) * 1024 + r and column (column tile) * 1024 + q. -/
theorem iblk2_apply (c : Dev nD) (t : Fin cfg0.N) (r q : Fin 1024) :
    iblk m c 2 t (ValueIdx.ix2 r q) = V m c main_arg1 (ValueIdx.ix2 (⟨t.val / 8 * 1024 + r.val, row_lt t r⟩ : Fin 8192) (⟨t.val % 8 * 1024 + q.val, col_lt t q⟩ : Fin 8192)) := by
  obtain ⟨-, -, -, -, e0, e1⟩ := idx_facts_in t
  unfold iblk
  rw [View.read_apply]
  show V m c main_arg1 (((cfg0.win 2).blk t).view.emb (ValueIdx.ix2 r q)) = _
  refine congrArg (V m c main_arg1) ?_
  funext a; apply Fin.ext
  match a with
  | ⟨0, _⟩ => show win0_2.index t (0 : Fin 2) * 1024 + 1 * r.val = t.val / 8 * 1024 + r.val; omega
  | ⟨1, _⟩ => show win0_2.index t (1 : Fin 2) * 1024 + 1 * q.val = t.val % 8 * 1024 + q.val; omega

/-! ## The four accumulator arrays after the run -/

/-- The last of the 64 points. -/
theorem last_lt : 63 < cfg0.N := lt_of_lt_of_eq (by decide : (63 : ℕ) < 64) N_0.symm

/-- The first accumulator's window is at block (0, 0) at every point. -/
theorem idx_out3 : ∀ t : Fin cfg0.N, win0_3.index t (0 : Fin 2) = 0 ∧ win0_3.index t (1 : Fin 2) = 0 :=
  (by decide +kernel : ∀ t : Fin grid0.N, _)

/-- The first accumulator's block at any point is its whole 1 x 128 array, so what a write-back at point t writes is the
    block's read of what the body left in the buffer at t, taken as contents of the array. -/
theorem flushed3_self (c : Dev nD) (t : Fin cfg0.N) :
    (dats m 0 c).flushed 3 t = ((cfg0.win 3).blk t).view.read (Elt F) (outsAt0 m c t.val t.isLt).1 := by
  obtain ⟨e0, e1⟩ := idx_out3 t
  show (cfg0.win 3).cut (grid0.coords t) ((dats m 0 c).after 3 t) = _
  rw [after0_3]
  funext y
  rw [View.read_apply]
  show (outsAt0 m c t.val t.isLt).1 y = (outsAt0 m c t.val t.isLt).1 (((cfg0.win 3).blk t).view.emb y)
  refine congrArg (outsAt0 m c t.val t.isLt).1 ?_
  funext a; apply Fin.ext
  match a with
  | ⟨0, _⟩ => show (y 0).val = win0_3.index t (0 : Fin 2) * 1 + 1 * (y 0).val; omega
  | ⟨1, _⟩ => show (y 1).val = win0_3.index t (1 : Fin 2) * 128 + 1 * (y 1).val; omega

/-- Every index of the first accumulator's array is in the block of any point: the block is the whole array. -/
theorem mem_blk3 (t : Fin cfg0.N) (i : S1x128.Idx) : i ∈ ((cfg0.win 3).blk t).view.set := by
  obtain ⟨e0, e1⟩ := idx_out3 t
  show i ∈ ((View.whole main_v0_0).slice (win0_3.rect t)).set
  rw [View.set_slice_whole, Rect.mem_set_unit]
  intro a
  have h0 : (i 0).val < 1 := (i 0).isLt
  have h1 : (i 1).val < 128 := (i 1).isLt
  match a with
  | ⟨0, _⟩ => show win0_3.index t (0 : Fin 2) * 1 ≤ (i 0).val ∧ (i 0).val < win0_3.index t (0 : Fin 2) * 1 + 1; omega
  | ⟨1, _⟩ => show win0_3.index t (1 : Fin 2) * 128 ≤ (i 1).val ∧ (i 1).val < win0_3.index t (1 : Fin 2) * 128 + 128; omega

/-- After the run the first accumulator's array holds what the body left in its buffer at the one point that writes it
    back, position 63 (stated for a position n known to be 63, so that the recursion over positions stays folded). -/
theorem fin3_of (c : Dev nD) (n : ℕ) (hn : n < cfg0.N) (h63 : n = 63) :
    (dats m 0 c).arrAt 3 cfg0.N = (outsAt0 m c n hn).1 := by
  refine (dats m 0 c).arrAt_eq_of_cover 3 (outsAt0 m c n hn).1 (fun t hf => ?_) (fun i => ?_)
  · have hN : t.val < 64 := lt_of_lt_of_eq t.isLt (show cfg0.N = 64 from N_0)
    have ht : t = ⟨n, hn⟩ := Fin.ext (by have := (flush0_3 t).mp hf; show t.val = n; omega)
    subst ht
    exact flushed3_self m c ⟨n, hn⟩
  · exact ⟨⟨n, hn⟩, (flush0_3 _).mpr (by show n % 64 = 63; omega), mem_blk3 ⟨n, hn⟩ i⟩

/-- After the run the first accumulator's array holds what the body left in its buffer at the last point. -/
theorem fin3_apply (c : Dev nD) (j : S1x128.Idx) :
    (dats m 0 c).arrAt 3 cfg0.N j = (outsAt0 m c 63 last_lt).1 j :=
  congrFun (fin3_of m c 63 last_lt rfl) j

/-- The second accumulator's window is at block (0, 0) at every point. -/
theorem idx_out4 : ∀ t : Fin cfg0.N, win0_4.index t (0 : Fin 2) = 0 ∧ win0_4.index t (1 : Fin 2) = 0 :=
  (by decide +kernel : ∀ t : Fin grid0.N, _)

/-- The second accumulator's block at any point is its whole 1 x 128 array, so what a write-back at point t writes is the
    block's read of what the body left in the buffer at t, taken as contents of the array. -/
theorem flushed4_self (c : Dev nD) (t : Fin cfg0.N) :
    (dats m 0 c).flushed 4 t = ((cfg0.win 4).blk t).view.read (Elt F) (outsAt0 m c t.val t.isLt).2.1 := by
  obtain ⟨e0, e1⟩ := idx_out4 t
  show (cfg0.win 4).cut (grid0.coords t) ((dats m 0 c).after 4 t) = _
  rw [after0_4]
  funext y
  rw [View.read_apply]
  show (outsAt0 m c t.val t.isLt).2.1 y = (outsAt0 m c t.val t.isLt).2.1 (((cfg0.win 4).blk t).view.emb y)
  refine congrArg (outsAt0 m c t.val t.isLt).2.1 ?_
  funext a; apply Fin.ext
  match a with
  | ⟨0, _⟩ => show (y 0).val = win0_4.index t (0 : Fin 2) * 1 + 1 * (y 0).val; omega
  | ⟨1, _⟩ => show (y 1).val = win0_4.index t (1 : Fin 2) * 128 + 1 * (y 1).val; omega

/-- Every index of the second accumulator's array is in the block of any point: the block is the whole array. -/
theorem mem_blk4 (t : Fin cfg0.N) (i : S1x128.Idx) : i ∈ ((cfg0.win 4).blk t).view.set := by
  obtain ⟨e0, e1⟩ := idx_out4 t
  show i ∈ ((View.whole main_v0_1).slice (win0_4.rect t)).set
  rw [View.set_slice_whole, Rect.mem_set_unit]
  intro a
  have h0 : (i 0).val < 1 := (i 0).isLt
  have h1 : (i 1).val < 128 := (i 1).isLt
  match a with
  | ⟨0, _⟩ => show win0_4.index t (0 : Fin 2) * 1 ≤ (i 0).val ∧ (i 0).val < win0_4.index t (0 : Fin 2) * 1 + 1; omega
  | ⟨1, _⟩ => show win0_4.index t (1 : Fin 2) * 128 ≤ (i 1).val ∧ (i 1).val < win0_4.index t (1 : Fin 2) * 128 + 128; omega

/-- After the run the second accumulator's array holds what the body left in its buffer at the one point that writes it
    back, position 63 (stated for a position n known to be 63, so that the recursion over positions stays folded). -/
theorem fin4_of (c : Dev nD) (n : ℕ) (hn : n < cfg0.N) (h63 : n = 63) :
    (dats m 0 c).arrAt 4 cfg0.N = (outsAt0 m c n hn).2.1 := by
  refine (dats m 0 c).arrAt_eq_of_cover 4 (outsAt0 m c n hn).2.1 (fun t hf => ?_) (fun i => ?_)
  · have hN : t.val < 64 := lt_of_lt_of_eq t.isLt (show cfg0.N = 64 from N_0)
    have ht : t = ⟨n, hn⟩ := Fin.ext (by have := (flush0_4 t).mp hf; show t.val = n; omega)
    subst ht
    exact flushed4_self m c ⟨n, hn⟩
  · exact ⟨⟨n, hn⟩, (flush0_4 _).mpr (by show n % 64 = 63; omega), mem_blk4 ⟨n, hn⟩ i⟩

/-- After the run the second accumulator's array holds what the body left in its buffer at the last point. -/
theorem fin4_apply (c : Dev nD) (j : S1x128.Idx) :
    (dats m 0 c).arrAt 4 cfg0.N j = (outsAt0 m c 63 last_lt).2.1 j :=
  congrFun (fin4_of m c 63 last_lt rfl) j

/-- The third accumulator's window is at block (0, 0) at every point. -/
theorem idx_out5 : ∀ t : Fin cfg0.N, win0_5.index t (0 : Fin 2) = 0 ∧ win0_5.index t (1 : Fin 2) = 0 :=
  (by decide +kernel : ∀ t : Fin grid0.N, _)

/-- The third accumulator's block at any point is its whole 1 x 128 array, so what a write-back at point t writes is the
    block's read of what the body left in the buffer at t, taken as contents of the array. -/
theorem flushed5_self (c : Dev nD) (t : Fin cfg0.N) :
    (dats m 0 c).flushed 5 t = ((cfg0.win 5).blk t).view.read (Elt F) (outsAt0 m c t.val t.isLt).2.2.1 := by
  obtain ⟨e0, e1⟩ := idx_out5 t
  show (cfg0.win 5).cut (grid0.coords t) ((dats m 0 c).after 5 t) = _
  rw [after0_5]
  funext y
  rw [View.read_apply]
  show (outsAt0 m c t.val t.isLt).2.2.1 y = (outsAt0 m c t.val t.isLt).2.2.1 (((cfg0.win 5).blk t).view.emb y)
  refine congrArg (outsAt0 m c t.val t.isLt).2.2.1 ?_
  funext a; apply Fin.ext
  match a with
  | ⟨0, _⟩ => show (y 0).val = win0_5.index t (0 : Fin 2) * 1 + 1 * (y 0).val; omega
  | ⟨1, _⟩ => show (y 1).val = win0_5.index t (1 : Fin 2) * 128 + 1 * (y 1).val; omega

/-- Every index of the third accumulator's array is in the block of any point: the block is the whole array. -/
theorem mem_blk5 (t : Fin cfg0.N) (i : S1x128.Idx) : i ∈ ((cfg0.win 5).blk t).view.set := by
  obtain ⟨e0, e1⟩ := idx_out5 t
  show i ∈ ((View.whole main_v0_2).slice (win0_5.rect t)).set
  rw [View.set_slice_whole, Rect.mem_set_unit]
  intro a
  have h0 : (i 0).val < 1 := (i 0).isLt
  have h1 : (i 1).val < 128 := (i 1).isLt
  match a with
  | ⟨0, _⟩ => show win0_5.index t (0 : Fin 2) * 1 ≤ (i 0).val ∧ (i 0).val < win0_5.index t (0 : Fin 2) * 1 + 1; omega
  | ⟨1, _⟩ => show win0_5.index t (1 : Fin 2) * 128 ≤ (i 1).val ∧ (i 1).val < win0_5.index t (1 : Fin 2) * 128 + 128; omega

/-- After the run the third accumulator's array holds what the body left in its buffer at the one point that writes it
    back, position 63 (stated for a position n known to be 63, so that the recursion over positions stays folded). -/
theorem fin5_of (c : Dev nD) (n : ℕ) (hn : n < cfg0.N) (h63 : n = 63) :
    (dats m 0 c).arrAt 5 cfg0.N = (outsAt0 m c n hn).2.2.1 := by
  refine (dats m 0 c).arrAt_eq_of_cover 5 (outsAt0 m c n hn).2.2.1 (fun t hf => ?_) (fun i => ?_)
  · have hN : t.val < 64 := lt_of_lt_of_eq t.isLt (show cfg0.N = 64 from N_0)
    have ht : t = ⟨n, hn⟩ := Fin.ext (by have := (flush0_5 t).mp hf; show t.val = n; omega)
    subst ht
    exact flushed5_self m c ⟨n, hn⟩
  · exact ⟨⟨n, hn⟩, (flush0_5 _).mpr (by show n % 64 = 63; omega), mem_blk5 ⟨n, hn⟩ i⟩

/-- After the run the third accumulator's array holds what the body left in its buffer at the last point. -/
theorem fin5_apply (c : Dev nD) (j : S1x128.Idx) :
    (dats m 0 c).arrAt 5 cfg0.N j = (outsAt0 m c 63 last_lt).2.2.1 j :=
  congrFun (fin5_of m c 63 last_lt rfl) j

/-- The fourth accumulator's window is at block (0, 0) at every point. -/
theorem idx_out6 : ∀ t : Fin cfg0.N, win0_6.index t (0 : Fin 2) = 0 ∧ win0_6.index t (1 : Fin 2) = 0 :=
  (by decide +kernel : ∀ t : Fin grid0.N, _)

/-- The fourth accumulator's block at any point is its whole 1 x 128 array, so what a write-back at point t writes is the
    block's read of what the body left in the buffer at t, taken as contents of the array. -/
theorem flushed6_self (c : Dev nD) (t : Fin cfg0.N) :
    (dats m 0 c).flushed 6 t = ((cfg0.win 6).blk t).view.read (Elt F) (outsAt0 m c t.val t.isLt).2.2.2 := by
  obtain ⟨e0, e1⟩ := idx_out6 t
  show (cfg0.win 6).cut (grid0.coords t) ((dats m 0 c).after 6 t) = _
  rw [after0_6]
  funext y
  rw [View.read_apply]
  show (outsAt0 m c t.val t.isLt).2.2.2 y = (outsAt0 m c t.val t.isLt).2.2.2 (((cfg0.win 6).blk t).view.emb y)
  refine congrArg (outsAt0 m c t.val t.isLt).2.2.2 ?_
  funext a; apply Fin.ext
  match a with
  | ⟨0, _⟩ => show (y 0).val = win0_6.index t (0 : Fin 2) * 1 + 1 * (y 0).val; omega
  | ⟨1, _⟩ => show (y 1).val = win0_6.index t (1 : Fin 2) * 128 + 1 * (y 1).val; omega

/-- Every index of the fourth accumulator's array is in the block of any point: the block is the whole array. -/
theorem mem_blk6 (t : Fin cfg0.N) (i : S1x128.Idx) : i ∈ ((cfg0.win 6).blk t).view.set := by
  obtain ⟨e0, e1⟩ := idx_out6 t
  show i ∈ ((View.whole main_v0_3).slice (win0_6.rect t)).set
  rw [View.set_slice_whole, Rect.mem_set_unit]
  intro a
  have h0 : (i 0).val < 1 := (i 0).isLt
  have h1 : (i 1).val < 128 := (i 1).isLt
  match a with
  | ⟨0, _⟩ => show win0_6.index t (0 : Fin 2) * 1 ≤ (i 0).val ∧ (i 0).val < win0_6.index t (0 : Fin 2) * 1 + 1; omega
  | ⟨1, _⟩ => show win0_6.index t (1 : Fin 2) * 128 ≤ (i 1).val ∧ (i 1).val < win0_6.index t (1 : Fin 2) * 128 + 128; omega

/-- After the run the fourth accumulator's array holds what the body left in its buffer at the one point that writes it
    back, position 63 (stated for a position n known to be 63, so that the recursion over positions stays folded). -/
theorem fin6_of (c : Dev nD) (n : ℕ) (hn : n < cfg0.N) (h63 : n = 63) :
    (dats m 0 c).arrAt 6 cfg0.N = (outsAt0 m c n hn).2.2.2 := by
  refine (dats m 0 c).arrAt_eq_of_cover 6 (outsAt0 m c n hn).2.2.2 (fun t hf => ?_) (fun i => ?_)
  · have hN : t.val < 64 := lt_of_lt_of_eq t.isLt (show cfg0.N = 64 from N_0)
    have ht : t = ⟨n, hn⟩ := Fin.ext (by have := (flush0_6 t).mp hf; show t.val = n; omega)
    subst ht
    exact flushed6_self m c ⟨n, hn⟩
  · exact ⟨⟨n, hn⟩, (flush0_6 _).mpr (by show n % 64 = 63; omega), mem_blk6 ⟨n, hn⟩ i⟩

/-- After the run the fourth accumulator's array holds what the body left in its buffer at the last point. -/
theorem fin6_apply (c : Dev nD) (j : S1x128.Idx) :
    (dats m 0 c).arrAt 6 cfg0.N j = (outsAt0 m c 63 last_lt).2.2.2 j :=
  congrFun (fin6_of m c 63 last_lt rfl) j

end Cert.KernelIdeal.Fr

end
-- ==== Proof.KlSpec.lean ====
/-
  The loss both programs compute, as two closed forms over the extended reals.

  X is an 8192 x 2 table of points and Pm an 8192 x 8192 table of weights. The squared distance between points a and b
  is written the expanded way, |a|^2 + |b|^2 - 2 a.b; one form clamps it at zero from below before using it and the
  other does not. With q = 1 / (1 + distance) and Z = (sum of q over all pairs) - 8192:
    the clamped form is   (sum Pm log Pm + sum Pm log (1 + distance)) + log Z * sum Pm,
    the plain form is     sum Pm * (log Pm - log (q / Z)).
  Sums are over all ordered pairs, the row index outermost. The logarithm and the quotient are the ideal instance's.
-/
import Idealize.ShloMosaic.PureOps.Ideal

noncomputable section

namespace Cert.KlSpec

open Idealize.ShloMosaic

/-- |a|^2, as the sum of the squares of the two coordinates. -/
def sqE (X : Fin 8192 → Fin 2 → EReal) (a : Fin 8192) : EReal := ∑ k : Fin 2, X a k * X a k

/-- a.b, as the sum over the two coordinates. -/
def dotE (X : Fin 8192 → Fin 2 → EReal) (a b : Fin 8192) : EReal := ∑ k : Fin 2, X a k * X b k

/-- The squared distance between a and b in expanded form. -/
def distE (X : Fin 8192 → Fin 2 → EReal) (a b : Fin 8192) : EReal := sqE X a + sqE X b - 2 * dotE X a b

/-- The same clamped at zero from below. -/
def distK (X : Fin 8192 → Fin 2 → EReal) (a b : Fin 8192) : EReal := max (distE X a b) 0

/-- The clamped form of the loss. -/
def lossK (X : Fin 8192 → Fin 2 → EReal) (Pm : Fin 8192 → Fin 8192 → EReal) : EReal :=
  ((∑ a : Fin 8192, ∑ b : Fin 8192, Pm a b * Ideal.log (Pm a b))
      + (∑ a : Fin 8192, ∑ b : Fin 8192, Pm a b * Ideal.log (1 + distK X a b)))
    + Ideal.log ((∑ a : Fin 8192, ∑ b : Fin 8192, Ideal.div 1 (1 + distK X a b)) - 8192)
        * (∑ a : Fin 8192, ∑ b : Fin 8192, Pm a b)

/-- The plain form of the loss. -/
def lossR (X : Fin 8192 → Fin 2 → EReal) (Pm : Fin 8192 → Fin 8192 → EReal) : EReal :=
  ∑ a : Fin 8192, ∑ b : Fin 8192,
    Pm a b * (Ideal.log (Pm a b)
      - Ideal.log (Ideal.div (Ideal.div 1 (1 + distE X a b))
          ((∑ a' : Fin 8192, ∑ b' : Fin 8192, Ideal.div 1 (1 + distE X a' b')) - 8192)))

end Cert.KlSpec

end
-- ==== Proof.KlIdx.lean ====
/-
  How the two argument arrays are read as the tables of the loss: entry (a, k) of the 8192 x 2 array of points and
  entry (a, b) of the 8192 x 8192 array of weights.
-/
import Idealize.ShloMosaic.Lib.ValueIdx
import proofs.«103825_j43121471651900_1_alg».proof.Proof.KlSpec

noncomputable section

namespace Cert.KlSpec

open Idealize.ShloMosaic Idealize.ShloMosaic.ValueIdx

/-- The points, row a and coordinate k. -/
def Xof (x : (⟨2, ![8192, 2]⟩ : Shape).Idx → EReal) : Fin 8192 → Fin 2 → EReal := fun a k => x (ix2 a k)

/-- The weights, row a and column b. -/
def Pof (P : (⟨2, ![8192, 8192]⟩ : Shape).Idx → EReal) : Fin 8192 → Fin 8192 → EReal := fun a b => P (ix2 a b)

end Cert.KlSpec

end
-- ==== Proof.KiPairs.lean ====
/-
  The kernel's four sums over its 64 grid points are the four sums over all 8192 x 8192 pairs that the clamped form of
  the loss is written with.

  At the grid point numbered t = i * 8 + j the kernel holds block i of the points (rows i * 1024 + r), block j of the
  points, and block (i, j) of the weights. So the tile's squared norms, products and clamped distances are those of
  the points i * 1024 + r and j * 1024 + c, and each of the tile's four sums is the sum of the corresponding quantity
  of the whole tables over the pairs (i * 1024 + r, j * 1024 + c). Summing over the 64 points is summing over the
  8 x 8 block pairs, and the sum over block pairs of the sums over offsets is the sum over all pairs.
-/
import proofs.«103825_j43121471651900_1_alg».proof.Proof.KiRuns
import proofs.«103825_j43121471651900_1_alg».proof.Proof.TileValue
import proofs.«103825_j43121471651900_1_alg».proof.Proof.GridSum
import proofs.«103825_j43121471651900_1_alg».proof.Proof.KlIdx
import proofs.«103825_j43121471651900_1_alg».proof.Proof.KiBlocks

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KlSpec Cert.KernelIdeal.TileValue Cert.GridSum

variable (m : (ℓ : Loc nD τ sig) → Buf (Elt Ideal) ℓ)

/-! ## A tile's quantities, when its blocks are blocks of the whole tables -/

section Blocks

variable (x : S8192x2.Idx → EReal) (P : S8192x8192.Idx → EReal)
variable (u v : S1024x2.Idx → EReal) (p : S1024x1024.Idx → EReal) (i j : Fin 8)

/-- If u is block i of the points, |u_r|^2 is the squared norm of point i * 1024 + r. -/
theorem sq1_block (hu : ∀ r k, u (ValueIdx.ix2 r k) = x (ValueIdx.ix2 (row i r) k)) (r : Fin 1024) :
    sq1 u r = sqE (Xof x) (row i r) := by
  unfold sq1 sqE Xof
  exact Finset.sum_congr rfl (fun k _ => by rw [hu])

/-- If u is block i and v block j of the points, u_r . v_c is the product of points i * 1024 + r and j * 1024 + c. -/
theorem dot1_block (hu : ∀ r k, u (ValueIdx.ix2 r k) = x (ValueIdx.ix2 (row i r) k))
    (hv : ∀ r k, v (ValueIdx.ix2 r k) = x (ValueIdx.ix2 (row j r) k)) (r c : Fin 1024) :
    dot1 u v r c = dotE (Xof x) (row i r) (row j c) := by
  unfold dot1 dotE Xof
  exact Finset.sum_congr rfl (fun k _ => by rw [hu, hv])

/-- ... and the tile's clamped distance at (r, c) is the clamped distance of those two points. -/
theorem dist1_block (hu : ∀ r k, u (ValueIdx.ix2 r k) = x (ValueIdx.ix2 (row i r) k))
    (hv : ∀ r k, v (ValueIdx.ix2 r k) = x (ValueIdx.ix2 (row j r) k)) (r c : Fin 1024) :
    dist1 u v r c = distK (Xof x) (row i r) (row j c) := by
  unfold dist1 distK distE
  rw [sq1_block x u i hu, sq1_block x v j hv, dot1_block x u v i j hu hv]

theorem tileQ_block (hu : ∀ r k, u (ValueIdx.ix2 r k) = x (ValueIdx.ix2 (row i r) k))
    (hv : ∀ r k, v (ValueIdx.ix2 r k) = x (ValueIdx.ix2 (row j r) k)) :
    tileQ u v = ∑ r : Fin 1024, ∑ c : Fin 1024, Ideal.div 1 (1 + distK (Xof x) (row i r) (row j c)) := by
  unfold tileQ
  exact Finset.sum_congr rfl (fun r _ => Finset.sum_congr rfl (fun c _ => by rw [dist1_block x u v i j hu hv]))

theorem tilePlogP_block (hp : ∀ r q, p (ValueIdx.ix2 r q) = P (ValueIdx.ix2 (row i r) (row j q))) :
    tilePlogP p = ∑ r : Fin 1024, ∑ c : Fin 1024, Pof P (row i r) (row j c) * Ideal.log (Pof P (row i r) (row j c)) := by
  unfold tilePlogP Pof
  exact Finset.sum_congr rfl (fun r _ => Finset.sum_congr rfl (fun c _ => by rw [hp]))

theorem tilePlog1p_block (hu : ∀ r k, u (ValueIdx.ix2 r k) = x (ValueIdx.ix2 (row i r) k))
    (hv : ∀ r k, v (ValueIdx.ix2 r k) = x (ValueIdx.ix2 (row j r) k))
    (hp : ∀ r q, p (ValueIdx.ix2 r q) = P (ValueIdx.ix2 (row i r) (row j q))) :
    tilePlog1p u v p
      = ∑ r : Fin 1024, ∑ c : Fin 1024, Pof P (row i r) (row j c) * Ideal.log (1 + distK (Xof x) (row i r) (row j c)) := by
  unfold tilePlog1p Pof
  exact Finset.sum_congr rfl (fun r _ => Finset.sum_congr rfl (fun c _ => by rw [hp, dist1_block x u v i j hu hv]))

theorem tileP_block (hp : ∀ r q, p (ValueIdx.ix2 r q) = P (ValueIdx.ix2 (row i r) (row j q))) :
    tileP p = ∑ r : Fin 1024, ∑ c : Fin 1024, Pof P (row i r) (row j c) := by
  unfold tileP Pof
  exact Finset.sum_congr rfl (fun r _ => Finset.sum_congr rfl (fun c _ => by rw [hp]))

end Blocks

/-! ## The blocks at the grid point of the pair (i, j) -/

/-- At the point numbered i * 8 + j the row-tile block of the points is block i. -/
theorem blk0_pt (c : Dev nD) (i j : Fin 8) (r : Fin 1024) (k : Fin 2) :
    iblk m c 0 (pt i j) (ValueIdx.ix2 r k) = V m c main_arg0 (ValueIdx.ix2 (row i r) k) := by
  refine (iblk0_apply m c (pt i j) r k).trans ?_
  exact congrArg (fun a => V m c main_arg0 (ValueIdx.ix2 a k))
    (Fin.ext (by show (pt i j).val / 8 * 1024 + r.val = i.val * 1024 + r.val; rw [pt_val_div]))

/-- ... the column-tile block of the points is block j ... -/
theorem blk1_pt (c : Dev nD) (i j : Fin 8) (r : Fin 1024) (k : Fin 2) :
    iblk m c 1 (pt i j) (ValueIdx.ix2 r k) = V m c main_arg0 (ValueIdx.ix2 (row j r) k) := by
  refine (iblk1_apply m c (pt i j) r k).trans ?_
  exact congrArg (fun a => V m c main_arg0 (ValueIdx.ix2 a k))
    (Fin.ext (by show (pt i j).val % 8 * 1024 + r.val = j.val * 1024 + r.val; rw [pt_val_mod]))

/-- ... and the block of the weights is block (i, j). -/
theorem blk2_pt (c : Dev nD) (i j : Fin 8) (r q : Fin 1024) :
    iblk m c 2 (pt i j) (ValueIdx.ix2 r q) = V m c main_arg1 (ValueIdx.ix2 (row i r) (row j q)) := by
  refine (iblk2_apply m c (pt i j) r q).trans ?_
  exact congrArg₂ (fun a b => V m c main_arg1 (ValueIdx.ix2 a b))
    (Fin.ext (by show (pt i j).val / 8 * 1024 + r.val = i.val * 1024 + r.val; rw [pt_val_div]))
    (Fin.ext (by show (pt i j).val % 8 * 1024 + q.val = j.val * 1024 + q.val; rw [pt_val_mod]))

/-! ## The four sums over the 64 grid points -/

/-- The tiles' sums of 1 / (1 + distance) add up to the sum over all pairs of points. -/
theorem sumQ (c : Dev nD) :
    ∑ t : Fin cfg0.N, tileQ (iblk m c 0 t) (iblk m c 1 t)
      = ∑ a : Fin 8192, ∑ b : Fin 8192, Ideal.div 1 (1 + distK (Xof (V m c main_arg0)) a b) := by
  rw [sum_tiles (fun a b => Ideal.div 1 (1 + distK (Xof (V m c main_arg0)) a b))]
  refine (sum_points (fun t : Fin cfg0.N => tileQ (iblk m c 0 t) (iblk m c 1 t))).trans ?_
  refine Finset.sum_congr rfl (fun i _ => Finset.sum_congr rfl (fun j _ => ?_))
  exact tileQ_block (V m c main_arg0) _ _ i j (blk0_pt m c i j) (blk1_pt m c i j)

/-- The tiles' sums of p log p add up to the sum over all entries of the weights. -/
theorem sumPlogP (c : Dev nD) :
    ∑ t : Fin cfg0.N, tilePlogP (iblk m c 2 t)
      = ∑ a : Fin 8192, ∑ b : Fin 8192, Pof (V m c main_arg1) a b * Ideal.log (Pof (V m c main_arg1) a b) := by
  rw [sum_tiles (fun a b => Pof (V m c main_arg1) a b * Ideal.log (Pof (V m c main_arg1) a b))]
  refine (sum_points (fun t : Fin cfg0.N => tilePlogP (iblk m c 2 t))).trans ?_
  refine Finset.sum_congr rfl (fun i _ => Finset.sum_congr rfl (fun j _ => ?_))
  exact tilePlogP_block (V m c main_arg1) _ i j (blk2_pt m c i j)

/-- The tiles' sums of p log (1 + distance) add up to the sum over all pairs. -/
theorem sumPlog1p (c : Dev nD) :
    ∑ t : Fin cfg0.N, tilePlog1p (iblk m c 0 t) (iblk m c 1 t) (iblk m c 2 t)
      = ∑ a : Fin 8192, ∑ b : Fin 8192,
          Pof (V m c main_arg1) a b * Ideal.log (1 + distK (Xof (V m c main_arg0)) a b) := by
  rw [sum_tiles (fun a b => Pof (V m c main_arg1) a b * Ideal.log (1 + distK (Xof (V m c main_arg0)) a b))]
  refine (sum_points (fun t : Fin cfg0.N => tilePlog1p (iblk m c 0 t) (iblk m c 1 t) (iblk m c 2 t))).trans ?_
  refine Finset.sum_congr rfl (fun i _ => Finset.sum_congr rfl (fun j _ => ?_))
  exact tilePlog1p_block (V m c main_arg0) (V m c main_arg1) _ _ _ i j (blk0_pt m c i j) (blk1_pt m c i j) (blk2_pt m c i j)

/-- The tiles' sums of p add up to the sum of all the weights. -/
theorem sumP (c : Dev nD) :
    ∑ t : Fin cfg0.N, tileP (iblk m c 2 t) = ∑ a : Fin 8192, ∑ b : Fin 8192, Pof (V m c main_arg1) a b := by
  rw [sum_tiles (fun a b => Pof (V m c main_arg1) a b)]
  refine (sum_points (fun t : Fin cfg0.N => tileP (iblk m c 2 t))).trans ?_
  refine Finset.sum_congr rfl (fun i _ => Finset.sum_congr rfl (fun j _ => ?_))
  exact tileP_block (V m c main_arg1) _ i j (blk2_pt m c i j)

end Cert.KernelIdeal.Fr

end
-- ==== Proof.KiTail.lean ====
/-
  The host operations that follow the kernel region, as ONE function of the four accumulator arrays.

  After the region the program takes from each of the four 1 x 128 accumulator arrays its entry at position (0, 0)
  (a 1 x 1 slice, viewed as a scalar array) — call them s3, s4, s5, s6 in the order of the arrays — and forms
      (s4 + s5) + log (s3 - 8192) * s6,
  that is: the sum of p log p, plus the sum of p log (1 + distance), plus the logarithm of the normaliser (the sum of
  1 / (1 + distance) less the 8192 diagonal terms) times the sum of p. Stated first for every float instance as a
  composition of the operations' own functions, so that what the result array holds after the fourteen operations is
  this function of what the accumulator arrays held before them; then read at the one index on the extended reals,
  where the float pattern of 8192 is that number and the host's logarithm is the extended reals' own.
-/
import proofs.«103825_j43121471651900_1_alg».proof.Proof.Gen.KernelIdeal.Launch
import proofs.«103825_j43121471651900_1_alg».proof.Proof.Consts
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tail

open Cert.KernelIdeal Cert.KernelIdeal.Gen Idealize.ShloMosaic Idealize.ShloMosaic.ValueIdx Idealize.SL.Sem

/-- The loss from the four accumulator arrays: with s3, s4, s5, s6 the entries at position (0, 0) of the four
    arrays, each taken as a scalar array, the scalar (s4 + s5) + log (s3 - 8192) * s6. -/
def tailFn {F : FTy → Type} [FloatOps F] (a3 a4 a5 a6 : FVec F S1x128 .f32) : FVec F S_ .f32 :=
  addf
    (addf
      (shapeCast S_ (extractStridedSlice S1x1 ![0, 0] a4 slices_S1x128_S1x1_0_0) shapeCasts_S1x1_S_)
      (shapeCast S_ (extractStridedSlice S1x1 ![0, 0] a5 slices_S1x128_S1x1_0_0) shapeCasts_S1x1_S_))
    (mulf
      (Host.log (F := F)
        (subf (shapeCast S_ (extractStridedSlice S1x1 ![0, 0] a3 slices_S1x128_S1x1_0_0) shapeCasts_S1x1_S_)
          (constant (F := F) S_ .f32 0x46000000#32)))
      (shapeCast S_ (extractStridedSlice S1x1 ![0, 0] a6 slices_S1x128_S1x1_0_0) shapeCasts_S1x1_S_))

/-- After the fourteen operations that follow the kernel region, the result array holds that function of the four
    accumulator arrays as they stood before. -/
theorem after_tail {F : FTy → Type} [FloatOps F] (V : Valuation τ sig (Elt F)) :
    StableHlo.after (hostOps1 (F := F)) V (Proc.devRef .tc main_v13)
      = tailFn (V (Proc.devRef .tc main_v0_0)) (V (Proc.devRef .tc main_v0_1)) (V (Proc.devRef .tc main_v0_2))
          (V (Proc.devRef .tc main_v0_3)) := by
  after_results
  rfl

/-- An accumulator's entry at position (0, 0), taken as a scalar array, reads that entry at the one index. -/
theorem head_apply {α : Type} (a : S1x128.Idx → α) (i : S_.Idx) :
    shapeCast S_ (extractStridedSlice S1x1 ![0, 0] a slices_S1x128_S1x1_0_0) shapeCasts_S1x1_S_ i = a (ix2 0 0) := by
  refine (shapeCast_apply _ shapeCasts_S1x1_S_ i (ix2 (0 : Fin 1) (0 : Fin 1)) ?_).trans ?_
  · have h := (S_.rowMajor i).isLt
    have hn : S_.numel = 1 := rfl
    rw [Shape.rowMajor_val_two]
    show 0 * 1 + 0 = (S_.rowMajor i).val
    omega
  · exact extractStridedSlice_apply ![0, 0] a slices_S1x128_S1x1_0_0 (ix2 (0 : Fin 1) (0 : Fin 1)) (ix2 0 0) fun ax => by
      match ax with
      | ⟨0, _⟩ => rfl
      | ⟨1, _⟩ => rfl

/-- On the extended reals the loss from the four accumulator arrays is (s4 + s5) + log (s3 - 8192) * s6 of their
    entries at position (0, 0). -/
theorem tailFn_apply (a3 a4 a5 a6 : FVec Ideal S1x128 .f32) (i : S_.Idx) :
    tailFn (F := Ideal) a3 a4 a5 a6 i
      = (a4 (ValueIdx.ix2 0 0) + a5 (ValueIdx.ix2 0 0)) + Ideal.log (a3 (ValueIdx.ix2 0 0) - 8192) * a6 (ValueIdx.ix2 0 0) := by
  unfold tailFn
  show (_ + _) + Ideal.log (_ - Ideal.ofBits .f32 0x46000000#32) * _ = _
  rw [Cert.Consts.ofBits_8192, head_apply a3 i, head_apply a4 i, head_apply a5 i, head_apply a6 i]

end Cert.KernelIdeal.Tail

end
-- ==== Proof.KiValue.lean ====
/-
  The idealized kernel's result is the clamped closed form of the loss.

  The result buffer holds the host operations' value of the four accumulator arrays: (A1 + A2) + log (A0 - 8192) * A3
  at entry (0, 0) of each. Each accumulator array is what the last grid point wrote back, whose every entry is the sum
  over the 64 grid points of the tile's contribution; and the sum over the grid points of the tiles' sums is the sum
  over all 8192 x 8192 pairs.
-/
import proofs.«103825_j43121471651900_1_alg».proof.Proof.KiMain
import proofs.«103825_j43121471651900_1_alg».proof.Proof.KiAccum
import proofs.«103825_j43121471651900_1_alg».proof.Proof.KiBlocks
import proofs.«103825_j43121471651900_1_alg».proof.Proof.KiPairs
import proofs.«103825_j43121471651900_1_alg».proof.Proof.KiTail

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.TileValue

variable (m : (ℓ : Loc nD τ sig) → Buf (Elt Ideal) ℓ) (ρ : Dev nD → PrngReg)

open Cert.KlSpec

/-- The running sums' total over positions 0..63 is the sum over the grid's points. -/
theorem gQ_sum (c : Dev nD) : ∑ t : Fin 64, gQ m c t.val = ∑ t : Fin cfg0.N, tileQ (iblk m c 0 t) (iblk m c 1 t) := by
  refine Fintype.sum_equiv (finCongr N_0.symm) _ _ fun t => ?_
  unfold gQ
  rw [dif_pos (by rw [show cfg0.N = 64 from N_0]; exact t.isLt)]
  rfl
theorem gPlogP_sum (c : Dev nD) : ∑ t : Fin 64, gPlogP m c t.val = ∑ t : Fin cfg0.N, tilePlogP (iblk m c 2 t) := by
  refine Fintype.sum_equiv (finCongr N_0.symm) _ _ fun t => ?_
  unfold gPlogP
  rw [dif_pos (by rw [show cfg0.N = 64 from N_0]; exact t.isLt)]
  rfl
theorem gPlog1p_sum (c : Dev nD) : ∑ t : Fin 64, gPlog1p m c t.val = ∑ t : Fin cfg0.N, tilePlog1p (iblk m c 0 t) (iblk m c 1 t) (iblk m c 2 t) := by
  refine Fintype.sum_equiv (finCongr N_0.symm) _ _ fun t => ?_
  unfold gPlog1p
  rw [dif_pos (by rw [show cfg0.N = 64 from N_0]; exact t.isLt)]
  rfl
theorem gP_sum (c : Dev nD) : ∑ t : Fin 64, gP m c t.val = ∑ t : Fin cfg0.N, tileP (iblk m c 2 t) := by
  refine Fintype.sum_equiv (finCongr N_0.symm) _ _ fun t => ?_
  unfold gP
  rw [dif_pos (by rw [show cfg0.N = 64 from N_0]; exact t.isLt)]
  rfl

/-- Every entry of the first accumulator array after the region is the sum over all pairs of 1 / (1 + clamped
    distance); likewise the other three. -/
theorem fin3_value (c : Dev nD) (j : S1x128.Idx) :
    fin m c 3 j = ∑ a : Fin 8192, ∑ b : Fin 8192, Ideal.div 1 (1 + distK (Xof (V m c main_arg0)) a b) := by
  rw [show fin m c 3 j = (dats m 0 c).arrAt 3 cfg0.N j from rfl, fin3_apply, acc3, gQ_sum, sumQ]
theorem fin4_value (c : Dev nD) (j : S1x128.Idx) :
    fin m c 4 j = ∑ a : Fin 8192, ∑ b : Fin 8192, Pof (V m c main_arg1) a b * Ideal.log (Pof (V m c main_arg1) a b) := by
  rw [show fin m c 4 j = (dats m 0 c).arrAt 4 cfg0.N j from rfl, fin4_apply, acc4, gPlogP_sum, sumPlogP]
theorem fin5_value (c : Dev nD) (j : S1x128.Idx) :
    fin m c 5 j = ∑ a : Fin 8192, ∑ b : Fin 8192, Pof (V m c main_arg1) a b * Ideal.log (1 + distK (Xof (V m c main_arg0)) a b) := by
  rw [show fin m c 5 j = (dats m 0 c).arrAt 5 cfg0.N j from rfl, fin5_apply, acc5, gPlog1p_sum, sumPlog1p]
theorem fin6_value (c : Dev nD) (j : S1x128.Idx) :
    fin m c 6 j = ∑ a : Fin 8192, ∑ b : Fin 8192, Pof (V m c main_arg1) a b := by
  rw [show fin m c 6 j = (dats m 0 c).arrAt 6 cfg0.N j from rfl, fin6_apply, acc6, gP_sum, sumP]

/-- THE KERNEL'S RESULT: the clamped closed form of the loss of the two argument arrays. -/
theorem kernel_value (c : Dev nD) :
    V₂ m ρ c (Proc.devRef .tc main_v13)
      = fun _ => lossK (Xof (m ((c : Thread nD τ).loc main_arg0))) (Pof (m ((c : Thread nD τ).loc main_arg1))) := by
  funext i
  rw [show V₂ m ρ c (Proc.devRef .tc main_v13) = StableHlo.after (hostOps1 (F := Ideal)) (V₁ m ρ c) (Proc.devRef .tc main_v13) from rfl,
    Cert.KernelIdeal.Tail.after_tail, Cert.KernelIdeal.Tail.tailFn_apply,
    V₁_v0_0, V₁_v0_1, V₁_v0_2, V₁_v0_3, fin3_value, fin4_value, fin5_value, fin6_value]
  rfl

end Cert.KernelIdeal.Fr

end
-- ==== Proof.RefValue.lean ====
/-
  The reference program's result, read at the ideal instance, is the plain closed form of the loss.

  The reference computes, in order: the squared norm of every point as the sum of the squares of its two coordinates;
  the inner product of every pair of points as the sum over the two coordinates; the squared distance of every pair in
  expanded form, |a|^2 + |b|^2 - 2 a.b; the kernel value q = 1 / (1 + distance); the normaliser Z as the sum of q over
  all ordered pairs minus 8192; and the sum over all ordered pairs of P * (log P - log (q / Z)). Each stage is read here
  at one index, row and column given as coordinates, and the sums over all pairs are written as double sums, the row
  index outermost.
-/
import proofs.«103825_j43121471651900_1_alg».proof.Proof.Gen.ReferenceIdeal.Read
import proofs.«103825_j43121471651900_1_alg».proof.Proof.KlIdx
import proofs.«103825_j43121471651900_1_alg».proof.Proof.Consts
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.KlSpec Cert.Consts
  Idealize.ShloMosaic Idealize.ShloMosaic.ValueIdx

/-- The row sum of the squares at row a is |a|^2. -/
theorem sq_apply (x : FVec Ideal S8192x2 .f32) (a : Fin 8192) :
    val_main_v1 (F := Ideal) x (ix1 a) = sqE (Xof x) a := by
  rw [val_main_v1_apply]
  have e : ∀ k : Fin 2, idx_main_v1 (ix1 a) k = ix2 a k := fun k =>
    funext fun d => Fin.ext (by match d with | ⟨0, _⟩ => rfl | ⟨1, _⟩ => rfl)
  simp only [val_main_cst_apply, val_main_v0_apply, e, Ideal.ofBits_def, ofBits_zero, zero_add, Ideal.mulf_def]
  rfl

/-- The product of the points with their transpose at (a, b) is a.b. -/
theorem dot_apply (x : FVec Ideal S8192x2 .f32) (a b : Fin 8192) :
    val_main_v8 (F := Ideal) x (ix2 a b) = dotE (Xof x) a b := by
  rw [val_main_v8_apply]
  have el : ∀ k : Fin 2, lidx_main_v8 (ix2 a b) k = ix2 a k := fun k =>
    funext fun d => Fin.ext (by match d with | ⟨0, _⟩ => rfl | ⟨1, _⟩ => rfl)
  have er : ∀ k : Fin 2, idx_main_v7 (ridx_main_v8 (ix2 a b) k) = ix2 b k := fun k =>
    funext fun d => Fin.ext (by match d with | ⟨0, _⟩ => rfl | ⟨1, _⟩ => rfl)
  simp only [val_main_v7_apply, el, er]
  rfl

/-- The expanded squared distance at (a, b). -/
theorem dist_apply (x : FVec Ideal S8192x2 .f32) (a b : Fin 8192) :
    val_main_v11 (F := Ideal) x (ix2 a b) = distE (Xof x) a b := by
  have ea : idx_main_v2 (idx_main_v4 (ix2 a b)) = ix1 a :=
    funext fun d => Fin.ext (by match d with | ⟨0, _⟩ => rfl)
  have eb : idx_main_v3 (idx_main_v5 (ix2 a b)) = ix1 b :=
    funext fun d => Fin.ext (by match d with | ⟨0, _⟩ => rfl)
  rw [val_main_v11_apply, val_main_v6_apply, val_main_v4_apply, val_main_v2_apply, val_main_v5_apply,
    val_main_v3_apply, val_main_v10_apply, val_main_v9_apply, val_main_cst_0_apply, ea, eb, sq_apply, sq_apply,
    dot_apply]
  simp only [Ideal.ofBits_def, ofBits_two, Ideal.subf_def, Ideal.addf_def, Ideal.mulf_def]
  rfl

/-- The kernel value at (a, b): 1 / (1 + distance). -/
theorem q_apply (x : FVec Ideal S8192x2 .f32) (a b : Fin 8192) :
    val_main_v15 (F := Ideal) x (ix2 a b) = Ideal.div 1 (1 + distE (Xof x) a b) := by
  rw [val_main_v15_apply, val_main_v14_apply, val_main_cst_2_apply, val_main_v13_apply, val_main_v12_apply,
    val_main_cst_1_apply, dist_apply]
  simp only [Ideal.ofBits_def, ofBits_one, Ideal.hostDivf_def, Ideal.addf_def]

/-- The normaliser: the sum of the kernel values over all ordered pairs, minus 8192. -/
theorem part_apply (x : FVec Ideal S8192x2 .f32) (i : S_.Idx) :
    val_main_v17 (F := Ideal) x i
      = (∑ a : Fin 8192, ∑ b : Fin 8192, Ideal.div 1 (1 + distE (Xof x) a b)) - 8192 := by
  rw [val_main_v17_apply, val_main_v16_apply, val_main_cst_3_apply, val_main_cst_4_apply, sum_idx2]
  simp only [q_apply, Ideal.ofBits_def, ofBits_zero, ofBits_8192, zero_add, Ideal.subf_def]

/-- The reference's result is the plain closed form of the loss of the two argument arrays. -/
theorem ref_value (x : FVec Ideal S8192x2 .f32) (P : FVec Ideal S8192x8192 .f32) :
    val_main_v24 (F := Ideal) x P = fun _ => lossR (Xof x) (Pof P) := by
  funext i
  rw [val_main_v24_apply, val_main_cst_5_apply, sum_idx2]
  simp only [val_main_v23_apply, val_main_v22_apply, val_main_v20_apply, val_main_v21_apply, val_main_v19_apply,
    val_main_v18_apply, q_apply, part_apply, Ideal.ofBits_def, ofBits_zero, zero_add, Ideal.mulf_def, Ideal.subf_def,
    Ideal.hostDivf_def, Ideal.hostUnary_log_def]
  rfl

end Cert.ReferenceIdeal.RefValue

end
-- ==== Proof.LibRealEntries.lean ====
/-
  Real entries among the extended reals, and the law they are needed for.

  An extended real is REAL when it is the image of a real number (neither infinity). Sums, products, differences,
  maxima and finite sums of reals are real, so a value computed from real inputs by those operations is real without
  looking at how it was computed. That matters because the extended reals are not a ring: distributivity and
  cancellation fail at the infinities (⊤ + ⊥ = ⊥, 0 · ⊤ = 0), and an algebraic identity between two arrangements of
  one computation, true on the reals by `ring`, holds on the extended reals only where the entries are real.

  The law stated here is the folding of an evaluation-mode normalisation: with scale γ, shift β, mean μ and reciprocal
  deviation s, the plain form ((r − μ)·s)·γ + β and the folded multiply-add r·(γ·s) + (β − μ·(γ·s)) agree on real
  entries (both are the affine function r ↦ r·γ·s + β − μ·γ·s).
-/
import Idealize.ShloMosaic.PureOps.Ideal

noncomputable section

namespace Cert.LibRealEntries

open Finset

/-- An extended real that is a real number. -/
def IsReal (x : EReal) : Prop := ∃ r : ℝ, x = (r : EReal)

theorem IsReal.coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (EReal.coe_le_coe_iff.2 h)⟩
  · exact ⟨a, max_eq_left (EReal.coe_le_coe_iff.2 h)⟩

/-- A finite sum of reals is a real. -/
theorem IsReal.sum {ι : Type*} (s : Finset ι) (f : ι → EReal) (h : ∀ i ∈ s, IsReal (f i)) : IsReal (∑ i ∈ s, f i) :=
  Finset.sum_induction f IsReal (fun _ _ => IsReal.add) isReal_zero h

/-- The folded and the plain normalisation of one real entry agree: both are the affine function
    r ↦ r·γ·s + β − μ·γ·s. -/
theorem folded_eq_plain {r γ β μ s : EReal} (hr : IsReal r) (hγ : IsReal γ) (hβ : IsReal β) (hμ : IsReal μ) (hs : IsReal s) :
    r * (γ * s) + (β - μ * (γ * s)) = (r - μ) * s * γ + β := by
  obtain ⟨r, rfl⟩ := hr; obtain ⟨γ, rfl⟩ := hγ; obtain ⟨β, rfl⟩ := hβ; obtain ⟨μ, rfl⟩ := hμ; obtain ⟨s, rfl⟩ := hs
  simp only [← EReal.coe_mul, ← EReal.coe_sub, ← EReal.coe_add]
  congr 1
  ring

end Cert.LibRealEntries

end
-- ==== Proof.LibFinitePre.lean ====
/-
  Reading a printed precondition's tests "every entry is finite" and "every entry is nonnegative", at the ideal values.

  A precondition that says `jnp.all(|x| < inf)` of an array prints as a reduction by `and`, over all axes, of the
  comparison of |x| with the +∞ constant spread over the array's shape; it holds when the reduction's one result is 1.
  A reduction by `and` that is 1 had a 1 at every entry, so at every entry |x| = max(x, −x) is below the top of the
  extended reals, which excludes both infinities: the entry is a real number. The test `jnp.all(x >= 0)` reads the same
  way, through the order's comparison with the zero constant. Each lemma takes the test in the form it is printed in,
  for any shape and any reduced axes, so a precondition's conjunction is read one test at a time.
-/
import Idealize.ShloMosaic.Lib.ReduceAll
import Idealize.ShloMosaic.Lib.Pipeline.Value
import Idealize.ShloMosaic.Lib.ValueIdx
import Idealize.ShloMosaic.PureOps.Ideal.Laws
import proofs.«103825_j43121471651900_1_alg».proof.Proof.LibRealEntries

noncomputable section

namespace Cert.LibFinitePre

open Idealize.ShloMosaic Idealize.ShloMosaic.ValueIdx Cert.LibRealEntries

/-- The rank-0 shape has one index. -/
instance : Subsingleton (⟨0, ![]⟩ : Shape).Idx := ⟨fun a b => funext fun d => d.elim0⟩

/-- The f32 +∞ pattern is the top of the extended reals. -/
theorem inf_word : Ideal.ofBits .f32 0x7F800000#32 = ⊤ := by
  simp [Ideal.ofBits, Ideal.ieee]

theorem ofBool_eq_one (b : Bool) : BitVec.ofBool b = 1#1 ↔ b = true := by cases b <;> decide

/-- |x| < +∞ on the extended reals: x is a real. -/
theorem isReal_of_abs_lt_top (x : EReal) (h : Ideal.cmp .olt (max x (-x)) ⊤ = 1#1) : IsReal x := by
  have h' : max x (-x) < ⊤ := of_decide_eq_true ((ofBool_eq_one _).1 h)
  induction x using EReal.rec with
  | bot => exact absurd h' (by simp)
  | coe r => exact ⟨r, rfl⟩
  | top => exact absurd h' (by simp)

/-- x ≥ 0 on the extended reals is the order's. -/
theorem nonneg_of_cmp (x : EReal) (h : Ideal.cmp .oge x 0 = 1#1) : 0 ≤ x :=
  of_decide_eq_true ((ofBool_eq_one _).1 h)

/-- A test "every |entry| < +∞" that holds says every entry is a real. -/
theorem all_real {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .olt (Host.absf a) (broadcastInDim s ![] hb (constant (F := Ideal) ⟨0, ![]⟩ .f32 0x7F800000#32)))
      (constantI ⟨0, ![]⟩ 1 1#1) hr hu ix0 = 1#1) (i : s.Idx) : IsReal (a i) := by
  have h := Host.reduce_andi_all _ _ hr hu ix0 e i
  have hb' : broadcastInDim s ![] hb (constant (F := Ideal) ⟨0, ![]⟩ .f32 0x7F800000#32) i = ⊤ :=
    (broadcastInDim_apply ![] hb _ i ix0 (fun a => a.elim0)).trans inf_word
  refine isReal_of_abs_lt_top (a i) ?_
  have h2 : Ideal.cmp .olt (max (a i) (-(a i))) (broadcastInDim s ![] hb (constant (F := Ideal) ⟨0, ![]⟩ .f32 0x7F800000#32) i) = 1#1 := h
  rwa [hb'] at h2

/-- A test "every entry ≥ 0" that holds says every entry is nonnegative. -/
theorem all_nonneg {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .oge a (broadcastInDim s ![] hb (constant (F := Ideal) ⟨0, ![]⟩ .f32 0x00000000#32)))
      (constantI ⟨0, ![]⟩ 1 1#1) hr hu ix0 = 1#1) (i : s.Idx) : 0 ≤ a i := by
  have h := Host.reduce_andi_all _ _ hr hu ix0 e i
  have hb' : broadcastInDim s ![] hb (constant (F := Ideal) ⟨0, ![]⟩ .f32 0x00000000#32) i = 0 :=
    (broadcastInDim_apply ![] hb _ i ix0 (fun a => a.elim0)).trans Ideal.ofBits_zero_f32
  refine nonneg_of_cmp (a i) ?_
  have h2 : Ideal.cmp .oge (a i) (broadcastInDim s ![] hb (constant (F := Ideal) ⟨0, ![]⟩ .f32 0x00000000#32) i) = 1#1 := h
  rwa [hb'] at h2

end Cert.LibFinitePre

end
-- ==== Proof.FinitePre.lean ====
/-
  The precondition makes every entry of both argument arrays a real number.

  The precondition is the conjunction of two tests, one per argument array: every entry's absolute value is below +∞.
  It holds when its one result bit is 1; a conjunction that is 1 has both tests at 1, and a test "every |entry| < +∞"
  that is 1 says every entry of its array is neither infinity, that is, a real number. The same is then said of the two
  arrays read as the tables of the loss, entry by entry.
-/
import proofs.«103825_j43121471651900_1_alg».proof.Pre_finite_inputs
import proofs.«103825_j43121471651900_1_alg».proof.Proof.Gen.Pre_finite_inputs
import proofs.«103825_j43121471651900_1_alg».proof.Proof.LibFinitePre
import proofs.«103825_j43121471651900_1_alg».proof.Proof.KlIdx

noncomputable section

namespace Cert.FinitePre

open Idealize.ShloMosaic Idealize.ShloMosaic.ValueIdx Cert.LibRealEntries

variable [Cert.Pre_finite_inputs.Facts]

/-- Under the precondition every entry of the points and every entry of the weights is a real number. -/
theorem real_of_pre (x : FVec Ideal Cert.Pre_finite_inputs.S8192x2 .f32) (P : FVec Ideal Cert.Pre_finite_inputs.S8192x8192 .f32)
    (h : Cert.Pre_finite_inputs.fn (F := Ideal) x P = (fun _ => 1#1)) :
    (∀ i, IsReal (x i)) ∧ (∀ i, IsReal (P i)) := by
  have h0 := congrFun h ix0
  dsimp only [Cert.Pre_finite_inputs.fn] at h0
  obtain ⟨hx, hP⟩ := IntOp.andi_eq_one.1 h0
  exact ⟨fun i => Cert.LibFinitePre.all_real x _ _ _ hx i, fun i => Cert.LibFinitePre.all_real P _ _ _ hP i⟩

/-- The same for the two arrays read as the tables of the loss. -/
theorem tables_real (x : FVec Ideal Cert.Pre_finite_inputs.S8192x2 .f32) (P : FVec Ideal Cert.Pre_finite_inputs.S8192x8192 .f32)
    (h : Cert.Pre_finite_inputs.fn (F := Ideal) x P = (fun _ => 1#1)) :
    (∀ a k, IsReal (Cert.KlSpec.Xof x a k)) ∧ (∀ a b, IsReal (Cert.KlSpec.Pof P a b)) :=
  ⟨fun a k => (real_of_pre x P h).1 (ix2 a k), fun a b => (real_of_pre x P h).2 (ix2 a b)⟩

end Cert.FinitePre

end
-- ==== Proof.KlBridge.lean ====
/-
  The clamped and the plain closed form of the loss agree when every entry of the two tables is a real number.

  With real points the expanded squared distance |a|^2 + |b|^2 - 2 a.b is the real sum of the squared coordinate
  differences, so it is a real >= 0 and clamping it at zero changes nothing. Then q = 1 / (1 + distance) is a real in
  (0, 1], equal to 1 on the diagonal, so Z = (sum of q over all pairs) - 8192 is a real > 0 (the diagonal alone
  contributes 8192 and the pair (0, 1) something positive). Hence log (q / Z) = - log (1 + distance) - log Z is real,
  and each term p * (log p - log (q / Z)) opens to p * log p + p * log (1 + distance) + log Z * p. This last step is
  the delicate one: the extended reals do not distribute in general, and log p is the bottom element when p <= 0; it
  is checked by cases on log p and on the sign of p. Summing over all pairs and taking the real factor log Z out of
  the last sum gives the clamped form.
-/
import proofs.«103825_j43121471651900_1_alg».proof.Proof.KlSpec
import proofs.«103825_j43121471651900_1_alg».proof.Proof.LibRealEntries

noncomputable section

namespace Cert.KlSpec

open Idealize.ShloMosaic Cert.LibRealEntries Finset

/-- The coercion of the reals into the extended reals commutes with finite sums. -/
theorem coe_sum_real {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- One term of the plain form opened up. Here p, L, c are real and l is ANY extended real (it stands for log p,
    which is the bottom element when p <= 0). For real l this is distributivity in the reals; for infinite l both
    sides are the infinity of the sign of p * l, or zero when p = 0, since the other two summands are real. -/
theorem entry_open (p L c : ℝ) (l : EReal) :
    (p : EReal) * (l - ((-L - c : ℝ) : EReal)) = (p : EReal) * l + (p : EReal) * (L : EReal) + (c : EReal) * (p : EReal) := by
  induction l using EReal.rec with
  | bot =>
    rw [EReal.bot_sub, ← EReal.coe_mul, ← EReal.coe_mul]
    rcases lt_trichotomy p 0 with hp | hp | hp
    · rw [EReal.coe_mul_bot_of_neg hp, EReal.top_add_coe, EReal.top_add_coe]
    · subst hp; simp
    · rw [EReal.coe_mul_bot_of_pos hp, EReal.bot_add, EReal.bot_add]
  | coe l =>
    simp only [← EReal.coe_sub, ← EReal.coe_mul, ← EReal.coe_add]
    congr 1
    ring
  | top =>
    rw [EReal.top_sub_coe, ← EReal.coe_mul, ← EReal.coe_mul]
    rcases lt_trichotomy p 0 with hp | hp | hp
    · rw [EReal.coe_mul_top_of_neg hp, EReal.bot_add, EReal.bot_add]
    · subst hp; simp
    · rw [EReal.coe_mul_top_of_pos hp, EReal.top_add_coe, EReal.top_add_coe]

/-- A real 8192 x 8192 table that is 1 on the diagonal and positive everywhere sums to more than 8192: the diagonal
    alone gives 8192 and the entry (0, 1) is a positive extra. -/
theorem diag_lt_sum (q : Fin 8192 → Fin 8192 → ℝ) (hd : ∀ a, q a a = 1) (hq : ∀ a b, 0 < q a b) :
    (8192 : ℝ) < ∑ a : Fin 8192, ∑ b : Fin 8192, q a b := by
  have h1 : (∑ a : Fin 8192, ∑ b : Fin 8192, (if a = b then (1 : ℝ) else 0)) = 8192 := by
    simp only [Finset.sum_ite_eq, Finset.mem_univ, if_true, Finset.sum_const, Finset.card_univ, Fintype.card_fin,
      nsmul_eq_mul, mul_one]
    norm_num
  rw [← h1]
  have hle : ∀ a b : Fin 8192, (if a = b then (1 : ℝ) else 0) ≤ q a b := by
    intro a b
    split_ifs with h
    · subst h; exact (hd a).ge
    · exact (hq a b).le
  apply Finset.sum_lt_sum
  · intro a _
    exact Finset.sum_le_sum (fun b _ => hle a b)
  · refine ⟨0, Finset.mem_univ _, ?_⟩
    apply Finset.sum_lt_sum
    · intro b _; exact hle 0 b
    · refine ⟨1, Finset.mem_univ _, ?_⟩
      rw [if_neg (by decide)]
      exact hq 0 1

/-- The squared distance of two real points, as the sum of the squared coordinate differences. -/
def dR (xr : Fin 8192 → Fin 2 → ℝ) (a b : Fin 8192) : ℝ := (xr a 0 - xr b 0) ^ 2 + (xr a 1 - xr b 1) ^ 2

theorem dR_nonneg (xr : Fin 8192 → Fin 2 → ℝ) (a b : Fin 8192) : 0 ≤ dR xr a b := by
  unfold dR; positivity

theorem dR_self (xr : Fin 8192 → Fin 2 → ℝ) (a : Fin 8192) : dR xr a a = 0 := by
  simp [dR]

/-- On real points the expanded squared distance is the real squared distance. -/
theorem distE_coe (xr : Fin 8192 → Fin 2 → ℝ) (a b : Fin 8192) :
    distE (fun a k => (xr a k : EReal)) a b = ((dR xr a b : ℝ) : EReal) := by
  have h2 : (2 : EReal) = ((2 : ℝ) : EReal) := by norm_cast
  simp only [distE, sqE, dotE, Fin.sum_univ_two, h2, ← EReal.coe_mul, ← EReal.coe_add, ← EReal.coe_sub]
  congr 1
  unfold dR
  ring

/-- On real points clamping the squared distance at zero changes nothing, since it is >= 0. -/
theorem distK_coe (xr : Fin 8192 → Fin 2 → ℝ) (a b : Fin 8192) :
    distK (fun a k => (xr a k : EReal)) a b = ((dR xr a b : ℝ) : EReal) := by
  rw [distK, distE_coe, max_eq_left]
  exact_mod_cast dR_nonneg xr a b

theorem one_add_coe (d : ℝ) : (1 : EReal) + (d : EReal) = ((1 + d : ℝ) : EReal) := by
  rw [EReal.coe_add, EReal.coe_one]

/-- q = 1 / (1 + distance) is the real quotient. -/
theorem div_one_add_dR (xr : Fin 8192 → Fin 2 → ℝ) (a b : Fin 8192) :
    Ideal.div 1 (1 + ((dR xr a b : ℝ) : EReal)) = ((1 / (1 + dR xr a b) : ℝ) : EReal) := by
  have h := dR_nonneg xr a b
  rw [one_add_coe, Ideal.div_coe (by linarith : (0 : ℝ) < 1 + dR xr a b).ne', one_mul]

/-- log (1 + distance) is the real logarithm, the argument being >= 1. -/
theorem log_one_add_dR (xr : Fin 8192 → Fin 2 → ℝ) (a b : Fin 8192) :
    Ideal.log (1 + ((dR xr a b : ℝ) : EReal)) = ((Real.log (1 + dR xr a b) : ℝ) : EReal) := by
  have h := dR_nonneg xr a b
  rw [one_add_coe, Ideal.log_coe, if_neg (not_le.2 (by linarith))]

/-- The logarithm of a positive real. -/
theorem log_coe_pos (z : ℝ) (hz : 0 < z) : Ideal.log (z : EReal) = ((Real.log z : ℝ) : EReal) := by
  rw [Ideal.log_coe, if_neg (not_le.2 hz)]

/-- log (q / Z) = - log (1 + distance) - log Z for real Z > 0. -/
theorem log_div_dR (xr : Fin 8192 → Fin 2 → ℝ) (z : ℝ) (hz : 0 < z) (a b : Fin 8192) :
    Ideal.log (Ideal.div ((1 / (1 + dR xr a b) : ℝ) : EReal) (z : EReal))
      = ((-Real.log (1 + dR xr a b) - Real.log z : ℝ) : EReal) := by
  have h := dR_nonneg xr a b
  have h1 : (0 : ℝ) < 1 + dR xr a b := by linarith
  rw [Ideal.div_coe hz.ne', ← EReal.coe_mul, log_coe_pos _ (by positivity)]
  congr 1
  rw [Real.log_mul (by positivity) (by positivity), one_div, one_div, Real.log_inv, Real.log_inv]
  ring

/-- A real factor comes out of the double sum of real entries. -/
theorem sum_sum_coe_mul (c : ℝ) (pr : Fin 8192 → Fin 8192 → ℝ) :
    ∑ a : Fin 8192, ∑ b : Fin 8192, (c : EReal) * (pr a b : EReal)
      = (c : EReal) * ∑ a : Fin 8192, ∑ b : Fin 8192, (pr a b : EReal) := by
  simp only [← EReal.coe_mul, ← coe_sum_real, ← Finset.mul_sum]

/-- The two forms agree on tables of real numbers. -/
theorem lossK_eq_lossR_coe (xr : Fin 8192 → Fin 2 → ℝ) (pr : Fin 8192 → Fin 8192 → ℝ) :
    lossK (fun a k => (xr a k : EReal)) (fun a b => (pr a b : EReal))
      = lossR (fun a k => (xr a k : EReal)) (fun a b => (pr a b : EReal)) := by
  obtain ⟨z, hz⟩ : ∃ z : ℝ, z = (∑ a : Fin 8192, ∑ b : Fin 8192, 1 / (1 + dR xr a b)) - 8192 := ⟨_, rfl⟩
  have hzpos : 0 < z := by
    rw [hz]
    refine sub_pos.2 (diag_lt_sum (fun a b => 1 / (1 + dR xr a b)) (fun a => ?_) (fun a b => ?_))
    · simp [dR_self]
    · have := dR_nonneg xr a b
      positivity
  have hZ : (∑ a : Fin 8192, ∑ b : Fin 8192, ((1 / (1 + dR xr a b) : ℝ) : EReal)) - 8192 = (z : EReal) := by
    have h8 : (8192 : EReal) = ((8192 : ℝ) : EReal) := by norm_cast
    simp only [h8, ← coe_sum_real, ← EReal.coe_sub]
    rw [hz]
  unfold lossK lossR
  simp only [distK_coe, distE_coe, div_one_add_dR, log_one_add_dR, hZ, log_div_dR xr z hzpos, log_coe_pos z hzpos,
    entry_open, Finset.sum_add_distrib]
  rw [sum_sum_coe_mul]

/-- The clamped and the plain form of the loss agree when every entry of both tables is a real number. -/
theorem lossK_eq_lossR (X : Fin 8192 → Fin 2 → EReal) (Pm : Fin 8192 → Fin 8192 → EReal)
    (hX : ∀ a k, IsReal (X a k)) (hP : ∀ a b, IsReal (Pm a b)) : lossK X Pm = lossR X Pm := by
  choose xr hxr using hX
  choose pr hpr using hP
  obtain rfl : X = fun a k => (xr a k : EReal) := by funext a k; exact hxr a k
  obtain rfl : Pm = fun a b => (pr a b : EReal) := by funext a b; exact hpr a b
  exact lossK_eq_lossR_coe xr pr

end Cert.KlSpec

end
-- ==== Proof.lean ====
/-
  A t-SNE loss computed by a tiled kernel against its plain reference, equal over the extended reals.

  The inputs are 8192 points in the plane and an 8192 x 8192 table of weights P. With d(a, b) the squared distance
  between points a and b, written the expanded way |a|^2 + |b|^2 - 2 a.b, q(a, b) = 1 / (1 + d(a, b)) and
  Z = (the sum of q over all ordered pairs) - 8192, the reference computes

      the sum over all pairs of  P * (log P - log (q / Z)).

  The kernel walks an 8 x 8 grid of 1024 x 1024 tiles; at each tile it recomputes d from the two 1024-row blocks of
  points, clamps it at zero from below, and adds four tile sums to four accumulators — of q, of P log P, of
  P log (1 + d) and of P; afterwards it returns  (sum P log P + sum P log (1 + d)) + log (sum q - 8192) * sum P.

  Why the two agree when every input is finite. The expanded squared distance of real points is a sum of two squares,
  so it is nonnegative and the clamp changes nothing. Every q is then a real in (0, 1], it is 1 on the diagonal, and
  there are off-diagonal pairs, so Z is a positive real and log (q / Z) = -log (1 + d) - log Z. For a real weight p
  and ANY extended-real value l of log p (the weights are finite, not positive: log p may be minus infinity), one has
  p * (l - (-L - c)) = p * l + p * L + c * p for reals L and c — by cases on l and on the sign of p, since the extended
  reals do not distribute in general. Sums split termwise because addition of extended reals is commutative and
  associative, and a real factor comes out of a sum of reals. On the kernel's side the sum over the grid of the tile
  sums is the sum over all pairs, a regrouping.

  The three programs run to the end without a fault and leave their arguments as they were: the reference by its
  generated run; the kernel, at the word level and idealized, by one argument written for any float instance — the
  region's body obligation at each of the 64 points (the accumulators cleared at the first point and carried between
  points), the two windows that read the array of points each holding a half of it, and the host operations after
  the region run on the buffers the region hands back.
-/
import proofs.«103825_j43121471651900_1_alg».proof.Defs
import proofs.«103825_j43121471651900_1_alg».proof.Proof.Gen.Kernel
import proofs.«103825_j43121471651900_1_alg».proof.Proof.Gen.KernelIdeal
import proofs.«103825_j43121471651900_1_alg».proof.Proof.Gen.ReferenceIdeal
import proofs.«103825_j43121471651900_1_alg».proof.Proof.Gen.Pre_finite_inputs
import proofs.«103825_j43121471651900_1_alg».proof.Proof.Gen.ReferenceIdeal.Run
import proofs.«103825_j43121471651900_1_alg».proof.Proof.Gen.ReferenceIdeal.Read
import proofs.«103825_j43121471651900_1_alg».proof.Proof.KbMain
import proofs.«103825_j43121471651900_1_alg».proof.Proof.KiValue
import proofs.«103825_j43121471651900_1_alg».proof.Proof.RefValue
import proofs.«103825_j43121471651900_1_alg».proof.Proof.FinitePre
import proofs.«103825_j43121471651900_1_alg».proof.Proof.KlBridge
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_p : Cert.frame_Kernel := fun m ρ _ => Cert.Kernel.Fr.frame m ρ

/-- The idealized kernel runs and leaves its arguments unchanged. -/
theorem frame_pi : Cert.frame_KernelIdeal := fun m ρ _ => Cert.KernelIdeal.Fr.frame m ρ

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments, the idealized kernel ends at the clamped closed form of the loss and the
    reference at the plain one; for finite inputs the two are one extended real. -/
theorem algebraic : Cert.algebraic_KernelIdeal_ReferenceIdeal := by
  intro m ρ m' ρ' hpre hagree
  refine ⟨fun c => fun _ => Cert.KlSpec.lossK (Cert.KlSpec.Xof (m ((c.tc : Thread Cert.KernelIdeal.nD Cert.KernelIdeal.τ).loc Cert.KernelIdeal.main_arg0)))
      (Cert.KlSpec.Pof (m ((c.tc : Thread Cert.KernelIdeal.nD Cert.KernelIdeal.τ).loc Cert.KernelIdeal.main_arg1))), ?_, ?_⟩
  · exact (θ_run Cert.KernelIdeal.defs _ _).mono
      (fun _ h c => ⟨(h c).1.trans (Cert.KernelIdeal.Fr.kernel_value m ρ c), (h c).2.1, (h c).2.2⟩) (Cert.KernelIdeal.Fr.run_main m ρ)
  · refine (θ_run Cert.ReferenceIdeal.defs _ _).mono (fun _ h c => ⟨?_, (h c).2⟩) (Cert.ReferenceIdeal.Value.run (F := Ideal) m' ρ')
    have hr := Cert.FinitePre.tables_real _ _ (hpre c)
    rw [(h c).1, Cert.ReferenceIdeal.Read.val_main_v24_eq, Cert.ReferenceIdeal.RefValue.ref_value, (hagree c).1, (hagree c).2,
      ← Cert.KlSpec.lossK_eq_lossR _ _ hr.1 hr.2]
    rfl

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
